-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x256 : Shape := ⟨2, ![2048, 256]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S1024x2048 .f32) (main_arg1 : FVec F S2048x256 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S1024x2048 : Shape := ⟨2, ![1024, 2048]⟩
abbrev S2048x256 : Shape := ⟨2, ![2048, 256]⟩
abbrev S1024x256 : Shape := ⟨2, ![1024, 256]⟩
abbrev S256x512 : Shape := ⟨2, ![256, 512]⟩
abbrev S512x256 : Shape := ⟨2, ![512, 256]⟩
abbrev S256x256 : Shape := ⟨2, ![256, 256]⟩
abbrev S1024x32x8 : Shape := ⟨3, ![1024, 32, 8]⟩
abbrev S8x32x1024 : Shape := ⟨3, ![8, 32, 1024]⟩
abbrev S32x1024 : Shape := ⟨2, ![32, 1024]⟩
abbrev S8x32x128 : Shape := ⟨3, ![8, 32, 128]⟩
abbrev S32x128 : Shape := ⟨2, ![32, 128]⟩
abbrev S128x128 : Shape := ⟨2, ![128, 128]⟩
abbrev S1x1x128 : Shape := ⟨3, ![1, 1, 128]⟩
abbrev S128 : Shape := ⟨1, ![128]⟩
abbrev S128x1 : Shape := ⟨2, ![128, 1]⟩
abbrev S1x128 : Shape := ⟨2, ![1, 128]⟩
abbrev S1024x32 : Shape := ⟨2, ![1024, 32]⟩
abbrev S1024x2080 : Shape := ⟨2, ![1024, 2080]⟩

abbrev nBuf : Space → Nat
  | .hbm => 8
  | .vmem => 13
  | .smem => 0
  | _ => 0

abbrev bufTy : (tb : Table) → Fin (tcTables nBuf tb) → BufTy
  | .hbm, ⟨0, _⟩ => ⟨S1024x2048, .f32⟩
  | .hbm, ⟨1, _⟩ => ⟨S2048x256, .f32⟩
  | .hbm, ⟨2, _⟩ => ⟨S1024x256, .f32⟩
  | .hbm, ⟨3, _⟩ => ⟨S1024x32x8, .f32⟩
  | .hbm, ⟨4, _⟩ => ⟨S8x32x1024, .f32⟩
  | .hbm, ⟨5, _⟩ => ⟨S32x1024, .f32⟩
  | .hbm, ⟨6, _⟩ => ⟨S1024x32, .f32⟩
  | .hbm, ⟨7, _⟩ => ⟨S1024x2080, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S8x32x128, .f32⟩
  | .local _ .vmem, ⟨8, _⟩ => ⟨S8x32x128, .f32⟩
  | .local _ .vmem, ⟨9, _⟩ => ⟨S8x32x128, .f32⟩
  | .local _ .vmem, ⟨10, _⟩ => ⟨S8x32x128, .f32⟩
  | .local _ .vmem, ⟨11, _⟩ => ⟨S32x128, .f32⟩
  | .local _ .vmem, ⟨12, _⟩ => ⟨S32x128, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S1024x256_S1024x32x8 : S1024x256.ShapeCasts S1024x32x8
  transposes_S1024x32x8_S8x32x1024_2_1_0 : S1024x32x8.Transposes [2, 1, 0] S8x32x1024
  inb_S32x128_S32x128_0_0 : ∀ a, (![0, 0] : Fin 2 → Nat) a + S32x128.size a ≤ S32x128.size a
  h_S32x128 : 0 < S32x128.numel
  inb_S8x32x128_S1x1x128_0_0_0 : ∀ a, (![0, 0, 0] : Fin 3 → Nat) a + S1x1x128.size a ≤ S8x32x128.size a
  h_S1x1x128 : 0 < S1x1x128.numel
  shapeCasts_S1x1x128_S128 : S1x1x128.ShapeCasts S128
  shapeCasts_S128_S128x1 : S128.ShapeCasts S128x1
  shapeCasts_S128_S1x128 : S128.ShapeCasts S1x128
  broadcasts_S128x1_S128x128 : S128x1.Broadcasts S128x128
  broadcasts_S1x128_S128x128 : S1x128.Broadcasts S128x128
  inb_S8x32x128_S1x1x128_1_0_0 : ∀ a, (![1, 0, 0] : Fin 3 → Nat) a + S1x1x128.size a ≤ S8x32x128.size a
  inb_S8x32x128_S1x1x128_2_0_0 : ∀ a, (![2, 0, 0] : Fin 3 → Nat) a + S1x1x128.size a ≤ S8x32x128.size a
  inb_S8x32x128_S1x1x128_3_0_0 : ∀ a, (![3, 0, 0] : Fin 3 → Nat) a + S1x1x128.size a ≤ S8x32x128.size a
  inb_S8x32x128_S1x1x128_4_0_0 : ∀ a, (![4, 0, 0] : Fin 3 → Nat) a + S1x1x128.size a ≤ S8x32x128.size a
  inb_S8x32x128_S1x1x128_5_0_0 : ∀ a, (![5, 0, 0] : Fin 3 → Nat) a + S1x1x128.size a ≤ S8x32x128.size a
  inb_S8x32x128_S1x1x128_6_0_0 : ∀ a, (![6, 0, 0] : Fin 3 → Nat) a + S1x1x128.size a ≤ S8x32x128.size a
  inb_S8x32x128_S1x1x128_7_0_0 : ∀ a, (![7, 0, 0] : Fin 3 → Nat) a + S1x1x128.size a ≤ S8x32x128.size a
  reduces_S128x128_S128 : S128x128.Reduces [1] S128
  inb_S32x128_S1x128_0_0 : ∀ a, (![0, 0] : Fin 2 → Nat) a + S1x128.size a ≤ S32x128.size a
  h_S1x128 : 0 < S1x128.numel
  shapeCasts_S1x128_S128 : S1x128.ShapeCasts S128
  inb_S8x32x128_S1x1x128_0_1_0 : ∀ a, (![0, 1, 0] : Fin 3 → Nat) a + S1x1x128.size a ≤ S8x32x128.size a
  inb_S8x32x128_S1x1x128_1_1_0 : ∀ a, (![1, 1, 0] : Fin 3 → Nat) a + S1x1x128.size a ≤ S8x32x128.size a
  inb_S8x32x128_S1x1x128_2_1_0 : ∀ a, (![2, 1, 0] : Fin 3 → Nat) a + S1x1x128.size a ≤ S8x32x128.size a
  inb_S8x32x128_S1x1x128_3_1_0 : ∀ a, (![3, 1, 0] : Fin 3 → Nat) a + S1x1x128.size a ≤ S8x32x128.size a
  inb_S8x32x128_S1x1x128_4_1_0 : ∀ a, (![4, 1, 0] : Fin 3 → Nat) a + S1x1x128.size a ≤ S8x32x128.size a
  inb_S8x32x128_S1x1x128_5_1_0 : ∀ a, (![5, 1, 0] : Fin 3 → Nat) a + S1x1x128.size a ≤ S8x32x128.size a
  inb_S8x32x128_S1x1x128_6_1_0 : ∀ a, (![6, 1, 0] : Fin 3 → Nat) a + S1x1x128.size a ≤ S8x32x128.size a
  inb_S8x32x128_S1x1x128_7_1_0 : ∀ a, (![7, 1, 0] : Fin 3 → Nat) a + S1x1x128.size a ≤ S8x32x128.size a
  inb_S32x128_S1x128_1_0 : ∀ a, (![1, 0] : Fin 2 → Nat) a + S1x128.size a ≤ S32x128.size a
  inb_S8x32x128_S1x1x128_0_2_0 : ∀ a, (![0, 2, 0] : Fin 3 → Nat) a + S1x1x128.size a ≤ S8x32x128.size a
  inb_S8x32x128_S1x1x128_1_2_0 : ∀ a, (![1, 2, 0] : Fin 3 → Nat) a + S1x1x128.size a ≤ S8x32x128.size a
  inb_S8x32x128_S1x1x128_2_2_0 : ∀ a, (![2, 2, 0] : Fin 3 → Nat) a + S1x1x128.size a ≤ S8x32x128.size a
  inb_S8x32x128_S1x1x128_3_2_0 : ∀ a, (![3, 2, 0] : Fin 3 → Nat) a + S1x1x128.size a ≤ S8x32x128.size a
  inb_S8x32x128_S1x1x128_4_2_0 : ∀ a, (![4, 2, 0] : Fin 3 → Nat) a + S1x1x128.size a ≤ S8x32x128.size a
  inb_S8x32x128_S1x1x128_5_2_0 : ∀ a, (![5, 2, 0] : Fin 3 → Nat) a + S1x1x128.size a ≤ S8x32x128.size a
  inb_S8x32x128_S1x1x128_6_2_0 : ∀ a, (![6, 2, 0] : Fin 3 → Nat) a + S1x1x128.size a ≤ S8x32x128.size a
  inb_S8x32x128_S1x1x128_7_2_0 : ∀ a, (![7, 2, 0] : Fin 3 → Nat) a + S1x1x128.size a ≤ S8x32x128.size a
  inb_S32x128_S1x128_2_0 : ∀ a, (![2, 0] : Fin 2 → Nat) a + S1x128.size a ≤ S32x128.size a
  inb_S8x32x128_S1x1x128_0_3_0 : ∀ a, (![0, 3, 0] : Fin 3 → Nat) a + S1x1x128.size a ≤ S8x32x128.size a
  inb_S8x32x128_S1x1x128_1_3_0 : ∀ a, (![1, 3, 0] : Fin 3 → Nat) a + S1x1x128.size a ≤ S8x32x128.size a
  inb_S8x32x128_S1x1x128_2_3_0 : ∀ a, (![2, 3, 0] : Fin 3 → Nat) a + S1x1x128.size a ≤ S8x32x128.size a
  inb_S8x32x128_S1x1x128_3_3_0 : ∀ a, (![3, 3, 0] : Fin 3 → Nat) a + S1x1x128.size a ≤ S8x32x128.size a
  inb_S8x32x128_S1x1x128_4_3_0 : ∀ a, (![4, 3, 0] : Fin 3 → Nat) a + S1x1x128.size a ≤ S8x32x128.size a
  inb_S8x32x128_S1x1x128_5_3_0 : ∀ a, (![5, 3, 0] : Fin 3 → Nat) a + S1x1x128.size a ≤ S8x32x128.size a
  inb_S8x32x128_S1x1x128_6_3_0 : ∀ a, (![6, 3, 0] : Fin 3 → Nat) a + S1x1x128.size a ≤ S8x32x128.size a
  inb_S8x32x128_S1x1x128_7_3_0 : ∀ a, (![7, 3, 0] : Fin 3 → Nat) a + S1x1x128.size a ≤ S8x32x128.size a
  inb_S32x128_S1x128_3_0 : ∀ a, (![3, 0] : Fin 2 → Nat) a + S1x128.size a ≤ S32x128.size a
  inb_S8x32x128_S1x1x128_0_4_0 : ∀ a, (![0, 4, 0] : Fin 3 → Nat) a + S1x1x128.size a ≤ S8x32x128.size a
  inb_S8x32x128_S1x1x128_1_4_0 : ∀ a, (![1, 4, 0] : Fin 3 → Nat) a + S1x1x128.size a ≤ S8x32x128.size a
  inb_S8x32x128_S1x1x128_2_4_0 : ∀ a, (![2, 4, 0] : Fin 3 → Nat) a + S1x1x128.size a ≤ S8x32x128.size a
  inb_S8x32x128_S1x1x128_3_4_0 : ∀ a, (![3, 4, 0] : Fin 3 → Nat) a + S1x1x128.size a ≤ S8x32x128.size a
  inb_S8x32x128_S1x1x128_4_4_0 : ∀ a, (![4, 4, 0] : Fin 3 → Nat) a + S1x1x128.size a ≤ S8x32x128.size a
  inb_S8x32x128_S1x1x128_5_4_0 : ∀ a, (![5, 4, 0] : Fin 3 → Nat) a + S1x1x128.size a ≤ S8x32x128.size a
  inb_S8x32x128_S1x1x128_6_4_0 : ∀ a, (![6, 4, 0] : Fin 3 → Nat) a + S1x1x128.size a ≤ S8x32x128.size a
  inb_S8x32x128_S1x1x128_7_4_0 : ∀ a, (![7, 4, 0] : Fin 3 → Nat) a + S1x1x128.size a ≤ S8x32x128.size a
  inb_S32x128_S1x128_4_0 : ∀ a, (![4, 0] : Fin 2 → Nat) a + S1x128.size a ≤ S32x128.size a
  inb_S8x32x128_S1x1x128_0_5_0 : ∀ a, (![0, 5, 0] : Fin 3 → Nat) a + S1x1x128.size a ≤ S8x32x128.size a
  inb_S8x32x128_S1x1x128_1_5_0 : ∀ a, (![1, 5, 0] : Fin 3 → Nat) a + S1x1x128.size a ≤ S8x32x128.size a
  inb_S8x32x128_S1x1x128_2_5_0 : ∀ a, (![2, 5, 0] : Fin 3 → Nat) a + S1x1x128.size a ≤ S8x32x128.size a
  inb_S8x32x128_S1x1x128_3_5_0 : ∀ a, (![3, 5, 0] : Fin 3 → Nat) a + S1x1x128.size a ≤ S8x32x128.size a
  inb_S8x32x128_S1x1x128_4_5_0 : ∀ a, (![4, 5, 0] : Fin 3 → Nat) a + S1x1x128.size a ≤ S8x32x128.size a
  inb_S8x32x128_S1x1x128_5_5_0 : ∀ a, (![5, 5, 0] : Fin 3 → Nat) a + S1x1x128.size a ≤ S8x32x128.size a
  inb_S8x32x128_S1x1x128_6_5_0 : ∀ a, (![6, 5, 0] : Fin 3 → Nat) a + S1x1x128.size a ≤ S8x32x128.size a
  inb_S8x32x128_S1x1x128_7_5_0 : ∀ a, (![7, 5, 0] : Fin 3 → Nat) a + S1x1x128.size a ≤ S8x32x128.size a
  inb_S32x128_S1x128_5_0 : ∀ a, (![5, 0] : Fin 2 → Nat) a + S1x128.size a ≤ S32x128.size a
  inb_S8x32x128_S1x1x128_0_6_0 : ∀ a, (![0, 6, 0] : Fin 3 → Nat) a + S1x1x128.size a ≤ S8x32x128.size a
  inb_S8x32x128_S1x1x128_1_6_0 : ∀ a, (![1, 6, 0] : Fin 3 → Nat) a + S1x1x128.size a ≤ S8x32x128.size a
  inb_S8x32x128_S1x1x128_2_6_0 : ∀ a, (![2, 6, 0] : Fin 3 → Nat) a + S1x1x128.size a ≤ S8x32x128.size a
  inb_S8x32x128_S1x1x128_3_6_0 : ∀ a, (![3, 6, 0] : Fin 3 → Nat) a + S1x1x128.size a ≤ S8x32x128.size a
  inb_S8x32x128_S1x1x128_4_6_0 : ∀ a, (![4, 6, 0] : Fin 3 → Nat) a + S1x1x128.size a ≤ S8x32x128.size a
  inb_S8x32x128_S1x1x128_5_6_0 : ∀ a, (![5, 6, 0] : Fin 3 → Nat) a + S1x1x128.size a ≤ S8x32x128.size a
  inb_S8x32x128_S1x1x128_6_6_0 : ∀ a, (![6, 6, 0] : Fin 3 → Nat) a + S1x1x128.size a ≤ S8x32x128.size a
  inb_S8x32x128_S1x1x128_7_6_0 : ∀ a, (![7, 6, 0] : Fin 3 → Nat) a + S1x1x128.size a ≤ S8x32x128.size a
  inb_S32x128_S1x128_6_0 : ∀ a, (![6, 0] : Fin 2 → Nat) a + S1x128.size a ≤ S32x128.size a
  inb_S8x32x128_S1x1x128_0_7_0 : ∀ a, (![0, 7, 0] : Fin 3 → Nat) a + S1x1x128.size a ≤ S8x32x128.size a
  inb_S8x32x128_S1x1x128_1_7_0 : ∀ a, (![1, 7, 0] : Fin 3 → Nat) a + S1x1x128.size a ≤ S8x32x128.size a
  inb_S8x32x128_S1x1x128_2_7_0 : ∀ a, (![2, 7, 0] : Fin 3 → Nat) a + S1x1x128.size a ≤ S8x32x128.size a
  inb_S8x32x128_S1x1x128_3_7_0 : ∀ a, (![3, 7, 0] : Fin 3 → Nat) a + S1x1x128.size a ≤ S8x32x128.size a
  inb_S8x32x128_S1x1x128_4_7_0 : ∀ a, (![4, 7, 0] : Fin 3 → Nat) a + S1x1x128.size a ≤ S8x32x128.size a
  inb_S8x32x128_S1x1x128_5_7_0 : ∀ a, (![5, 7, 0] : Fin 3 → Nat) a + S1x1x128.size a ≤ S8x32x128.size a
  inb_S8x32x128_S1x1x128_6_7_0 : ∀ a, (![6, 7, 0] : Fin 3 → Nat) a + S1x1x128.size a ≤ S8x32x128.size a
  inb_S8x32x128_S1x1x128_7_7_0 : ∀ a, (![7, 7, 0] : Fin 3 → Nat) a + S1x1x128.size a ≤ S8x32x128.size a
  inb_S32x128_S1x128_7_0 : ∀ a, (![7, 0] : Fin 2 → Nat) a + S1x128.size a ≤ S32x128.size a
  inb_S8x32x128_S1x1x128_0_8_0 : ∀ a, (![0, 8, 0] : Fin 3 → Nat) a + S1x1x128.size a ≤ S8x32x128.size a
  inb_S8x32x128_S1x1x128_1_8_0 : ∀ a, (![1, 8, 0] : Fin 3 → Nat) a + S1x1x128.size a ≤ S8x32x128.size a
  inb_S8x32x128_S1x1x128_2_8_0 : ∀ a, (![2, 8, 0] : Fin 3 → Nat) a + S1x1x128.size a ≤ S8x32x128.size a
  inb_S8x32x128_S1x1x128_3_8_0 : ∀ a, (![3, 8, 0] : Fin 3 → Nat) a + S1x1x128.size a ≤ S8x32x128.size a
  inb_S8x32x128_S1x1x128_4_8_0 : ∀ a, (![4, 8, 0] : Fin 3 → Nat) a + S1x1x128.size a ≤ S8x32x128.size a
  inb_S8x32x128_S1x1x128_5_8_0 : ∀ a, (![5, 8, 0] : Fin 3 → Nat) a + S1x1x128.size a ≤ S8x32x128.size a
  inb_S8x32x128_S1x1x128_6_8_0 : ∀ a, (![6, 8, 0] : Fin 3 → Nat) a + S1x1x128.size a ≤ S8x32x128.size a
  inb_S8x32x128_S1x1x128_7_8_0 : ∀ a, (![7, 8, 0] : Fin 3 → Nat) a + S1x1x128.size a ≤ S8x32x128.size a
  inb_S32x128_S1x128_8_0 : ∀ a, (![8, 0] : Fin 2 → Nat) a + S1x128.size a ≤ S32x128.size a
  inb_S8x32x128_S1x1x128_0_9_0 : ∀ a, (![0, 9, 0] : Fin 3 → Nat) a + S1x1x128.size a ≤ S8x32x128.size a
  inb_S8x32x128_S1x1x128_1_9_0 : ∀ a, (![1, 9, 0] : Fin 3 → Nat) a + S1x1x128.size a ≤ S8x32x128.size a
  inb_S8x32x128_S1x1x128_2_9_0 : ∀ a, (![2, 9, 0] : Fin 3 → Nat) a + S1x1x128.size a ≤ S8x32x128.size a
  inb_S8x32x128_S1x1x128_3_9_0 : ∀ a, (![3, 9, 0] : Fin 3 → Nat) a + S1x1x128.size a ≤ S8x32x128.size a
  inb_S8x32x128_S1x1x128_4_9_0 : ∀ a, (![4, 9, 0] : Fin 3 → Nat) a + S1x1x128.size a ≤ S8x32x128.size a
  inb_S8x32x128_S1x1x128_5_9_0 : ∀ a, (![5, 9, 0] : Fin 3 → Nat) a + S1x1x128.size a ≤ S8x32x128.size a
  inb_S8x32x128_S1x1x128_6_9_0 : ∀ a, (![6, 9, 0] : Fin 3 → Nat) a + S1x1x128.size a ≤ S8x32x128.size a
  inb_S8x32x128_S1x1x128_7_9_0 : ∀ a, (![7, 9, 0] : Fin 3 → Nat) a + S1x1x128.size a ≤ S8x32x128.size a
  inb_S32x128_S1x128_9_0 : ∀ a, (![9, 0] : Fin 2 → Nat) a + S1x128.size a ≤ S32x128.size a
  inb_S8x32x128_S1x1x128_0_10_0 : ∀ a, (![0, 10, 0] : Fin 3 → Nat) a + S1x1x128.size a ≤ S8x32x128.size a
  inb_S8x32x128_S1x1x128_1_10_0 : ∀ a, (![1, 10, 0] : Fin 3 → Nat) a + S1x1x128.size a ≤ S8x32x128.size a
  inb_S8x32x128_S1x1x128_2_10_0 : ∀ a, (![2, 10, 0] : Fin 3 → Nat) a + S1x1x128.size a ≤ S8x32x128.size a
  inb_S8x32x128_S1x1x128_3_10_0 : ∀ a, (![3, 10, 0] : Fin 3 → Nat) a + S1x1x128.size a ≤ S8x32x128.size a
  inb_S8x32x128_S1x1x128_4_10_0 : ∀ a, (![4, 10, 0] : Fin 3 → Nat) a + S1x1x128.size a ≤ S8x32x128.size a
  inb_S8x32x128_S1x1x128_5_10_0 : ∀ a, (![5, 10, 0] : Fin 3 → Nat) a + S1x1x128.size a ≤ S8x32x128.size a
  inb_S8x32x128_S1x1x128_6_10_0 : ∀ a, (![6, 10, 0] : Fin 3 → Nat) a + S1x1x128.size a ≤ S8x32x128.size a
  inb_S8x32x128_S1x1x128_7_10_0 : ∀ a, (![7, 10, 0] : Fin 3 → Nat) a + S1x1x128.size a ≤ S8x32x128.size a
  inb_S32x128_S1x128_10_0 : ∀ a, (![10, 0] : Fin 2 → Nat) a + S1x128.size a ≤ S32x128.size a
  inb_S8x32x128_S1x1x128_0_11_0 : ∀ a, (![0, 11, 0] : Fin 3 → Nat) a + S1x1x128.size a ≤ S8x32x128.size a
  inb_S8x32x128_S1x1x128_1_11_0 : ∀ a, (![1, 11, 0] : Fin 3 → Nat) a + S1x1x128.size a ≤ S8x32x128.size a
  inb_S8x32x128_S1x1x128_2_11_0 : ∀ a, (![2, 11, 0] : Fin 3 → Nat) a + S1x1x128.size a ≤ S8x32x128.size a
  inb_S8x32x128_S1x1x128_3_11_0 : ∀ a, (![3, 11, 0] : Fin 3 → Nat) a + S1x1x128.size a ≤ S8x32x128.size a
  inb_S8x32x128_S1x1x128_4_11_0 : ∀ a, (![4, 11, 0] : Fin 3 → Nat) a + S1x1x128.size a ≤ S8x32x128.size a
  inb_S8x32x128_S1x1x128_5_11_0 : ∀ a, (![5, 11, 0] : Fin 3 → Nat) a + S1x1x128.size a ≤ S8x32x128.size a
  inb_S8x32x128_S1x1x128_6_11_0 : ∀ a, (![6, 11, 0] : Fin 3 → Nat) a + S1x1x128.size a ≤ S8x32x128.size a
  inb_S8x32x128_S1x1x128_7_11_0 : ∀ a, (![7, 11, 0] : Fin 3 → Nat) a + S1x1x128.size a ≤ S8x32x128.size a
  inb_S32x128_S1x128_11_0 : ∀ a, (![11, 0] : Fin 2 → Nat) a + S1x128.size a ≤ S32x128.size a
  inb_S8x32x128_S1x1x128_0_12_0 : ∀ a, (![0, 12, 0] : Fin 3 → Nat) a + S1x1x128.size a ≤ S8x32x128.size a
  inb_S8x32x128_S1x1x128_1_12_0 : ∀ a, (![1, 12, 0] : Fin 3 → Nat) a + S1x1x128.size a ≤ S8x32x128.size a
  inb_S8x32x128_S1x1x128_2_12_0 : ∀ a, (![2, 12, 0] : Fin 3 → Nat) a + S1x1x128.size a ≤ S8x32x128.size a
  inb_S8x32x128_S1x1x128_3_12_0 : ∀ a, (![3, 12, 0] : Fin 3 → Nat) a + S1x1x128.size a ≤ S8x32x128.size a
  inb_S8x32x128_S1x1x128_4_12_0 : ∀ a, (![4, 12, 0] : Fin 3 → Nat) a + S1x1x128.size a ≤ S8x32x128.size a
  inb_S8x32x128_S1x1x128_5_12_0 : ∀ a, (![5, 12, 0] : Fin 3 → Nat) a + S1x1x128.size a ≤ S8x32x128.size a
  inb_S8x32x128_S1x1x128_6_12_0 : ∀ a, (![6, 12, 0] : Fin 3 → Nat) a + S1x1x128.size a ≤ S8x32x128.size a
  inb_S8x32x128_S1x1x128_7_12_0 : ∀ a, (![7, 12, 0] : Fin 3 → Nat) a + S1x1x128.size a ≤ S8x32x128.size a
  inb_S32x128_S1x128_12_0 : ∀ a, (![12, 0] : Fin 2 → Nat) a + S1x128.size a ≤ S32x128.size a
  inb_S8x32x128_S1x1x128_0_13_0 : ∀ a, (![0, 13, 0] : Fin 3 → Nat) a + S1x1x128.size a ≤ S8x32x128.size a
  inb_S8x32x128_S1x1x128_1_13_0 : ∀ a, (![1, 13, 0] : Fin 3 → Nat) a + S1x1x128.size a ≤ S8x32x128.size a
  inb_S8x32x128_S1x1x128_2_13_0 : ∀ a, (![2, 13, 0] : Fin 3 → Nat) a + S1x1x128.size a ≤ S8x32x128.size a
  inb_S8x32x128_S1x1x128_3_13_0 : ∀ a, (![3, 13, 0] : Fin 3 → Nat) a + S1x1x128.size a ≤ S8x32x128.size a
  inb_S8x32x128_S1x1x128_4_13_0 : ∀ a, (![4, 13, 0] : Fin 3 → Nat) a + S1x1x128.size a ≤ S8x32x128.size a
  inb_S8x32x128_S1x1x128_5_13_0 : ∀ a, (![5, 13, 0] : Fin 3 → Nat) a + S1x1x128.size a ≤ S8x32x128.size a
  inb_S8x32x128_S1x1x128_6_13_0 : ∀ a, (![6, 13, 0] : Fin 3 → Nat) a + S1x1x128.size a ≤ S8x32x128.size a
  inb_S8x32x128_S1x1x128_7_13_0 : ∀ a, (![7, 13, 0] : Fin 3 → Nat) a + S1x1x128.size a ≤ S8x32x128.size a
  inb_S32x128_S1x128_13_0 : ∀ a, (![13, 0] : Fin 2 → Nat) a + S1x128.size a ≤ S32x128.size a
  inb_S8x32x128_S1x1x128_0_14_0 : ∀ a, (![0, 14, 0] : Fin 3 → Nat) a + S1x1x128.size a ≤ S8x32x128.size a
  inb_S8x32x128_S1x1x128_1_14_0 : ∀ a, (![1, 14, 0] : Fin 3 → Nat) a + S1x1x128.size a ≤ S8x32x128.size a
  inb_S8x32x128_S1x1x128_2_14_0 : ∀ a, (![2, 14, 0] : Fin 3 → Nat) a + S1x1x128.size a ≤ S8x32x128.size a
  inb_S8x32x128_S1x1x128_3_14_0 : ∀ a, (![3, 14, 0] : Fin 3 → Nat) a + S1x1x128.size a ≤ S8x32x128.size a
  inb_S8x32x128_S1x1x128_4_14_0 : ∀ a, (![4, 14, 0] : Fin 3 → Nat) a + S1x1x128.size a ≤ S8x32x128.size a
  inb_S8x32x128_S1x1x128_5_14_0 : ∀ a, (![5, 14, 0] : Fin 3 → Nat) a + S1x1x128.size a ≤ S8x32x128.size a
  inb_S8x32x128_S1x1x128_6_14_0 : ∀ a, (![6, 14, 0] : Fin 3 → Nat) a + S1x1x128.size a ≤ S8x32x128.size a
  inb_S8x32x128_S1x1x128_7_14_0 : ∀ a, (![7, 14, 0] : Fin 3 → Nat) a + S1x1x128.size a ≤ S8x32x128.size a
  inb_S32x128_S1x128_14_0 : ∀ a, (![14, 0] : Fin 2 → Nat) a + S1x128.size a ≤ S32x128.size a
  inb_S8x32x128_S1x1x128_0_15_0 : ∀ a, (![0, 15, 0] : Fin 3 → Nat) a + S1x1x128.size a ≤ S8x32x128.size a
  inb_S8x32x128_S1x1x128_1_15_0 : ∀ a, (![1, 15, 0] : Fin 3 → Nat) a + S1x1x128.size a ≤ S8x32x128.size a
  inb_S8x32x128_S1x1x128_2_15_0 : ∀ a, (![2, 15, 0] : Fin 3 → Nat) a + S1x1x128.size a ≤ S8x32x128.size a
  inb_S8x32x128_S1x1x128_3_15_0 : ∀ a, (![3, 15, 0] : Fin 3 → Nat) a + S1x1x128.size a ≤ S8x32x128.size a
  inb_S8x32x128_S1x1x128_4_15_0 : ∀ a, (![4, 15, 0] : Fin 3 → Nat) a + S1x1x128.size a ≤ S8x32x128.size a
  inb_S8x32x128_S1x1x128_5_15_0 : ∀ a, (![5, 15, 0] : Fin 3 → Nat) a + S1x1x128.size a ≤ S8x32x128.size a
  inb_S8x32x128_S1x1x128_6_15_0 : ∀ a, (![6, 15, 0] : Fin 3 → Nat) a + S1x1x128.size a ≤ S8x32x128.size a
  inb_S8x32x128_S1x1x128_7_15_0 : ∀ a, (![7, 15, 0] : Fin 3 → Nat) a + S1x1x128.size a ≤ S8x32x128.size a
  inb_S32x128_S1x128_15_0 : ∀ a, (![15, 0] : Fin 2 → Nat) a + S1x128.size a ≤ S32x128.size a
  inb_S8x32x128_S1x1x128_0_16_0 : ∀ a, (![0, 16, 0] : Fin 3 → Nat) a + S1x1x128.size a ≤ S8x32x128.size a
  inb_S8x32x128_S1x1x128_1_16_0 : ∀ a, (![1, 16, 0] : Fin 3 → Nat) a + S1x1x128.size a ≤ S8x32x128.size a
  inb_S8x32x128_S1x1x128_2_16_0 : ∀ a, (![2, 16, 0] : Fin 3 → Nat) a + S1x1x128.size a ≤ S8x32x128.size a
  inb_S8x32x128_S1x1x128_3_16_0 : ∀ a, (![3, 16, 0] : Fin 3 → Nat) a + S1x1x128.size a ≤ S8x32x128.size a
  inb_S8x32x128_S1x1x128_4_16_0 : ∀ a, (![4, 16, 0] : Fin 3 → Nat) a + S1x1x128.size a ≤ S8x32x128.size a
  inb_S8x32x128_S1x1x128_5_16_0 : ∀ a, (![5, 16, 0] : Fin 3 → Nat) a + S1x1x128.size a ≤ S8x32x128.size a
  inb_S8x32x128_S1x1x128_6_16_0 : ∀ a, (![6, 16, 0] : Fin 3 → Nat) a + S1x1x128.size a ≤ S8x32x128.size a
  inb_S8x32x128_S1x1x128_7_16_0 : ∀ a, (![7, 16, 0] : Fin 3 → Nat) a + S1x1x128.size a ≤ S8x32x128.size a
  inb_S32x128_S1x128_16_0 : ∀ a, (![16, 0] : Fin 2 → Nat) a + S1x128.size a ≤ S32x128.size a
  inb_S8x32x128_S1x1x128_0_17_0 : ∀ a, (![0, 17, 0] : Fin 3 → Nat) a + S1x1x128.size a ≤ S8x32x128.size a
  inb_S8x32x128_S1x1x128_1_17_0 : ∀ a, (![1, 17, 0] : Fin 3 → Nat) a + S1x1x128.size a ≤ S8x32x128.size a
  inb_S8x32x128_S1x1x128_2_17_0 : ∀ a, (![2, 17, 0] : Fin 3 → Nat) a + S1x1x128.size a ≤ S8x32x128.size a
  inb_S8x32x128_S1x1x128_3_17_0 : ∀ a, (![3, 17, 0] : Fin 3 → Nat) a + S1x1x128.size a ≤ S8x32x128.size a
  inb_S8x32x128_S1x1x128_4_17_0 : ∀ a, (![4, 17, 0] : Fin 3 → Nat) a + S1x1x128.size a ≤ S8x32x128.size a
  inb_S8x32x128_S1x1x128_5_17_0 : ∀ a, (![5, 17, 0] : Fin 3 → Nat) a + S1x1x128.size a ≤ S8x32x128.size a
  inb_S8x32x128_S1x1x128_6_17_0 : ∀ a, (![6, 17, 0] : Fin 3 → Nat) a + S1x1x128.size a ≤ S8x32x128.size a
  inb_S8x32x128_S1x1x128_7_17_0 : ∀ a, (![7, 17, 0] : Fin 3 → Nat) a + S1x1x128.size a ≤ S8x32x128.size a
  inb_S32x128_S1x128_17_0 : ∀ a, (![17, 0] : Fin 2 → Nat) a + S1x128.size a ≤ S32x128.size a
  inb_S8x32x128_S1x1x128_0_18_0 : ∀ a, (![0, 18, 0] : Fin 3 → Nat) a + S1x1x128.size a ≤ S8x32x128.size a
  inb_S8x32x128_S1x1x128_1_18_0 : ∀ a, (![1, 18, 0] : Fin 3 → Nat) a + S1x1x128.size a ≤ S8x32x128.size a
  inb_S8x32x128_S1x1x128_2_18_0 : ∀ a, (![2, 18, 0] : Fin 3 → Nat) a + S1x1x128.size a ≤ S8x32x128.size a
  inb_S8x32x128_S1x1x128_3_18_0 : ∀ a, (![3, 18, 0] : Fin 3 → Nat) a + S1x1x128.size a ≤ S8x32x128.size a
  inb_S8x32x128_S1x1x128_4_18_0 : ∀ a, (![4, 18, 0] : Fin 3 → Nat) a + S1x1x128.size a ≤ S8x32x128.size a
  inb_S8x32x128_S1x1x128_5_18_0 : ∀ a, (![5, 18, 0] : Fin 3 → Nat) a + S1x1x128.size a ≤ S8x32x128.size a
  inb_S8x32x128_S1x1x128_6_18_0 : ∀ a, (![6, 18, 0] : Fin 3 → Nat) a + S1x1x128.size a ≤ S8x32x128.size a
  inb_S8x32x128_S1x1x128_7_18_0 : ∀ a, (![7, 18, 0] : Fin 3 → Nat) a + S1x1x128.size a ≤ S8x32x128.size a
  inb_S32x128_S1x128_18_0 : ∀ a, (![18, 0] : Fin 2 → Nat) a + S1x128.size a ≤ S32x128.size a
  inb_S8x32x128_S1x1x128_0_19_0 : ∀ a, (![0, 19, 0] : Fin 3 → Nat) a + S1x1x128.size a ≤ S8x32x128.size a
  inb_S8x32x128_S1x1x128_1_19_0 : ∀ a, (![1, 19, 0] : Fin 3 → Nat) a + S1x1x128.size a ≤ S8x32x128.size a
  inb_S8x32x128_S1x1x128_2_19_0 : ∀ a, (![2, 19, 0] : Fin 3 → Nat) a + S1x1x128.size a ≤ S8x32x128.size a
  inb_S8x32x128_S1x1x128_3_19_0 : ∀ a, (![3, 19, 0] : Fin 3 → Nat) a + S1x1x128.size a ≤ S8x32x128.size a
  inb_S8x32x128_S1x1x128_4_19_0 : ∀ a, (![4, 19, 0] : Fin 3 → Nat) a + S1x1x128.size a ≤ S8x32x128.size a
  inb_S8x32x128_S1x1x128_5_19_0 : ∀ a, (![5, 19, 0] : Fin 3 → Nat) a + S1x1x128.size a ≤ S8x32x128.size a
  inb_S8x32x128_S1x1x128_6_19_0 : ∀ a, (![6, 19, 0] : Fin 3 → Nat) a + S1x1x128.size a ≤ S8x32x128.size a
  inb_S8x32x128_S1x1x128_7_19_0 : ∀ a, (![7, 19, 0] : Fin 3 → Nat) a + S1x1x128.size a ≤ S8x32x128.size a
  inb_S32x128_S1x128_19_0 : ∀ a, (![19, 0] : Fin 2 → Nat) a + S1x128.size a ≤ S32x128.size a
  inb_S8x32x128_S1x1x128_0_20_0 : ∀ a, (![0, 20, 0] : Fin 3 → Nat) a + S1x1x128.size a ≤ S8x32x128.size a
  inb_S8x32x128_S1x1x128_1_20_0 : ∀ a, (![1, 20, 0] : Fin 3 → Nat) a + S1x1x128.size a ≤ S8x32x128.size a
  inb_S8x32x128_S1x1x128_2_20_0 : ∀ a, (![2, 20, 0] : Fin 3 → Nat) a + S1x1x128.size a ≤ S8x32x128.size a
  inb_S8x32x128_S1x1x128_3_20_0 : ∀ a, (![3, 20, 0] : Fin 3 → Nat) a + S1x1x128.size a ≤ S8x32x128.size a
  inb_S8x32x128_S1x1x128_4_20_0 : ∀ a, (![4, 20, 0] : Fin 3 → Nat) a + S1x1x128.size a ≤ S8x32x128.size a
  inb_S8x32x128_S1x1x128_5_20_0 : ∀ a, (![5, 20, 0] : Fin 3 → Nat) a + S1x1x128.size a ≤ S8x32x128.size a
  inb_S8x32x128_S1x1x128_6_20_0 : ∀ a, (![6, 20, 0] : Fin 3 → Nat) a + S1x1x128.size a ≤ S8x32x128.size a
  inb_S8x32x128_S1x1x128_7_20_0 : ∀ a, (![7, 20, 0] : Fin 3 → Nat) a + S1x1x128.size a ≤ S8x32x128.size a
  inb_S32x128_S1x128_20_0 : ∀ a, (![20, 0] : Fin 2 → Nat) a + S1x128.size a ≤ S32x128.size a
  inb_S8x32x128_S1x1x128_0_21_0 : ∀ a, (![0, 21, 0] : Fin 3 → Nat) a + S1x1x128.size a ≤ S8x32x128.size a
  inb_S8x32x128_S1x1x128_1_21_0 : ∀ a, (![1, 21, 0] : Fin 3 → Nat) a + S1x1x128.size a ≤ S8x32x128.size a
  inb_S8x32x128_S1x1x128_2_21_0 : ∀ a, (![2, 21, 0] : Fin 3 → Nat) a + S1x1x128.size a ≤ S8x32x128.size a
  inb_S8x32x128_S1x1x128_3_21_0 : ∀ a, (![3, 21, 0] : Fin 3 → Nat) a + S1x1x128.size a ≤ S8x32x128.size a
  inb_S8x32x128_S1x1x128_4_21_0 : ∀ a, (![4, 21, 0] : Fin 3 → Nat) a + S1x1x128.size a ≤ S8x32x128.size a
  inb_S8x32x128_S1x1x128_5_21_0 : ∀ a, (![5, 21, 0] : Fin 3 → Nat) a + S1x1x128.size a ≤ S8x32x128.size a
  inb_S8x32x128_S1x1x128_6_21_0 : ∀ a, (![6, 21, 0] : Fin 3 → Nat) a + S1x1x128.size a ≤ S8x32x128.size a
  inb_S8x32x128_S1x1x128_7_21_0 : ∀ a, (![7, 21, 0] : Fin 3 → Nat) a + S1x1x128.size a ≤ S8x32x128.size a
  inb_S32x128_S1x128_21_0 : ∀ a, (![21, 0] : Fin 2 → Nat) a + S1x128.size a ≤ S32x128.size a
  inb_S8x32x128_S1x1x128_0_22_0 : ∀ a, (![0, 22, 0] : Fin 3 → Nat) a + S1x1x128.size a ≤ S8x32x128.size a
  inb_S8x32x128_S1x1x128_1_22_0 : ∀ a, (![1, 22, 0] : Fin 3 → Nat) a + S1x1x128.size a ≤ S8x32x128.size a
  inb_S8x32x128_S1x1x128_2_22_0 : ∀ a, (![2, 22, 0] : Fin 3 → Nat) a + S1x1x128.size a ≤ S8x32x128.size a
  inb_S8x32x128_S1x1x128_3_22_0 : ∀ a, (![3, 22, 0] : Fin 3 → Nat) a + S1x1x128.size a ≤ S8x32x128.size a
  inb_S8x32x128_S1x1x128_4_22_0 : ∀ a, (![4, 22, 0] : Fin 3 → Nat) a + S1x1x128.size a ≤ S8x32x128.size a
  inb_S8x32x128_S1x1x128_5_22_0 : ∀ a, (![5, 22, 0] : Fin 3 → Nat) a + S1x1x128.size a ≤ S8x32x128.size a
  inb_S8x32x128_S1x1x128_6_22_0 : ∀ a, (![6, 22, 0] : Fin 3 → Nat) a + S1x1x128.size a ≤ S8x32x128.size a
  inb_S8x32x128_S1x1x128_7_22_0 : ∀ a, (![7, 22, 0] : Fin 3 → Nat) a + S1x1x128.size a ≤ S8x32x128.size a
  inb_S32x128_S1x128_22_0 : ∀ a, (![22, 0] : Fin 2 → Nat) a + S1x128.size a ≤ S32x128.size a
  inb_S8x32x128_S1x1x128_0_23_0 : ∀ a, (![0, 23, 0] : Fin 3 → Nat) a + S1x1x128.size a ≤ S8x32x128.size a
  inb_S8x32x128_S1x1x128_1_23_0 : ∀ a, (![1, 23, 0] : Fin 3 → Nat) a + S1x1x128.size a ≤ S8x32x128.size a
  inb_S8x32x128_S1x1x128_2_23_0 : ∀ a, (![2, 23, 0] : Fin 3 → Nat) a + S1x1x128.size a ≤ S8x32x128.size a
  inb_S8x32x128_S1x1x128_3_23_0 : ∀ a, (![3, 23, 0] : Fin 3 → Nat) a + S1x1x128.size a ≤ S8x32x128.size a
  inb_S8x32x128_S1x1x128_4_23_0 : ∀ a, (![4, 23, 0] : Fin 3 → Nat) a + S1x1x128.size a ≤ S8x32x128.size a
  inb_S8x32x128_S1x1x128_5_23_0 : ∀ a, (![5, 23, 0] : Fin 3 → Nat) a + S1x1x128.size a ≤ S8x32x128.size a
  inb_S8x32x128_S1x1x128_6_23_0 : ∀ a, (![6, 23, 0] : Fin 3 → Nat) a + S1x1x128.size a ≤ S8x32x128.size a
  inb_S8x32x128_S1x1x128_7_23_0 : ∀ a, (![7, 23, 0] : Fin 3 → Nat) a + S1x1x128.size a ≤ S8x32x128.size a
  inb_S32x128_S1x128_23_0 : ∀ a, (![23, 0] : Fin 2 → Nat) a + S1x128.size a ≤ S32x128.size a
  inb_S8x32x128_S1x1x128_0_24_0 : ∀ a, (![0, 24, 0] : Fin 3 → Nat) a + S1x1x128.size a ≤ S8x32x128.size a
  inb_S8x32x128_S1x1x128_1_24_0 : ∀ a, (![1, 24, 0] : Fin 3 → Nat) a + S1x1x128.size a ≤ S8x32x128.size a
  inb_S8x32x128_S1x1x128_2_24_0 : ∀ a, (![2, 24, 0] : Fin 3 → Nat) a + S1x1x128.size a ≤ S8x32x128.size a
  inb_S8x32x128_S1x1x128_3_24_0 : ∀ a, (![3, 24, 0] : Fin 3 → Nat) a + S1x1x128.size a ≤ S8x32x128.size a
  inb_S8x32x128_S1x1x128_4_24_0 : ∀ a, (![4, 24, 0] : Fin 3 → Nat) a + S1x1x128.size a ≤ S8x32x128.size a
  inb_S8x32x128_S1x1x128_5_24_0 : ∀ a, (![5, 24, 0] : Fin 3 → Nat) a + S1x1x128.size a ≤ S8x32x128.size a
  inb_S8x32x128_S1x1x128_6_24_0 : ∀ a, (![6, 24, 0] : Fin 3 → Nat) a + S1x1x128.size a ≤ S8x32x128.size a
  inb_S8x32x128_S1x1x128_7_24_0 : ∀ a, (![7, 24, 0] : Fin 3 → Nat) a + S1x1x128.size a ≤ S8x32x128.size a
  inb_S32x128_S1x128_24_0 : ∀ a, (![24, 0] : Fin 2 → Nat) a + S1x128.size a ≤ S32x128.size a
  inb_S8x32x128_S1x1x128_0_25_0 : ∀ a, (![0, 25, 0] : Fin 3 → Nat) a + S1x1x128.size a ≤ S8x32x128.size a
  inb_S8x32x128_S1x1x128_1_25_0 : ∀ a, (![1, 25, 0] : Fin 3 → Nat) a + S1x1x128.size a ≤ S8x32x128.size a
  inb_S8x32x128_S1x1x128_2_25_0 : ∀ a, (![2, 25, 0] : Fin 3 → Nat) a + S1x1x128.size a ≤ S8x32x128.size a
  inb_S8x32x128_S1x1x128_3_25_0 : ∀ a, (![3, 25, 0] : Fin 3 → Nat) a + S1x1x128.size a ≤ S8x32x128.size a
  inb_S8x32x128_S1x1x128_4_25_0 : ∀ a, (![4, 25, 0] : Fin 3 → Nat) a + S1x1x128.size a ≤ S8x32x128.size a
  inb_S8x32x128_S1x1x128_5_25_0 : ∀ a, (![5, 25, 0] : Fin 3 → Nat) a + S1x1x128.size a ≤ S8x32x128.size a
  inb_S8x32x128_S1x1x128_6_25_0 : ∀ a, (![6, 25, 0] : Fin 3 → Nat) a + S1x1x128.size a ≤ S8x32x128.size a
  inb_S8x32x128_S1x1x128_7_25_0 : ∀ a, (![7, 25, 0] : Fin 3 → Nat) a + S1x1x128.size a ≤ S8x32x128.size a
  inb_S32x128_S1x128_25_0 : ∀ a, (![25, 0] : Fin 2 → Nat) a + S1x128.size a ≤ S32x128.size a
  inb_S8x32x128_S1x1x128_0_26_0 : ∀ a, (![0, 26, 0] : Fin 3 → Nat) a + S1x1x128.size a ≤ S8x32x128.size a
  inb_S8x32x128_S1x1x128_1_26_0 : ∀ a, (![1, 26, 0] : Fin 3 → Nat) a + S1x1x128.size a ≤ S8x32x128.size a
  inb_S8x32x128_S1x1x128_2_26_0 : ∀ a, (![2, 26, 0] : Fin 3 → Nat) a + S1x1x128.size a ≤ S8x32x128.size a
  inb_S8x32x128_S1x1x128_3_26_0 : ∀ a, (![3, 26, 0] : Fin 3 → Nat) a + S1x1x128.size a ≤ S8x32x128.size a
  inb_S8x32x128_S1x1x128_4_26_0 : ∀ a, (![4, 26, 0] : Fin 3 → Nat) a + S1x1x128.size a ≤ S8x32x128.size a
  inb_S8x32x128_S1x1x128_5_26_0 : ∀ a, (![5, 26, 0] : Fin 3 → Nat) a + S1x1x128.size a ≤ S8x32x128.size a
  inb_S8x32x128_S1x1x128_6_26_0 : ∀ a, (![6, 26, 0] : Fin 3 → Nat) a + S1x1x128.size a ≤ S8x32x128.size a
  inb_S8x32x128_S1x1x128_7_26_0 : ∀ a, (![7, 26, 0] : Fin 3 → Nat) a + S1x1x128.size a ≤ S8x32x128.size a
  inb_S32x128_S1x128_26_0 : ∀ a, (![26, 0] : Fin 2 → Nat) a + S1x128.size a ≤ S32x128.size a
  inb_S8x32x128_S1x1x128_0_27_0 : ∀ a, (![0, 27, 0] : Fin 3 → Nat) a + S1x1x128.size a ≤ S8x32x128.size a
  inb_S8x32x128_S1x1x128_1_27_0 : ∀ a, (![1, 27, 0] : Fin 3 → Nat) a + S1x1x128.size a ≤ S8x32x128.size a
  inb_S8x32x128_S1x1x128_2_27_0 : ∀ a, (![2, 27, 0] : Fin 3 → Nat) a + S1x1x128.size a ≤ S8x32x128.size a
  inb_S8x32x128_S1x1x128_3_27_0 : ∀ a, (![3, 27, 0] : Fin 3 → Nat) a + S1x1x128.size a ≤ S8x32x128.size a
  inb_S8x32x128_S1x1x128_4_27_0 : ∀ a, (![4, 27, 0] : Fin 3 → Nat) a + S1x1x128.size a ≤ S8x32x128.size a
  inb_S8x32x128_S1x1x128_5_27_0 : ∀ a, (![5, 27, 0] : Fin 3 → Nat) a + S1x1x128.size a ≤ S8x32x128.size a
  inb_S8x32x128_S1x1x128_6_27_0 : ∀ a, (![6, 27, 0] : Fin 3 → Nat) a + S1x1x128.size a ≤ S8x32x128.size a
  inb_S8x32x128_S1x1x128_7_27_0 : ∀ a, (![7, 27, 0] : Fin 3 → Nat) a + S1x1x128.size a ≤ S8x32x128.size a
  inb_S32x128_S1x128_27_0 : ∀ a, (![27, 0] : Fin 2 → Nat) a + S1x128.size a ≤ S32x128.size a
  inb_S8x32x128_S1x1x128_0_28_0 : ∀ a, (![0, 28, 0] : Fin 3 → Nat) a + S1x1x128.size a ≤ S8x32x128.size a
  inb_S8x32x128_S1x1x128_1_28_0 : ∀ a, (![1, 28, 0] : Fin 3 → Nat) a + S1x1x128.size a ≤ S8x32x128.size a
  inb_S8x32x128_S1x1x128_2_28_0 : ∀ a, (![2, 28, 0] : Fin 3 → Nat) a + S1x1x128.size a ≤ S8x32x128.size a
  inb_S8x32x128_S1x1x128_3_28_0 : ∀ a, (![3, 28, 0] : Fin 3 → Nat) a + S1x1x128.size a ≤ S8x32x128.size a
  inb_S8x32x128_S1x1x128_4_28_0 : ∀ a, (![4, 28, 0] : Fin 3 → Nat) a + S1x1x128.size a ≤ S8x32x128.size a
  inb_S8x32x128_S1x1x128_5_28_0 : ∀ a, (![5, 28, 0] : Fin 3 → Nat) a + S1x1x128.size a ≤ S8x32x128.size a
  inb_S8x32x128_S1x1x128_6_28_0 : ∀ a, (![6, 28, 0] : Fin 3 → Nat) a + S1x1x128.size a ≤ S8x32x128.size a
  inb_S8x32x128_S1x1x128_7_28_0 : ∀ a, (![7, 28, 0] : Fin 3 → Nat) a + S1x1x128.size a ≤ S8x32x128.size a
  inb_S32x128_S1x128_28_0 : ∀ a, (![28, 0] : Fin 2 → Nat) a + S1x128.size a ≤ S32x128.size a
  inb_S8x32x128_S1x1x128_0_29_0 : ∀ a, (![0, 29, 0] : Fin 3 → Nat) a + S1x1x128.size a ≤ S8x32x128.size a
  inb_S8x32x128_S1x1x128_1_29_0 : ∀ a, (![1, 29, 0] : Fin 3 → Nat) a + S1x1x128.size a ≤ S8x32x128.size a
  inb_S8x32x128_S1x1x128_2_29_0 : ∀ a, (![2, 29, 0] : Fin 3 → Nat) a + S1x1x128.size a ≤ S8x32x128.size a
  inb_S8x32x128_S1x1x128_3_29_0 : ∀ a, (![3, 29, 0] : Fin 3 → Nat) a + S1x1x128.size a ≤ S8x32x128.size a
  inb_S8x32x128_S1x1x128_4_29_0 : ∀ a, (![4, 29, 0] : Fin 3 → Nat) a + S1x1x128.size a ≤ S8x32x128.size a
  inb_S8x32x128_S1x1x128_5_29_0 : ∀ a, (![5, 29, 0] : Fin 3 → Nat) a + S1x1x128.size a ≤ S8x32x128.size a
  inb_S8x32x128_S1x1x128_6_29_0 : ∀ a, (![6, 29, 0] : Fin 3 → Nat) a + S1x1x128.size a ≤ S8x32x128.size a
  inb_S8x32x128_S1x1x128_7_29_0 : ∀ a, (![7, 29, 0] : Fin 3 → Nat) a + S1x1x128.size a ≤ S8x32x128.size a
  inb_S32x128_S1x128_29_0 : ∀ a, (![29, 0] : Fin 2 → Nat) a + S1x128.size a ≤ S32x128.size a
  inb_S8x32x128_S1x1x128_0_30_0 : ∀ a, (![0, 30, 0] : Fin 3 → Nat) a + S1x1x128.size a ≤ S8x32x128.size a
  inb_S8x32x128_S1x1x128_1_30_0 : ∀ a, (![1, 30, 0] : Fin 3 → Nat) a + S1x1x128.size a ≤ S8x32x128.size a
  inb_S8x32x128_S1x1x128_2_30_0 : ∀ a, (![2, 30, 0] : Fin 3 → Nat) a + S1x1x128.size a ≤ S8x32x128.size a
  inb_S8x32x128_S1x1x128_3_30_0 : ∀ a, (![3, 30, 0] : Fin 3 → Nat) a + S1x1x128.size a ≤ S8x32x128.size a
  inb_S8x32x128_S1x1x128_4_30_0 : ∀ a, (![4, 30, 0] : Fin 3 → Nat) a + S1x1x128.size a ≤ S8x32x128.size a
  inb_S8x32x128_S1x1x128_5_30_0 : ∀ a, (![5, 30, 0] : Fin 3 → Nat) a + S1x1x128.size a ≤ S8x32x128.size a
  inb_S8x32x128_S1x1x128_6_30_0 : ∀ a, (![6, 30, 0] : Fin 3 → Nat) a + S1x1x128.size a ≤ S8x32x128.size a
  inb_S8x32x128_S1x1x128_7_30_0 : ∀ a, (![7, 30, 0] : Fin 3 → Nat) a + S1x1x128.size a ≤ S8x32x128.size a
  inb_S32x128_S1x128_30_0 : ∀ a, (![30, 0] : Fin 2 → Nat) a + S1x128.size a ≤ S32x128.size a
  inb_S8x32x128_S1x1x128_0_31_0 : ∀ a, (![0, 31, 0] : Fin 3 → Nat) a + S1x1x128.size a ≤ S8x32x128.size a
  inb_S8x32x128_S1x1x128_1_31_0 : ∀ a, (![1, 31, 0] : Fin 3 → Nat) a + S1x1x128.size a ≤ S8x32x128.size a
  inb_S8x32x128_S1x1x128_2_31_0 : ∀ a, (![2, 31, 0] : Fin 3 → Nat) a + S1x1x128.size a ≤ S8x32x128.size a
  inb_S8x32x128_S1x1x128_3_31_0 : ∀ a, (![3, 31, 0] : Fin 3 → Nat) a + S1x1x128.size a ≤ S8x32x128.size a
  inb_S8x32x128_S1x1x128_4_31_0 : ∀ a, (![4, 31, 0] : Fin 3 → Nat) a + S1x1x128.size a ≤ S8x32x128.size a
  inb_S8x32x128_S1x1x128_5_31_0 : ∀ a, (![5, 31, 0] : Fin 3 → Nat) a + S1x1x128.size a ≤ S8x32x128.size a
  inb_S8x32x128_S1x1x128_6_31_0 : ∀ a, (![6, 31, 0] : Fin 3 → Nat) a + S1x1x128.size a ≤ S8x32x128.size a
  inb_S8x32x128_S1x1x128_7_31_0 : ∀ a, (![7, 31, 0] : Fin 3 → Nat) a + S1x1x128.size a ≤ S8x32x128.size a
  inb_S32x128_S1x128_31_0 : ∀ a, (![31, 0] : Fin 2 → Nat) a + S1x128.size a ≤ S32x128.size a
  transposes_S32x1024_S1024x32_1_0 : S32x1024.Transposes [1, 0] S1024x32
  concatenates_S1024x2048_S1024x32_S1024x2080_d1 : Shape.Concatenates [S1024x2048, S1024x32] S1024x2080 1
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x2048.size a
  hwx0_0 : ∀ i : grid0.Coords, EltTy.bits .f32 = 32 ∨ (Rect.block (s := S1024x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x256.size a
  hwx0_2 : ∀ i : grid0.Coords, EltTy.bits .f32 = 32 ∨ (Rect.block (s := S1024x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x128.size a ≤ S8x32x1024.size a
  hwx1_0 : ∀ i : grid1.Coords, EltTy.bits .f32 = 32 ∨ (Rect.block (s := S8x32x1024) S8x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x32x128.size a ≤ S8x32x1024.size a
  hwx1_1 : ∀ i : grid1.Coords, EltTy.bits .f32 = 32 ∨ (Rect.block (s := S8x32x1024) S8x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x1024.size a
  hwx1_2 : ∀ i : grid1.Coords, EltTy.bits .f32 = 32 ∨ (Rect.block (s := S32x1024) S32x128.size (cc1_transform_2 i) (hinb1_2 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S8x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S2048x256 : Shape := ⟨2, ![2048, 256]⟩
abbrev S1024x256 : Shape := ⟨2, ![1024, 256]⟩
abbrev S1024x32x8 : Shape := ⟨3, ![1024, 32, 8]⟩
abbrev S1024x32x8x1 : Shape := ⟨4, ![1024, 32, 8, 1]⟩
abbrev S32x8x1024 : Shape := ⟨3, ![32, 8, 1024]⟩
abbrev S1x32x8x1024 : Shape := ⟨4, ![1, 32, 8, 1024]⟩
abbrev S1024x32x8x1024 : Shape := ⟨4, ![1024, 32, 8, 1024]⟩
abbrev S_ : Shape := ⟨0, ![]⟩
abbrev S1024x32x1024 : Shape := ⟨3, ![1024, 32, 1024]⟩
abbrev S1024x32 : Shape := ⟨2, ![1024, 32]⟩
abbrev S1024x2080 : Shape := ⟨2, ![1024, 2080]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x256, .f32⟩
  | .hbm, ⟨2, _⟩ => ⟨S1024x256, .f32⟩
  | .hbm, ⟨3, _⟩ => ⟨S1024x32x8, .f32⟩
  | .hbm, ⟨4, _⟩ => ⟨S1024x32x8x1, .f32⟩
  | .hbm, ⟨5, _⟩ => ⟨S32x8x1024, .f32⟩
  | .hbm, ⟨6, _⟩ => ⟨S1x32x8x1024, .f32⟩
  | .hbm, ⟨7, _⟩ => ⟨S1024x32x8x1024, .f32⟩
  | .hbm, ⟨8, _⟩ => ⟨S1024x32x8x1024, .f32⟩
  | .hbm, ⟨9, _⟩ => ⟨S1024x32x8x1024, .f32⟩
  | .hbm, ⟨10, _⟩ => ⟨S1024x32x8x1024, .f32⟩
  | .hbm, ⟨11, _⟩ => ⟨S_, .f32⟩
  | .hbm, ⟨12, _⟩ => ⟨S1024x32x1024, .f32⟩
  | .hbm, ⟨13, _⟩ => ⟨S1024x32x1024, .f32⟩
  | .hbm, ⟨14, _⟩ => ⟨S1024x32x1024, .f32⟩
  | .hbm, ⟨15, _⟩ => ⟨S_, .f32⟩
  | .hbm, ⟨16, _⟩ => ⟨S1024x32, .f32⟩
  | .hbm, ⟨17, _⟩ => ⟨S1024x2080, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S1024x256_S1024x32x8 : S1024x256.ShapeCasts S1024x32x8
  bcast_S1024x32x8_S1024x32x8x1_0_1_2 : S1024x32x8.BroadcastsInDim S1024x32x8x1 (![0, 1, 2] : Fin 3 → Fin S1024x32x8x1.rank)
  transposes_S1024x32x8_S32x8x1024_1_2_0 : S1024x32x8.Transposes [1, 2, 0] S32x8x1024
  bcast_S32x8x1024_S1x32x8x1024_1_2_3 : S32x8x1024.BroadcastsInDim S1x32x8x1024 (![1, 2, 3] : Fin 3 → Fin S1x32x8x1024.rank)
  bcast_S1024x32x8x1_S1024x32x8x1024_0_1_2_3 : S1024x32x8x1.BroadcastsInDim S1024x32x8x1024 (![0, 1, 2, 3] : Fin 4 → Fin S1024x32x8x1024.rank)
  bcast_S1x32x8x1024_S1024x32x8x1024_0_1_2_3 : S1x32x8x1024.BroadcastsInDim S1024x32x8x1024 (![0, 1, 2, 3] : Fin 4 → Fin S1024x32x8x1024.rank)
  reducesTo_S1024x32x8x1024_S1024x32x1024_d2 : S1024x32x8x1024.ReducesTo [2] S1024x32x1024
  h_S_ : 0 < S_.numel
  reducesTo_S1024x32x1024_S1024x32_d2 : S1024x32x1024.ReducesTo [2] S1024x32
  concatenates_S1024x2048_S1024x32_S1024x2080_d1 : Shape.Concatenates [S1024x2048, S1024x32] S1024x2080 1
  dot_S1024x2048_S2048x256_S1024x256_1_0_0_1_n_n_wf : DotDims.WF S1024x2048 S2048x256 S1024x256 [1] [0] [0] [1] [] []

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

class Facts : Prop extends Facts₀ where

variable [Facts]
-- ==== Proof.KR0Runs.lean ====
/- The frame half of region 0 (the blocked matrix product, custom_call 0, pipeline 0), part 1: what the three
   whole-body runs share. The region is stated at a PARAMETER `V`, the TensorCore's buffer contents when the region is
   entered. Here: each window's block at a point, the two input windows' buffers at their blocks, the body's two
   branch conditions in closed form over the 4 x 4 grid (the first holds where the contraction index is 0, the second
   where it is 3), where the output window is idle, the staging and scratch memrefs, and the region invariant with the
   scratch accumulator as an owned memref. -/
import proofs.«161723_j52879637348745_2_alg».proof.Proof.Gen.Kernel.Launch
import proofs.«161723_j52879637348745_2_alg».proof.Proof.Gen.Kernel.Skeleton
import proofs.«161723_j52879637348745_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the accumulator is zeroed under it), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the contraction index is 0 — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the accumulator is copied to the output block under it), from the
    grid coordinates. -/
abbrev cond0_1 (i : grid0.Coords) : Prop := k0_cond2 i = 1#1
/-- It holds at the points ≡ 3 (mod 4): the contraction index is 3 — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A (first condition, not the second) output 2 is idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by
  intro t _ h1
  have h := flush0_2 t
  rw [← hcond0_1 t] at h
  cases hf : (cfg0.win 2).flush t with
  | false => rfl
  | true => exact absurd (h.mp hf) h1
/-- At the points of case B (neither condition) output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by
  intro t _ h1
  have h := flush0_2 t
  rw [← hcond0_1 t] at h
  cases hf : (cfg0.win 2).flush t with
  | false => rfl
  | true => exact absurd (h.mp hf) h1
/-- At the points of case C (the second condition, not the first) output 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of output window 2, through which its contents are stated (the choice does not matter). -/
abbrev VO0_2 : View sig .tc .vmem S256x256 .f32 := (Memref.whole cc0_stg2_0 : Memref sig .tc .vmem S256x256 .f32).view
/-- Each window's current staging memref at point `t`, spelled as the pipeline passes it (`bodyAt0`), and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S256x256 .f32 := Memref.whole cc0_scratch0
/-- The scratch accumulator the kernel carries between points, as a view: what it holds is stated through it. -/
abbrev VS0_0 : View sig .tc .vmem S256x256 .f32 := scM0_0.view

/-- The core's scoped buffers that are neither a staging buffer nor the scratch of this region (the other region's
    staging buffers), each whole at some contents: they ride through the region untouched. -/
abbrev scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant's class form with the scratch accumulator as a memref owned at some contents, the other
    scoped buffers each whole at some contents (`scRest0`), and the generator register at some state: what the body
    obligation hands the run and takes back. -/
theorem PhiA0_eq (c : Dev nD) :
    (Pipeline.ΦA spec0 c : sProp 𝕄)
      = iprop(iprop((∃ d, owns (c : Thread nD τ) scM0_0 fullShare d) ∗ scRest0 c) ∗ (∃ r, prngReg c r)) := by
  unfold Pipeline.ΦA; rw [scopedRest0_eq]; simp only [scM0_0, owns_whole]; try rfl

end Cert.Kernel.R0

end
-- ==== Proof.KR0RunA.lean ====
/- The frame half of region 0, part 2: the whole-body run of the kernel in CASE A (the first condition holds, the
   second does not: the contraction index is 0). The body zeroes the scratch accumulator, adds the product of the two
   input blocks into it, and stores nothing into the output block. The pieces the scratch ends with are the witness
   the run finds. -/
import proofs.«161723_j52879637348745_2_alg».proof.Proof.KR0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE A,
    WITH the proof that on whole staging memrefs — the inputs' at their contents `x0`, `x1`, the output's (no store: the
    window is idle and not written back at the case's points) at contents `xi2` handed back untouched, the scratch at
    anything — the body runs to the continuation holding the inputs' as they were, the output's as it was, and the
    scratch with its pieces written (`LS0`). Each `scf.if` is decided by the case's hypotheses. -/
noncomputable def kernelRun0_A (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.KR0RunB.lean ====
/- The frame half of region 0, part 3: the whole-body run of the kernel in CASE B (neither condition holds: the
   contraction index is 1 or 2). The body adds the product of the two input blocks into the scratch accumulator, which
   holds what the point before left, and stores nothing into the output block. -/
import proofs.«161723_j52879637348745_2_alg».proof.Proof.KR0RunA

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE B,
    WITH the proof that on whole staging memrefs — the inputs' at their contents `x0`, `x1`, the output's (no store: the
    window is idle and not written back at the case's points) at contents `xi2` handed back untouched, the scratch at
    the contents the point before left (`xs0`) — the body runs to the continuation holding the inputs' as they were,
    the output's as it was, and the scratch with its pieces written (`LS0`). -/
noncomputable def kernelRun0_B (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.R0

end
-- ==== Proof.KR0RunC.lean ====
/- The frame half of region 0, part 4: the whole-body run of the kernel in CASE C (the second condition holds, the
   first does not: the contraction index is 3). The body adds the product of the two input blocks into the scratch
   accumulator, which holds what the point before left, and copies the accumulator to the output block. -/
import proofs.«161723_j52879637348745_2_alg».proof.Proof.KR0RunB

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE C,
    WITH the proof that on whole staging memrefs — the inputs' at their contents `x0`, `x1`, the output's at anything,
    the scratch at the contents the point before left (`xs0`) — the body runs to the continuation holding the inputs'
    as they were, the output's buffer with its pieces written (`L2`), and the scratch with its pieces written (`LS0`). -/
noncomputable def kernelRun0_C (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) :
    Σ' (L2 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.R0

end
-- ==== Proof.KR0Frame.lean ====
/- The frame half of region 0, part 5: what the output block and the scratch accumulator hold per case (the pieces of
   the three runs read back) and point by point (`outsAt0`), the region invariant carrying the accumulator between
   points (`PhiS0`), the pipeline's proof data at the entry contents `V` (`dat0`), the body obligation at every point
   (`body_obligation0`), and the invariant's two ends (`hin0`, `hout0`). -/
import proofs.«161723_j52879637348745_2_alg».proof.Proof.KR0RunC

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- Case A stores nothing into output 2 (the window is idle at its points and not written back there): no pieces — a
    placeholder (junk read back) that nothing consults. -/
def out0_A_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) : Vec F S256x256 .f32 :=
  VO0_2.read (Elt F) (VO0_2.writes (Elt F) VO0_2.junk (kernelRun0_A c i arg2 harg2 arg3 harg3 arg4 harg4 arg5 harg5 hc0 hc1 x0 x1).1)

/-- Case A's pieces for the scratch accumulator cover it: whole-buffer pieces tiling it. -/
theorem scover0_A_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) (y : S256x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x256.size (by sl_kernel_rfl) y

/-- What case A leaves in the scratch accumulator: its pieces read back over junk. -/
def sout0_A_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) : Vec F S256x256 .f32 :=
  VS0_0.read (Elt F) (VS0_0.writes (Elt F) VS0_0.junk (kernelRun0_A c i arg2 harg2 arg3 harg3 arg4 harg4 arg5 harg5 hc0 hc1 x0 x1).2.1)

/-- Case B stores nothing into output 2 (the window is idle at its points and not written back there): no pieces — a
    placeholder (junk read back) that nothing consults. -/
def out0_B_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) : Vec F S256x256 .f32 :=
  VO0_2.read (Elt F) (VO0_2.writes (Elt F) VO0_2.junk (kernelRun0_B c i arg2 harg2 arg3 harg3 arg4 harg4 arg5 harg5 hc0 hc1 x0 x1 xs0).1)

/-- Case B's pieces for the scratch accumulator cover it. -/
theorem scover0_B_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) (y : S256x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S256x256.size (by sl_kernel_rfl) y

/-- What case B leaves in the scratch accumulator: its pieces read back over junk. -/
def sout0_B_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) : Vec F S256x256 .f32 :=
  VS0_0.read (Elt F) (VS0_0.writes (Elt F) VS0_0.junk (kernelRun0_B c i arg2 harg2 arg3 harg3 arg4 harg4 arg5 harg5 hc0 hc1 x0 x1 xs0).2.1)

/-- Case C's pieces for output 2 tile its block (one whole-block store), so they cover it. -/
theorem cover0_C_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) (y : S256x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S256x256.size (by sl_kernel_rfl) y

/-- What case C leaves in output 2's staging buffer: its pieces read back over junk. -/
def out0_C_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) : Vec F S256x256 .f32 :=
  VO0_2.read (Elt F) (VO0_2.writes (Elt F) VO0_2.junk (kernelRun0_C c i arg2 harg2 arg3 harg3 arg4 harg4 arg5 harg5 hc0 hc1 x0 x1 xs0).1)

/-- Case C's pieces for the scratch accumulator cover it. -/
theorem scover0_C_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) (y : S256x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S256x256.size (by sl_kernel_rfl) y

/-- What case C leaves in the scratch accumulator: its pieces read back over junk. -/
def sout0_C_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) : Vec F S256x256 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION. What output 2's staging buffer and the scratch accumulator hold after the body at position `n`
    (a pair: the output block, then the scratch): the case the closed forms select at `n`, run at the point's memrefs
    and input blocks, the accumulator at what this leaves at `n - 1`. An assignment of the conditions no point meets
    is no case. -/
def outsAt0 (c : Dev nD) : (n : ℕ) → n < cfg0.N → Vec F S256x256 .f32 × Vec F S256x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the kernel carrying its scratch accumulator between points: before the
    first point the class's (every scoped buffer that is no staging buffer at anything, the generator register at some
    state); afterwards the same with the accumulator at what the point before left in it (`outsAt0`'s second
    component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ scRest0 c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ scRest0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_0`, `before0_1`); the closed forms say which
    case the point is in; so that case's run applies. The invariant hands the body the accumulator at what the point
    before left (at anything at the first point) and takes it back at this point's contents; the other scoped buffers,
    the generator register and the core's `owes` pass through. Where the output window is idle its buffer is handed
    back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.R0

end
-- ==== Proof.KR1Runs.lean ====
/- The frame half of the second region, part 1: what its whole-body runs are stated over — each window's block at a
   point, the input windows' staging contents, the body's branch condition in closed form, and the names of the
   staging memrefs. -/
import proofs.«161723_j52879637348745_2_alg».proof.Proof.Gen.Kernel.Launch
import proofs.«161723_j52879637348745_2_alg».proof.Proof.Gen.Kernel.Skeleton
import proofs.«161723_j52879637348745_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The second region (the pairwise-distance kernel, grid 8 × 8), at the entry contents `V`

Point `t` of the grid has coordinates `(i, j) = (t / 8, t % 8)`. Windows 0 and 1 read blocks `i` and `j` of
one array; window 2 is the output block `i`, accumulated over `j`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is
    not fetched its block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (`j = 0`: reset the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the points with `j = 0` — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging memrefs -/

/-- One staging buffer of output window 2, through which its contents are stated (reading back a covering list of
    writes does not depend on the choice). -/
abbrev VO1_2 : View sig .tc .vmem S32x128 .f32 := (Memref.whole cc1_stg2_0 : Memref sig .tc .vmem S32x128 .f32).view
/-- Each window's current staging memref at point `t`, spelled as the pipeline passes it, and its wholeness. -/
abbrev ms1_0 (t : Fin cfg1.N) : Memref sig .tc .vmem S8x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)

end Cert.Kernel.R1

end
-- ==== Proof.KR1RunA.lean ====
/- The frame half of the second region, part 2: the whole-body run of its kernel at a point with `j = 0`. -/
import proofs.«161723_j52879637348745_2_alg».proof.Proof.KR1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref, as pieces (last first), AT A POINT WITH `j = 0`
    (the conditional taken: the block is zeroed, then every row accumulated into), WITH the proof that on whole
    staging memrefs — the two inputs' at their contents, the output's at anything — the body runs to the
    continuation holding the inputs' as they were and the output's buffer with its pieces written. The pieces are
    the witness the run finds. -/
noncomputable def kernelRun1_A (c : Dev nD) (i : grid1.Coords)
    (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) :
    { L2 : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.KR1RunB.lean ====
/- The frame half of the second region, part 3: the whole-body run of its kernel at a point with `j ≠ 0`. -/
import proofs.«161723_j52879637348745_2_alg».proof.Proof.KR1RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output's staging memref, as pieces (last first), AT A POINT WITH `j ≠ 0`
    (the conditional not taken: every row is read and accumulated into before any store covers it), WITH the proof
    that on whole staging memrefs — the two inputs' at their contents, the output's at its running contents
    `xo2` — the body runs to the continuation holding the inputs' as they were and the output's buffer with its
    pieces written. The pieces are the witness the run finds. -/
noncomputable def kernelRun1_B (c : Dev nD) (i : grid1.Coords)
    (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) :
    { L2 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.R1

end
-- ==== Proof.KR1Frame.lean ====
/- The frame half of the second region, part 4: what each case leaves in the output's staging buffer, what it holds
   point by point, the pipeline's proof data at the entry contents, and the body obligation. -/
import proofs.«161723_j52879637348745_2_alg».proof.Proof.KR1RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered, and the shares the windows hold their arrays at
-- (windows 0 and 1 read ONE array): the parameters the region's half is stated at
variable (V : (c : Dev nD) → (b : Ref sig .tc) → Buf (Elt F) ((c : Thread nD τ).loc b))
variable (q : Fin cfg1.W → PosShare TreeShare)

/-! ## What each case leaves in the output's staging buffer -/

/-- At a point with `j = 0` the pieces contain one store per row of the block (32 stores of one row each, after the
    store that zeroes the block), so they cover it: the rows are struck off one by one. -/
theorem cover1_A_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) (y : S32x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128.size (by sl_kernel_rfl) y

/-- What a point with `j = 0` leaves in the output's staging buffer: its pieces read back over junk. -/
def out1_A_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) : Vec F S32x128 .f32 :=
  VO1_2.read (Elt F) (VO1_2.writes (Elt F) VO1_2.junk (kernelRun1_A c i arg2 harg2 arg3 harg3 arg4 harg4 hc0 x0 x1).1)

/-- At a point with `j ≠ 0` the pieces are one store per row of the block (32 stores of one row each), so they cover it. -/
theorem cover1_B_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) (y : S32x128.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x128.size (by sl_kernel_rfl) y

/-- What a point with `j ≠ 0` leaves in the output's staging buffer: its pieces read back over junk. -/
def out1_B_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) : Vec F S32x128 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION. What the output's staging buffer holds after the body at position `n`: at `j = 0` the reset
    case run at the point's input blocks; otherwise the accumulating case, over what this leaves at `n - 1` (the
    buffer is not written back in between, and the block index does not move). -/
def outsAt1 (c : Dev nD) : (n : ℕ) → n < cfg1.N → Vec F S32x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 8 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point with `j = 0`: the reset case's contents. -/
theorem outsAt1_A (c : Dev nD) (t : Fin cfg1.N) (h0 : t.val % 8 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point with `j ≠ 0`: the accumulating case's contents, over what the point before left. -/
theorem outsAt1_B (c : Dev nD) (t : Fin cfg1.N) (h0 : ¬t.val % 8 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the output's at `outsAt1`; the invariant the scoped rest and the
    generator register, untouched; nothing owed; the arrays held at the shares `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q := q
  owed _ := 0

/-- The proof data's arrays are the region-entry contents (the definition projected). -/
theorem A_eq1 (c : Dev nD) (w : Fin cfg1.W) : (dat1 V q c).A w = V c (Pipeline.arrRef spec1 w) := by
  dsimp only [dat1]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = outsAt1 V c t.val t.isLt := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
/-- At a point with `j ≠ 0` the output's current staging buffer holds what the body left at the point before: the
    point is not the first, the buffer was not written back in between (it is written back only at `j = 7`), and
    the window is live and uncut. -/
theorem before1_2_B (c : Dev nD) (t : Fin cfg1.N) (h0 : ¬t.val % 8 = 0) (d) :
    (dat1 V q c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (ms1_0 t) fullShare ((dat1 V q c).after 0 t)
    ∗ owns (c : Thread nD τ) (ms1_1 t) fullShare ((dat1 V q c).after 1 t)
    ∗ owns (c : Thread nD τ) (ms1_2 t) fullShare ((dat1 V q c).after 2 t))

set_option maxHeartbeats 800000 in
/-- The body at any point: the inputs' memrefs hold their blocks; the closed form says which case the point is in; at
    `j ≠ 0` the output's buffer holds what the point before left; so the case's run applies. The invariant passes
    through unread; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  have hN : t.val < 64 := lt_of_lt_of_eq t.isLt (show cfg1.N = 64 from N_1)
  by_cases h0 : t.val % 8 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V q c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.R1

end
-- ==== Proof.KMain.lean ====
/-
  The run of @main: region 0 (the blocked matrix product), the reshape and transpose, region 1 (the all-pairs
  feature accumulated over key blocks), the transpose and the concatenation, as four segments in order. Between two
  segments every unscoped buffer is held whole at contents named here: the launch memory `W0`; after region 0 the
  same with its output array at what the pipeline's write-backs leave (`W1`); after the two host operations their
  results added (`W2`); after region 1 its output array at what its write-backs leave (`W3`) — its two input windows
  read ONE array, held by the two windows at the two halves of the full share —; after the last two host operations
  `W4`. The run ends with every unscoped buffer of the final memory at `W4`.
-/
import proofs.«161723_j52879637348745_2_alg».proof.Proof.Gen.Kernel.Launch
import proofs.«161723_j52879637348745_2_alg».proof.Proof.KR0Frame
import proofs.«161723_j52879637348745_2_alg».proof.Proof.KR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.R0 Cert.Kernel.R1
open PCS

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape and the transpose: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- The shares region 1's windows hold their arrays at: its two input windows read one array, each at one half of
    the full share (the output's entry is not consulted: an output's array is held at the full share). -/
def q1 : Fin cfg1.W → PosShare TreeShare
  | ⟨0, _⟩ => (fullShare : PosShare TreeShare).left
  | ⟨1, _⟩ => (fullShare : PosShare TreeShare).right
  | ⟨_ + 2, _⟩ => fullShare

/-- After region 1: its output array at what the pipeline leaves, every other buffer as entered. -/
def W3 (c : Dev nD) : Valuation τ sig (Elt F) :=
  Function.update (W2 m ρ c) (Proc.devRef .tc main_v3) ((dat1 (V2 m ρ) q1 c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) q1 c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the transpose and the concatenation: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) q1 c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1's arrays: two windows on one buffer -/

/-- The buffers behind region 1's arrays are `main_v2` (both input windows) and `main_v3` (the output). -/
theorem arrs1 : Finset.univ.image (Pipeline.arrRef spec1) = ({main_v2, main_v3} : Finset (Ref sig .tc)) := by decide

theorem full_halves : (fullShare : PosShare TreeShare) ∈ (fullShare : PosShare TreeShare).left ·? (fullShare : PosShare TreeShare).right := by
  rw [PosShare.left_op_right]; exact Part.mem_some _

/-- The buffers behind region 1's arrays, whole at the full share at contents `V`, ARE the pipeline's arrays at
    contents `Fw` read off `V`: the shared input array split along its share into the two windows' halves. -/
theorem arrays1_iff (c : Dev nD) (V : (c : Dev nD) → (b : Ref sig .tc) → Buf (Elt F) ((c : Thread nD τ).loc b))
    (Fw : (w : Fin cfg1.W) → Buf (Elt F) ((cfg1.win w).arr.view.loc (c.tc : Thread nD τ)))
    (h0 : Fw 0 = V c main_v2) (h1 : Fw 1 = V c main_v2) (h2 : Fw 2 = V c main_v3) :
    (Pipeline.arrBufs (Ix := Unit) (Name := ℕ) (U := UR sig nD τ) (Lvl := ℕ) spec1 c (V c) : sProp 𝕄) ⊣⊢ (dat1 V q1 c).arrays Fw := by
  unfold Pipeline.arrBufs Pipeline.Dat.arrays
  rw [arrs1, bigSep_W1, BI.bigSep_insert (by decide), BI.bigSep_singleton]
  rw [show (dat1 V q1 c).share 0 = (fullShare : PosShare TreeShare).left from rfl,
    show (dat1 V q1 c).share 1 = (fullShare : PosShare TreeShare).right from rfl,
    show (dat1 V q1 c).share 2 = fullShare from rfl,
    (arr_whole1 0).set_eq_univ, (arr_whole1 2).set_eq_univ, h0, h1, h2]
  show iprop((((c : Thread nD τ).loc main_v2) ↦{fullShare} V c main_v2) ∗ (((c : Thread nD τ).loc main_v3) ↦{fullShare} V c main_v3)) ⊣⊢ _
  constructor
  · iintro ⟨H2, H3⟩
    ihave H := (pointsTo_share full_halves).1 $$ H2
    icases H with ⟨Ha, Hb⟩
    isplitl [Ha]; · iexact Ha
    isplitl [Hb]; · iexact Hb
    iexact H3
  · iintro ⟨Ha, Hb, H3⟩
    isplitl [Ha Hb]
    · iapply (pointsTo_share full_halves).2
      isplitl [Ha]; · iexact Ha
      iexact Hb
    iexact H3

/-! ## The regions as segments -/

set_option backward.isDefEq.respectTransparency.types false in
/-- REGION 0 over the thread state: entered from every unscoped buffer at `W0`, left at `W1`. Its arrays are split
    out of the unscoped buffers and put back at the exit contents; the generator register and the scoped rest go
    into the region's invariant (the scratch accumulator at anything before the first point) and come back out of it
    (its named contents forgotten after the last); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's output array the exit contents are the entry contents. -/
theorem hrest1 (c : Dev nD) : ∀ b, b ∉ Finset.univ.image (Pipeline.arrRef spec1) → V3 m ρ c b = V2 m ρ c b :=
  fun b hb => W3_of_ne m ρ c b fun e => hb (by rw [arrs1, e]; decide)

set_option backward.isDefEq.respectTransparency.types false in
/-- REGION 1 over the thread state: entered from every unscoped buffer at `W2`, left at `W3`. The buffers behind
    its arrays are split out of the unscoped buffers — the one input array dealt to the two input windows by halves
    of its share — and put back at the exit, the input array whole again and unchanged, the output array at what the
    pipeline's write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_iff c (V2 m ρ) _ rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [Pipeline.unscopedBufs_split₀ (Pipeline.pin (pcfgs (F := F)) adm) 1 winFacts₀1.arr_unscoped c (V3 m ρ c)]
      refine sep_mono (arrays1_iff c (V3 m ρ) _ ?_ ?_ ?_).2 (Entails.of_eq ?_)
      · exact ((pdats m ρ 1 c).arrAt_in 0 rfl _).trans ((W3_of_ne m ρ c main_v2 (by decide)).symm)
      · exact ((pdats m ρ 1 c).arrAt_in 1 rfl _).trans ((W3_of_ne m ρ c main_v2 (by decide)).symm)
      · exact (W3_v3 m ρ c).symm
      · unfold Pipeline.unscopedRest
        exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Run

end
-- ==== Proof.Spec.lean ====
/-
  The specification of the minibatch-discrimination layer, as one function of the two argument arrays over the
  extended reals.

  For a batch `x : [1024, 2048]` and a weight `w : [2048, 256]` let `M = x · w : [1024, 256]` and read row `b` of `M`
  as 32 feature vectors of 8 components, component `d` of feature `k` sitting in column `8 k + d`. The distance
  between rows `b` and `b'` in feature `k` is the sum over the 8 components of the absolute difference, and the
  feature value of row `b` is

      feat b k = ∑ b' : 1024, exp (− ∑ d : 8, | M b (8 k + d) − M b' (8 k + d) |).

  The result `[1024, 2080]` is `x` with the 32 feature values of each row appended: column `j < 2048` of row `b`
  is `x b j`, column `2048 + k` is `feat b k`.

  Every operation is the extended reals' own: the product and the sums are Mathlib's on `EReal`, the absolute value
  of `a` is `max a (−a)`, the exponential is the one that sends `−∞` to `0` and `+∞` to `+∞`. Nothing here asks
  the entries to be finite: the two programs are compared through the commutativity and associativity of `+` only.
-/
import Idealize.ShloMosaic.PureOps.Ideal
import Idealize.ShloMosaic.PureOps.Ideal.Laws
import Idealize.ShloMosaic.Lib.ValueIdx
import Idealize.ShloMosaic.PureOps

noncomputable section

namespace Cert.Spec

open Idealize.ShloMosaic
open scoped BigOperators

/-- The batch: 1024 rows of 2048 entries. -/
abbrev SX : Shape := ⟨2, ![1024, 2048]⟩
/-- The weight: 2048 rows of 256 entries. -/
abbrev SW : Shape := ⟨2, ![2048, 256]⟩
/-- The feature values: 32 per row of the batch. -/
abbrev SF : Shape := ⟨2, ![1024, 32]⟩
/-- The result: each row of the batch followed by its 32 feature values. -/
abbrev SG : Shape := ⟨2, ![1024, 2080]⟩

/-- The column of the product that holds component `d` of feature `k`. -/
def col (k : Fin 32) (d : Fin 8) : Fin 256 :=
  ⟨8 * k.val + d.val, by have := k.isLt; have := d.isLt; omega⟩

theorem col_val (k : Fin 32) (d : Fin 8) : (col k d).val = 8 * k.val + d.val := rfl

/-- The matrix product `x · w` at row `b`, column `n`. -/
def M (x : SX.Idx → EReal) (w : SW.Idx → EReal) (b : Fin 1024) (n : Fin 256) : EReal :=
  ∑ k : Fin 2048, x (ValueIdx.ix2 b k) * w (ValueIdx.ix2 k n)

/-- The distance between rows `b` and `b'` of the product in feature `k`: the absolute differences of the 8
    components, added. -/
def dist (x : SX.Idx → EReal) (w : SW.Idx → EReal) (b b' : Fin 1024) (k : Fin 32) : EReal :=
  ∑ d : Fin 8, max (M x w b (col k d) - M x w b' (col k d)) (-(M x w b (col k d) - M x w b' (col k d)))

/-- Feature `k` of row `b`: the closeness `exp (− dist)` of row `b` to every row of the batch, added. -/
def feat (x : SX.Idx → EReal) (w : SW.Idx → EReal) (b : Fin 1024) (k : Fin 32) : EReal :=
  ∑ b' : Fin 1024, Ideal.exp (-(dist x w b b' k))

/-- The feature values as an array `[1024, 32]`. -/
def featArr (x : SX.Idx → EReal) (w : SW.Idx → EReal) : SF.Idx → EReal :=
  fun i => feat x w (i 0) (i 1)

theorem featArr_apply (x : SX.Idx → EReal) (w : SW.Idx → EReal) (b : Fin 1024) (k : Fin 32) :
    featArr x w (ValueIdx.ix2 b k) = feat x w b k := rfl

/-- A `[1024, 2048]` and a `[1024, 32]` array laid side by side along the columns fill `[1024, 2080]`. -/
theorem cat_ok : Shape.Concatenates [SX, SF] SG 1 := by decide

/-- THE RESULT: the batch with the feature values appended to each row. -/
def G (x : SX.Idx → EReal) (w : SW.Idx → EReal) : SG.Idx → EReal :=
  concatenate SG 1 [⟨SX, x⟩, ⟨SF, featArr x w⟩] cat_ok

/-- The result is determined by the feature array: two arrays equal to `featArr x w` give the same result. -/
theorem G_of_feat (x : SX.Idx → EReal) (w : SW.Idx → EReal) (f : SF.Idx → EReal) (hf : f = featArr x w)
    (h : Shape.Concatenates [SX, SF] SG 1) :
    concatenate SG 1 [⟨SX, x⟩, ⟨SF, f⟩] h = G x w := by
  subst hf; rfl

end Cert.Spec

end
-- ==== Proof.KGlue.lean ====
/-
  The host operations around the two regions, read at an index: the [8,32,1024] array region 1 reads is the product
  laid out as (d, k, b) ↦ column 8k+d of row b; the result is x beside the transposed [32,1024] array region 1 leaves.
-/
import proofs.«161723_j52879637348745_2_alg».proof.Proof.KMain
import proofs.«161723_j52879637348745_2_alg».proof.Proof.Spec
import Idealize.ShloMosaic.Lib.Pipeline.Value
import Idealize.ShloMosaic.Lib.ValueIdx
import Idealize.ShloMosaic.Lib.StableHlo.Run

set_option maxRecDepth 16384

noncomputable section

namespace Cert.Kernel.Glue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.R0 Cert.Kernel.R1 Cert.Kernel.Run Idealize.ShloMosaic.ValueIdx Idealize.ShloMosaic.StableHlo
open scoped BigOperators

variable (m : (ℓ : Loc nD τ sig) → Buf (Elt F) ℓ) (ρ : Dev nD → PrngReg)

/-- Region 0's output array after the region is what the pipeline's write-backs leave. -/
theorem W1_v0 (c : Dev nD) : W1 m ρ c (Proc.devRef .tc main_v0) = (dat0 (V0 m ρ) c).arrAt 2 cfg0.N := W1_arr m ρ c 2

/-- The arguments pass every segment unchanged. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))

theorem W2_arg0 (c : Dev nD) : W2 m ρ c (Proc.devRef .tc main_arg0) = m ((c : Thread nD τ).loc main_arg0) := by
  show StableHlo.after hostOps1 (W1 m ρ c) (Proc.devRef .tc main_arg0) = _
  after_results
  exact W1_arg0 m ρ c
theorem W2_arg1 (c : Dev nD) : W2 m ρ c (Proc.devRef .tc main_arg1) = m ((c : Thread nD τ).loc main_arg1) := by
  show StableHlo.after hostOps1 (W1 m ρ c) (Proc.devRef .tc main_arg1) = _
  after_results
  exact W1_arg1 m ρ c

/-- The array region 1 reads: the product reshaped to [1024,32,8] and transposed to [8,32,1024]. -/
theorem W2_v2 (c : Dev nD) : W2 m ρ c (Proc.devRef .tc main_v2)
    = transpose S8x32x1024 [2, 1, 0] (shapeCast S1024x32x8 (W1 m ρ c (Proc.devRef .tc main_v0)) shapeCasts_S1024x256_S1024x32x8) transposes_S1024x32x8_S8x32x1024_2_1_0 := by
  show StableHlo.after hostOps1 (W1 m ρ c) (Proc.devRef .tc main_v2) = _
  after_results
  rfl

/-- Its entry (d, k, b) is the product's entry (b, 8k + d). -/
theorem W2_v2_apply (c : Dev nD) (d : Fin 8) (k : Fin 32) (b : Fin 1024) :
    (W2 m ρ c (Proc.devRef .tc main_v2) : S8x32x1024.Idx → F .f32) (ix3 d k b)
      = (W1 m ρ c (Proc.devRef .tc main_v0) : S1024x256.Idx → F .f32) (ix2 b (Cert.Spec.col k d)) := by
  rw [W2_v2]
  rw [transpose_apply [2, 1, 0] _ transposes_S1024x32x8_S8x32x1024_2_1_0 (ix3 d k b) (ix3 b k d) (fun a => by
    match a with
    | ⟨0, _⟩ => rfl
    | ⟨1, _⟩ => rfl
    | ⟨2, _⟩ => rfl)]
  refine shapeCast_apply _ shapeCasts_S1024x256_S1024x32x8 (ix3 b k d) (ix2 b (Cert.Spec.col k d)) ?_
  have hb := b.isLt
  have hk := k.isLt
  have hd := d.isLt
  rw [Shape.rowMajor_val_two, Shape.rowMajor_val_three]
  show b.val * 256 + (8 * k.val + d.val) = (b.val * 32 + k.val) * 8 + d.val
  omega

theorem W3_arg0 (c : Dev nD) : W3 m ρ c (Proc.devRef .tc main_arg0) = m ((c : Thread nD τ).loc main_arg0) :=
  (W3_of_ne m ρ c main_arg0 (by decide)).trans (W2_arg0 m ρ c)
theorem W3_arg1 (c : Dev nD) : W3 m ρ c (Proc.devRef .tc main_arg1) = m ((c : Thread nD τ).loc main_arg1) :=
  (W3_of_ne m ρ c main_arg1 (by decide)).trans (W2_arg1 m ρ c)

theorem W4_arg0 (c : Dev nD) : W4 m ρ c (Proc.devRef .tc main_arg0) = m ((c : Thread nD τ).loc main_arg0) := by
  show StableHlo.after hostOps2 (W3 m ρ c) (Proc.devRef .tc main_arg0) = _
  after_results
  exact W3_arg0 m ρ c
theorem W4_arg1 (c : Dev nD) : W4 m ρ c (Proc.devRef .tc main_arg1) = m ((c : Thread nD τ).loc main_arg1) := by
  show StableHlo.after hostOps2 (W3 m ρ c) (Proc.devRef .tc main_arg1) = _
  after_results
  exact W3_arg1 m ρ c

/-- The result: x beside the transpose of the array region 1 leaves. -/
theorem W4_v5 (c : Dev nD) : W4 m ρ c (Proc.devRef .tc main_v5)
    = concatenate S1024x2080 1 [⟨S1024x2048, m ((c : Thread nD τ).loc main_arg0)⟩,
        ⟨S1024x32, transpose S1024x32 [1, 0] ((dat1 (V2 m ρ) q1 c).arrAt 2 cfg1.N) transposes_S32x1024_S1024x32_1_0⟩]
        concatenates_S1024x2048_S1024x32_S1024x2080_d1 := by
  show StableHlo.after hostOps2 (W3 m ρ c) (Proc.devRef .tc main_v5) = _
  after_results
  rw [W3_arg0, W3_v3]

end Cert.Kernel.Glue

end
-- ==== Proof.R0Runs.lean ====
/- The frame half of region 0 (the blocked matrix product, custom_call 0, pipeline 0), part 1: what the three
   whole-body runs share. The region is stated at a PARAMETER `V`, the TensorCore's buffer contents when the region is
   entered. Here: each window's block at a point, the two input windows' buffers at their blocks, the body's two
   branch conditions in closed form over the 4 x 4 grid (the first holds where the contraction index is 0, the second
   where it is 3), where the output window is idle, the staging and scratch memrefs, and the region invariant with the
   scratch accumulator as an owned memref. -/
import proofs.«161723_j52879637348745_2_alg».proof.Proof.Gen.KernelIdeal.Launch
import proofs.«161723_j52879637348745_2_alg».proof.Proof.Gen.KernelIdeal.Skeleton
import proofs.«161723_j52879637348745_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (the accumulator is zeroed under it), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): the contraction index is 0 — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the accumulator is copied to the output block under it), from the
    grid coordinates. -/
abbrev cond0_1 (i : grid0.Coords) : Prop := k0_cond2 i = 1#1
/-- It holds at the points ≡ 3 (mod 4): the contraction index is 3 — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A (first condition, not the second) output 2 is idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by
  intro t _ h1
  have h := flush0_2 t
  rw [← hcond0_1 t] at h
  cases hf : (cfg0.win 2).flush t with
  | false => rfl
  | true => exact absurd (h.mp hf) h1
/-- At the points of case B (neither condition) output 2 is idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by
  intro t _ h1
  have h := flush0_2 t
  rw [← hcond0_1 t] at h
  cases hf : (cfg0.win 2).flush t with
  | false => rfl
  | true => exact absurd (h.mp hf) h1
/-- At the points of case C (the second condition, not the first) output 2 is live: the case stores into it. -/
theorem liveAt0_2_C : ∀ t : Fin cfg0.N, ¬cond0_0 (grid0.coords t) → cond0_1 (grid0.coords t) → cfg0.idle 2 (grid0.coords t) = false := by decide +kernel

/-! ## The staging and scratch memrefs -/

/-- One staging buffer of output window 2, through which its contents are stated (the choice does not matter). -/
abbrev VO0_2 : View sig .tc .vmem S256x256 .f32 := (Memref.whole cc0_stg2_0 : Memref sig .tc .vmem S256x256 .f32).view
/-- Each window's current staging memref at point `t`, spelled as the pipeline passes it (`bodyAt0`), and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S256x256 .f32 := Memref.whole cc0_scratch0
/-- The scratch accumulator the kernel carries between points, as a view: what it holds is stated through it. -/
abbrev VS0_0 : View sig .tc .vmem S256x256 .f32 := scM0_0.view

/-- The core's scoped buffers that are neither a staging buffer nor the scratch of this region (the other region's
    staging buffers), each whole at some contents: they ride through the region untouched. -/
abbrev scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region invariant's class form with the scratch accumulator as a memref owned at some contents, the other
    scoped buffers each whole at some contents (`scRest0`), and the generator register at some state: what the body
    obligation hands the run and takes back. -/
theorem PhiA0_eq (c : Dev nD) :
    (Pipeline.ΦA spec0 c : sProp 𝕄)
      = iprop(iprop((∃ d, owns (c : Thread nD τ) scM0_0 fullShare d) ∗ scRest0 c) ∗ (∃ r, prngReg c r)) := by
  unfold Pipeline.ΦA; rw [scopedRest0_eq]; simp only [scM0_0, owns_whole]; try rfl

end Cert.KernelIdeal.R0

end
-- ==== Proof.R0RunA.lean ====
/- The frame half of region 0, part 2: the whole-body run of the kernel in CASE A (the first condition holds, the
   second does not: the contraction index is 0). The body zeroes the scratch accumulator, adds the product of the two
   input blocks into it, and stores nothing into the output block. The pieces the scratch ends with are the witness
   the run finds. -/
import proofs.«161723_j52879637348745_2_alg».proof.Proof.R0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE A,
    WITH the proof that on whole staging memrefs — the inputs' at their contents `x0`, `x1`, the output's (no store: the
    window is idle and not written back at the case's points) at contents `xi2` handed back untouched, the scratch at
    anything — the body runs to the continuation holding the inputs' as they were, the output's as it was, and the
    scratch with its pieces written (`LS0`). Each `scf.if` is decided by the case's hypotheses. -/
noncomputable def kernelRun0_A (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.R0RunB.lean ====
/- The frame half of region 0, part 3: the whole-body run of the kernel in CASE B (neither condition holds: the
   contraction index is 1 or 2). The body adds the product of the two input blocks into the scratch accumulator, which
   holds what the point before left, and stores nothing into the output block. -/
import proofs.«161723_j52879637348745_2_alg».proof.Proof.R0RunA

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE B,
    WITH the proof that on whole staging memrefs — the inputs' at their contents `x0`, `x1`, the output's (no store: the
    window is idle and not written back at the case's points) at contents `xi2` handed back untouched, the scratch at
    the contents the point before left (`xs0`) — the body runs to the continuation holding the inputs' as they were,
    the output's as it was, and the scratch with its pieces written (`LS0`). -/
noncomputable def kernelRun0_B (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) :
    Σ' (L2 : List (View.Piece (Elt F) S256x256 .f32)), { LS0 : List (View.Piece (Elt F) S256x256 .f32) //
      ∀ (xi2 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.R0

end
-- ==== Proof.R0RunC.lean ====
/- The frame half of region 0, part 4: the whole-body run of the kernel in CASE C (the second condition holds, the
   first does not: the contraction index is 3). The body adds the product of the two input blocks into the scratch
   accumulator, which holds what the point before left, and copies the accumulator to the output block. -/
import proofs.«161723_j52879637348745_2_alg».proof.Proof.R0RunB

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in the output's staging memref and in the scratch, as pieces (last first) IN CASE C,
    WITH the proof that on whole staging memrefs — the inputs' at their contents `x0`, `x1`, the output's at anything,
    the scratch at the contents the point before left (`xs0`) — the body runs to the continuation holding the inputs'
    as they were, the output's buffer with its pieces written (`L2`), and the scratch with its pieces written (`LS0`). -/
noncomputable def kernelRun0_C (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) :
    Σ' (L2 : List (View.Piece (Elt F) S256x256 .f32)), { LS0 : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.R0

end
-- ==== Proof.R0Frame.lean ====
/- The frame half of region 0, part 5: what the output block and the scratch accumulator hold per case (the pieces of
   the three runs read back) and point by point (`outsAt0`), the region invariant carrying the accumulator between
   points (`PhiS0`), the pipeline's proof data at the entry contents `V` (`dat0`), the body obligation at every point
   (`body_obligation0`), and the invariant's two ends (`hin0`, `hout0`). -/
import proofs.«161723_j52879637348745_2_alg».proof.Proof.R0RunC

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves -/

/-- Case A stores nothing into output 2 (the window is idle at its points and not written back there): no pieces — a
    placeholder (junk read back) that nothing consults. -/
def out0_A_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) : Vec F S256x256 .f32 :=
  VO0_2.read (Elt F) (VO0_2.writes (Elt F) VO0_2.junk (kernelRun0_A c i arg2 harg2 arg3 harg3 arg4 harg4 arg5 harg5 hc0 hc1 x0 x1).1)

/-- Case A's pieces for the scratch accumulator cover it: whole-buffer pieces tiling it. -/
theorem scover0_A_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) (y : S256x256.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S256x256.size (by sl_kernel_rfl) y

/-- What case A leaves in the scratch accumulator: its pieces read back over junk. -/
def sout0_A_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) : Vec F S256x256 .f32 :=
  VS0_0.read (Elt F) (VS0_0.writes (Elt F) VS0_0.junk (kernelRun0_A c i arg2 harg2 arg3 harg3 arg4 harg4 arg5 harg5 hc0 hc1 x0 x1).2.1)

/-- Case B stores nothing into output 2 (the window is idle at its points and not written back there): no pieces — a
    placeholder (junk read back) that nothing consults. -/
def out0_B_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) : Vec F S256x256 .f32 :=
  VO0_2.read (Elt F) (VO0_2.writes (Elt F) VO0_2.junk (kernelRun0_B c i arg2 harg2 arg3 harg3 arg4 harg4 arg5 harg5 hc0 hc1 x0 x1 xs0).1)

/-- Case B's pieces for the scratch accumulator cover it. -/
theorem scover0_B_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) (y : S256x256.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S256x256.size (by sl_kernel_rfl) y

/-- What case B leaves in the scratch accumulator: its pieces read back over junk. -/
def sout0_B_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) : Vec F S256x256 .f32 :=
  VS0_0.read (Elt F) (VS0_0.writes (Elt F) VS0_0.junk (kernelRun0_B c i arg2 harg2 arg3 harg3 arg4 harg4 arg5 harg5 hc0 hc1 x0 x1 xs0).2.1)

/-- Case C's pieces for output 2 tile its block (one whole-block store), so they cover it. -/
theorem cover0_C_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) (y : S256x256.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S256x256.size (by sl_kernel_rfl) y

/-- What case C leaves in output 2's staging buffer: its pieces read back over junk. -/
def out0_C_2 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) : Vec F S256x256 .f32 :=
  VO0_2.read (Elt F) (VO0_2.writes (Elt F) VO0_2.junk (kernelRun0_C c i arg2 harg2 arg3 harg3 arg4 harg4 arg5 harg5 hc0 hc1 x0 x1 xs0).1)

/-- Case C's pieces for the scratch accumulator cover it. -/
theorem scover0_C_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) (y : S256x256.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S256x256.size (by sl_kernel_rfl) y

/-- What case C leaves in the scratch accumulator: its pieces read back over junk. -/
def sout0_C_0 (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) : Vec F S256x256 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- THE ACCUMULATION. What output 2's staging buffer and the scratch accumulator hold after the body at position `n`
    (a pair: the output block, then the scratch): the case the closed forms select at `n`, run at the point's memrefs
    and input blocks, the accumulator at what this leaves at `n - 1`. An assignment of the conditions no point meets
    is no case. -/
def outsAt0 (c : Dev nD) : (n : ℕ) → n < cfg0.N → Vec F S256x256 .f32 × Vec F S256x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the kernel carrying its scratch accumulator between points: before the
    first point the class's (every scoped buffer that is no staging buffer at anything, the generator register at some
    state); afterwards the same with the accumulator at what the point before left in it (`outsAt0`'s second
    component). -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ scRest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ scRest0 c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ scRest0 c) ∗ (∃ r, prngReg c r)) := by
  cases n with
  | zero => exact absurd rfl hz
  | succ n => rfl

/-! ## The pipeline's proof data -/

/-- The proof data of pipeline 0 on core `c`: the arrays as the region finds them (`V`); after the body at point `t`
    each input's buffer at its block and the output's at `outsAt0`'s first component; the invariant `PhiS0`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_0`, `before0_1`); the closed forms say which
    case the point is in; so that case's run applies. The invariant hands the body the accumulator at what the point
    before left (at anything at the first point) and takes it back at this point's contents; the other scoped buffers,
    the generator register and the core's `owes` pass through. Where the output window is idle its buffer is handed
    back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk0 V c 0 t) (iblk0 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, Hr⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.R0

end
-- ==== Proof.R1Runs.lean ====
/- The frame half of the second region, part 1: what its whole-body runs are stated over — each window's block at a
   point, the input windows' staging contents, the body's branch condition in closed form, and the names of the
   staging memrefs. -/
import proofs.«161723_j52879637348745_2_alg».proof.Proof.Gen.KernelIdeal.Launch
import proofs.«161723_j52879637348745_2_alg».proof.Proof.Gen.KernelIdeal.Skeleton
import proofs.«161723_j52879637348745_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # The second region (the pairwise-distance kernel, grid 8 × 8), at the entry contents `V`

Point `t` of the grid has coordinates `(i, j) = (t / 8, t % 8)`. Windows 0 and 1 read blocks `i` and `j` of
one array; window 2 is the output block `i`, accumulated over `j`. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is
    not fetched its block index has not moved. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (`j = 0`: reset the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the points with `j = 0` — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging memrefs -/

/-- One staging buffer of output window 2, through which its contents are stated (reading back a covering list of
    writes does not depend on the choice). -/
abbrev VO1_2 : View sig .tc .vmem S32x128 .f32 := (Memref.whole cc1_stg2_0 : Memref sig .tc .vmem S32x128 .f32).view
/-- Each window's current staging memref at point `t`, spelled as the pipeline passes it, and its wholeness. -/
abbrev ms1_0 (t : Fin cfg1.N) : Memref sig .tc .vmem S8x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x128 .f32 := win1_2.stage (cfg1.slots t 2)
abbrev hs1_2 (t : Fin cfg1.N) : (ms1_2 t).IsWhole := hstage1_2 ((cfg1.slots t 2).cast nbuf1_2)

end Cert.KernelIdeal.R1

end
-- ==== Proof.R1RunA.lean ====
/- The frame half of the second region, part 2: the whole-body run of its kernel at a point with `j = 0`. -/
import proofs.«161723_j52879637348745_2_alg».proof.Proof.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref, as pieces (last first), AT A POINT WITH `j = 0`
    (the conditional taken: the block is zeroed, then every row accumulated into), WITH the proof that on whole
    staging memrefs — the two inputs' at their contents, the output's at anything — the body runs to the
    continuation holding the inputs' as they were and the output's buffer with its pieces written. The pieces are
    the witness the run finds. -/
noncomputable def kernelRun1_A (c : Dev nD) (i : grid1.Coords)
    (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) :
    { L2 : List (View.Piece (Elt F) S32x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1RunB.lean ====
/- The frame half of the second region, part 3: the whole-body run of its kernel at a point with `j ≠ 0`. -/
import proofs.«161723_j52879637348745_2_alg».proof.Proof.R1RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output's staging memref, as pieces (last first), AT A POINT WITH `j ≠ 0`
    (the conditional not taken: every row is read and accumulated into before any store covers it), WITH the proof
    that on whole staging memrefs — the two inputs' at their contents, the output's at its running contents
    `xo2` — the body runs to the continuation holding the inputs' as they were and the output's buffer with its
    pieces written. The pieces are the witness the run finds. -/
noncomputable def kernelRun1_B (c : Dev nD) (i : grid1.Coords)
    (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) :
    { L2 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__disc_kernel i arg2 harg2 arg3 harg3 arg4 harg4) K } := by
  refine ⟨?_, fun E K => ?run⟩
  case run =>
    simp only [cc1__disc_kernel_eq_skeleton]; unfold cc1__disc_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.R1

end
-- ==== Proof.R1Frame.lean ====
/- The frame half of the second region, part 4: what each case leaves in the output's staging buffer, what it holds
   point by point, the pipeline's proof data at the entry contents, and the body obligation. -/
import proofs.«161723_j52879637348745_2_alg».proof.Proof.R1RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered, and the shares the windows hold their arrays at
-- (windows 0 and 1 read ONE array): the parameters the region's half is stated at
variable (V : (c : Dev nD) → (b : Ref sig .tc) → Buf (Elt F) ((c : Thread nD τ).loc b))
variable (q : Fin cfg1.W → PosShare TreeShare)

/-! ## What each case leaves in the output's staging buffer -/

/-- At a point with `j = 0` the pieces contain one store per row of the block (32 stores of one row each, after the
    store that zeroes the block), so they cover it: the rows are struck off one by one. -/
theorem cover1_A_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) (y : S32x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128.size (by sl_kernel_rfl) y

/-- What a point with `j = 0` leaves in the output's staging buffer: its pieces read back over junk. -/
def out1_A_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i)
    (x0 : Vec F S8x32x128 .f32) (x1 : Vec F S8x32x128 .f32) : Vec F S32x128 .f32 :=
  VO1_2.read (Elt F) (VO1_2.writes (Elt F) VO1_2.junk (kernelRun1_A c i arg2 harg2 arg3 harg3 arg4 harg4 hc0 x0 x1).1)

/-- At a point with `j ≠ 0` the pieces are one store per row of the block (32 stores of one row each), so they cover it. -/
theorem cover1_B_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) (y : S32x128.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x128.size (by sl_kernel_rfl) y

/-- What a point with `j ≠ 0` leaves in the output's staging buffer: its pieces read back over junk. -/
def out1_B_2 (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i)
    (x0 : Vec F S8x32x128 .f32) (x1 : Vec F S8x32x128 .f32) (xo2 : Vec F S32x128 .f32) : Vec F S32x128 .f32 :=
  VO1_2.read (Elt F) (VO1_2.writes (Elt F) VO1_2.junk (kernelRun1_B c i arg2 harg2 arg3 harg3 arg4 harg4 hc0 x0 x1 xo2).1)

/-! ## What the output holds after each point -/

/-- THE ACCUMULATION. What the output's staging buffer holds after the body at position `n`: at `j = 0` the reset
    case run at the point's input blocks; otherwise the accumulating case, over what this leaves at `n - 1` (the
    buffer is not written back in between, and the block index does not move). -/
def outsAt1 (c : Dev nD) : (n : ℕ) → n < cfg1.N → Vec F S32x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 8 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point with `j = 0`: the reset case's contents. -/
theorem outsAt1_A (c : Dev nD) (t : Fin cfg1.N) (h0 : t.val % 8 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point with `j ≠ 0`: the accumulating case's contents, over what the point before left. -/
theorem outsAt1_B (c : Dev nD) (t : Fin cfg1.N) (h0 : ¬t.val % 8 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the output's at `outsAt1`; the invariant the scoped rest and the
    generator register, untouched; nothing owed; the arrays held at the shares `q`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q := q
  owed _ := 0

/-- The proof data's arrays are the region-entry contents (the definition projected). -/
theorem A_eq1 (c : Dev nD) (w : Fin cfg1.W) : (dat1 V q c).A w = V c (Pipeline.arrRef spec1 w) := by
  dsimp only [dat1]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = outsAt1 V c t.val t.isLt := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
/-- At a point with `j ≠ 0` the output's current staging buffer holds what the body left at the point before: the
    point is not the first, the buffer was not written back in between (it is written back only at `j = 7`), and
    the window is live and uncut. -/
theorem before1_2_B (c : Dev nD) (t : Fin cfg1.N) (h0 : ¬t.val % 8 = 0) (d) :
    (dat1 V q c).before 2 t d = outsAt1 V c (t.val - 1) (Nat.lt_of_le_of_lt (Nat.sub_le _ _) t.isLt) := by
  have hN : t.val < 64 := lt_of_lt_of_eq t.isLt (show cfg1.N = 64 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t` (the windows one by one), -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

/-- and what it returns. -/
def bodyPost1 (c : Dev nD) (t : Fin cfg1.N) : sProp 𝕄 :=
  iprop((dat1 V q c).Φ t.succ ∗ (dat1 V q c).owesAt () t.succ
    ∗ owns (c : Thread nD τ) (ms1_0 t) fullShare ((dat1 V q c).after 0 t)
    ∗ owns (c : Thread nD τ) (ms1_1 t) fullShare ((dat1 V q c).after 1 t)
    ∗ owns (c : Thread nD τ) (ms1_2 t) fullShare ((dat1 V q c).after 2 t))

set_option maxHeartbeats 800000 in
/-- The body at any point: the inputs' memrefs hold their blocks; the closed form says which case the point is in; at
    `j ≠ 0` the output's buffer holds what the point before left; so the case's run applies. The invariant passes
    through unread; the core owes nothing throughout. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).Φ t.succ = (dat1 V q c).Φ t.castSucc from rfl,
    show (dat1 V q c).owesAt () t.succ = (dat1 V q c).owesAt () t.castSucc from rfl,
    after1_0, after1_1, after1_2]
  have hN : t.val < 64 := lt_of_lt_of_eq t.isLt (show cfg1.N = 64 from N_1)
  by_cases h0 : t.val % 8 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V q c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.R1

end
-- ==== Proof.Main.lean ====
/-
  The run of @main: region 0 (the blocked matrix product), the reshape and transpose, region 1 (the all-pairs
  feature accumulated over key blocks), the transpose and the concatenation, as four segments in order. Between two
  segments every unscoped buffer is held whole at contents named here: the launch memory `W0`; after region 0 the
  same with its output array at what the pipeline's write-backs leave (`W1`); after the two host operations their
  results added (`W2`); after region 1 its output array at what its write-backs leave (`W3`) — its two input windows
  read ONE array, held by the two windows at the two halves of the full share —; after the last two host operations
  `W4`. The run ends with every unscoped buffer of the final memory at `W4`.
-/
import proofs.«161723_j52879637348745_2_alg».proof.Proof.Gen.KernelIdeal.Launch
import proofs.«161723_j52879637348745_2_alg».proof.Proof.R0Frame
import proofs.«161723_j52879637348745_2_alg».proof.Proof.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1
open PCS

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the reshape and the transpose: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- The shares region 1's windows hold their arrays at: its two input windows read one array, each at one half of
    the full share (the output's entry is not consulted: an output's array is held at the full share). -/
def q1 : Fin cfg1.W → PosShare TreeShare
  | ⟨0, _⟩ => (fullShare : PosShare TreeShare).left
  | ⟨1, _⟩ => (fullShare : PosShare TreeShare).right
  | ⟨_ + 2, _⟩ => fullShare

/-- After region 1: its output array at what the pipeline leaves, every other buffer as entered. -/
def W3 (c : Dev nD) : Valuation τ sig (Elt F) :=
  Function.update (W2 m ρ c) (Proc.devRef .tc main_v3) ((dat1 (V2 m ρ) q1 c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) q1 c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the transpose and the concatenation: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) q1 c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1's arrays: two windows on one buffer -/

/-- The buffers behind region 1's arrays are `main_v2` (both input windows) and `main_v3` (the output). -/
theorem arrs1 : Finset.univ.image (Pipeline.arrRef spec1) = ({main_v2, main_v3} : Finset (Ref sig .tc)) := by decide

theorem full_halves : (fullShare : PosShare TreeShare) ∈ (fullShare : PosShare TreeShare).left ·? (fullShare : PosShare TreeShare).right := by
  rw [PosShare.left_op_right]; exact Part.mem_some _

/-- The buffers behind region 1's arrays, whole at the full share at contents `V`, ARE the pipeline's arrays at
    contents `Fw` read off `V`: the shared input array split along its share into the two windows' halves. -/
theorem arrays1_iff (c : Dev nD) (V : (c : Dev nD) → (b : Ref sig .tc) → Buf (Elt F) ((c : Thread nD τ).loc b))
    (Fw : (w : Fin cfg1.W) → Buf (Elt F) ((cfg1.win w).arr.view.loc (c.tc : Thread nD τ)))
    (h0 : Fw 0 = V c main_v2) (h1 : Fw 1 = V c main_v2) (h2 : Fw 2 = V c main_v3) :
    (Pipeline.arrBufs (Ix := Unit) (Name := ℕ) (U := UR sig nD τ) (Lvl := ℕ) spec1 c (V c) : sProp 𝕄) ⊣⊢ (dat1 V q1 c).arrays Fw := by
  unfold Pipeline.arrBufs Pipeline.Dat.arrays
  rw [arrs1, bigSep_W1, BI.bigSep_insert (by decide), BI.bigSep_singleton]
  rw [show (dat1 V q1 c).share 0 = (fullShare : PosShare TreeShare).left from rfl,
    show (dat1 V q1 c).share 1 = (fullShare : PosShare TreeShare).right from rfl,
    show (dat1 V q1 c).share 2 = fullShare from rfl,
    (arr_whole1 0).set_eq_univ, (arr_whole1 2).set_eq_univ, h0, h1, h2]
  show iprop((((c : Thread nD τ).loc main_v2) ↦{fullShare} V c main_v2) ∗ (((c : Thread nD τ).loc main_v3) ↦{fullShare} V c main_v3)) ⊣⊢ _
  constructor
  · iintro ⟨H2, H3⟩
    ihave H := (pointsTo_share full_halves).1 $$ H2
    icases H with ⟨Ha, Hb⟩
    isplitl [Ha]; · iexact Ha
    isplitl [Hb]; · iexact Hb
    iexact H3
  · iintro ⟨Ha, Hb, H3⟩
    isplitl [Ha Hb]
    · iapply (pointsTo_share full_halves).2
      isplitl [Ha]; · iexact Ha
      iexact Hb
    iexact H3

/-! ## The regions as segments -/

set_option backward.isDefEq.respectTransparency.types false in
/-- REGION 0 over the thread state: entered from every unscoped buffer at `W0`, left at `W1`. Its arrays are split
    out of the unscoped buffers and put back at the exit contents; the generator register and the scoped rest go
    into the region's invariant (the scratch accumulator at anything before the first point) and come back out of it
    (its named contents forgotten after the last); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Off region 1's output array the exit contents are the entry contents. -/
theorem hrest1 (c : Dev nD) : ∀ b, b ∉ Finset.univ.image (Pipeline.arrRef spec1) → V3 m ρ c b = V2 m ρ c b :=
  fun b hb => W3_of_ne m ρ c b fun e => hb (by rw [arrs1, e]; decide)

set_option backward.isDefEq.respectTransparency.types false in
/-- REGION 1 over the thread state: entered from every unscoped buffer at `W2`, left at `W3`. The buffers behind
    its arrays are split out of the unscoped buffers — the one input array dealt to the two input windows by halves
    of its share — and put back at the exit, the input array whole again and unchanged, the output array at what the
    pipeline's write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [Pipeline.unscopedBufs_split₀ (Pipeline.pin (pcfgs (F := F)) adm) 1 winFacts₀1.arr_unscoped c (V2 m ρ c)]
      exact sep_mono (arrays1_iff c (V2 m ρ) _ rfl rfl rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [Pipeline.unscopedBufs_split₀ (Pipeline.pin (pcfgs (F := F)) adm) 1 winFacts₀1.arr_unscoped c (V3 m ρ c)]
      refine sep_mono (arrays1_iff c (V3 m ρ) _ ?_ ?_ ?_).2 (Entails.of_eq ?_)
      · exact ((pdats m ρ 1 c).arrAt_in 0 rfl _).trans ((W3_of_ne m ρ c main_v2 (by decide)).symm)
      · exact ((pdats m ρ 1 c).arrAt_in 1 rfl _).trans ((W3_of_ne m ρ c main_v2 (by decide)).symm)
      · exact (W3_v3 m ρ c).symm
      · unfold Pipeline.unscopedRest
        exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W4 m ρ c) ∗ ∃ r, prngReg c r))
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Run

end
-- ==== Proof.Glue.lean ====
/-
  The host operations around the two regions, read at an index: the [8,32,1024] array region 1 reads is the product
  laid out as (d, k, b) ↦ column 8k+d of row b; the result is x beside the transposed [32,1024] array region 1 leaves.
-/
import proofs.«161723_j52879637348745_2_alg».proof.Proof.Main
import proofs.«161723_j52879637348745_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1 Cert.KernelIdeal.Run Idealize.ShloMosaic.ValueIdx Idealize.ShloMosaic.StableHlo
open scoped BigOperators

variable (m : (ℓ : Loc nD τ sig) → Buf (Elt F) ℓ) (ρ : Dev nD → PrngReg)

/-- Region 0's output array after the region is what the pipeline's write-backs leave. -/
theorem W1_v0 (c : Dev nD) : W1 m ρ c (Proc.devRef .tc main_v0) = (dat0 (V0 m ρ) c).arrAt 2 cfg0.N := W1_arr m ρ c 2

/-- The arguments pass every segment unchanged. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))

theorem W2_arg0 (c : Dev nD) : W2 m ρ c (Proc.devRef .tc main_arg0) = m ((c : Thread nD τ).loc main_arg0) := by
  show StableHlo.after hostOps1 (W1 m ρ c) (Proc.devRef .tc main_arg0) = _
  after_results
  exact W1_arg0 m ρ c
theorem W2_arg1 (c : Dev nD) : W2 m ρ c (Proc.devRef .tc main_arg1) = m ((c : Thread nD τ).loc main_arg1) := by
  show StableHlo.after hostOps1 (W1 m ρ c) (Proc.devRef .tc main_arg1) = _
  after_results
  exact W1_arg1 m ρ c

/-- The array region 1 reads: the product reshaped to [1024,32,8] and transposed to [8,32,1024]. -/
theorem W2_v2 (c : Dev nD) : W2 m ρ c (Proc.devRef .tc main_v2)
    = transpose S8x32x1024 [2, 1, 0] (shapeCast S1024x32x8 (W1 m ρ c (Proc.devRef .tc main_v0)) shapeCasts_S1024x256_S1024x32x8) transposes_S1024x32x8_S8x32x1024_2_1_0 := by
  show StableHlo.after hostOps1 (W1 m ρ c) (Proc.devRef .tc main_v2) = _
  after_results
  rfl

/-- Its entry (d, k, b) is the product's entry (b, 8k + d). -/
theorem W2_v2_apply (c : Dev nD) (d : Fin 8) (k : Fin 32) (b : Fin 1024) :
    (W2 m ρ c (Proc.devRef .tc main_v2) : S8x32x1024.Idx → F .f32) (ix3 d k b)
      = (W1 m ρ c (Proc.devRef .tc main_v0) : S1024x256.Idx → F .f32) (ix2 b (Cert.Spec.col k d)) := by
  rw [W2_v2]
  rw [transpose_apply [2, 1, 0] _ transposes_S1024x32x8_S8x32x1024_2_1_0 (ix3 d k b) (ix3 b k d) (fun a => by
    match a with
    | ⟨0, _⟩ => rfl
    | ⟨1, _⟩ => rfl
    | ⟨2, _⟩ => rfl)]
  refine shapeCast_apply _ shapeCasts_S1024x256_S1024x32x8 (ix3 b k d) (ix2 b (Cert.Spec.col k d)) ?_
  have hb := b.isLt
  have hk := k.isLt
  have hd := d.isLt
  rw [Shape.rowMajor_val_two, Shape.rowMajor_val_three]
  show b.val * 256 + (8 * k.val + d.val) = (b.val * 32 + k.val) * 8 + d.val
  omega

theorem W3_arg0 (c : Dev nD) : W3 m ρ c (Proc.devRef .tc main_arg0) = m ((c : Thread nD τ).loc main_arg0) :=
  (W3_of_ne m ρ c main_arg0 (by decide)).trans (W2_arg0 m ρ c)
theorem W3_arg1 (c : Dev nD) : W3 m ρ c (Proc.devRef .tc main_arg1) = m ((c : Thread nD τ).loc main_arg1) :=
  (W3_of_ne m ρ c main_arg1 (by decide)).trans (W2_arg1 m ρ c)

theorem W4_arg0 (c : Dev nD) : W4 m ρ c (Proc.devRef .tc main_arg0) = m ((c : Thread nD τ).loc main_arg0) := by
  show StableHlo.after hostOps2 (W3 m ρ c) (Proc.devRef .tc main_arg0) = _
  after_results
  exact W3_arg0 m ρ c
theorem W4_arg1 (c : Dev nD) : W4 m ρ c (Proc.devRef .tc main_arg1) = m ((c : Thread nD τ).loc main_arg1) := by
  show StableHlo.after hostOps2 (W3 m ρ c) (Proc.devRef .tc main_arg1) = _
  after_results
  exact W3_arg1 m ρ c

/-- The result: x beside the transpose of the array region 1 leaves. -/
theorem W4_v5 (c : Dev nD) : W4 m ρ c (Proc.devRef .tc main_v5)
    = concatenate S1024x2080 1 [⟨S1024x2048, m ((c : Thread nD τ).loc main_arg0)⟩,
        ⟨S1024x32, transpose S1024x32 [1, 0] ((dat1 (V2 m ρ) q1 c).arrAt 2 cfg1.N) transposes_S32x1024_S1024x32_1_0⟩]
        concatenates_S1024x2048_S1024x32_S1024x2080_d1 := by
  show StableHlo.after hostOps2 (W3 m ρ c) (Proc.devRef .tc main_v5) = _
  after_results
  rw [W3_arg0, W3_v3]

end Cert.KernelIdeal.Glue

end
-- ==== Proof.Result.lean ====
/-
  The kernel's result is the specification: x beside the feature array. Region 1 leaves, at (k, b), the sum over all
  b' of exp(−Σ_d |z(d,k,b) − z(d,k,b')|) of the array z it reads; z(d,k,b) is the product's entry (b, 8k+d); the last
  two host operations transpose that and lay it beside x.
-/
import proofs.«161723_j52879637348745_2_alg».proof.Proof.Glue

set_option maxRecDepth 16384

noncomputable section

namespace Cert.KernelIdeal.Result

open Idealize.ShloMosaic Idealize.ShloMosaic.TcCoe Idealize.SL.Sem
open Cert.KernelIdeal Cert.KernelIdeal.Gen
open Cert.KernelIdeal.R0 Cert.KernelIdeal.R1 Cert.KernelIdeal.Run Cert.KernelIdeal.Glue Idealize.ShloMosaic.ValueIdx
open scoped BigOperators

variable (m : (ℓ : Loc nD τ sig) → Buf (Elt Ideal) ℓ) (ρ : Dev nD → PrngReg)

/-- The array region 1 reads, and the two arguments, as arrays of extended reals. -/
abbrev zArr (c : Dev nD) : S8x32x1024.Idx → EReal := V2 m ρ c main_v2
abbrev xArr (c : Dev nD) : S1024x2048.Idx → EReal := m ((c : Thread nD τ).loc main_arg0)
abbrev wArr (c : Dev nD) : S2048x256.Idx → EReal := m ((c : Thread nD τ).loc main_arg1)

/-- The array region 1 reads, at (d, k, b), is the product's entry (b, 8k+d), given what region 0 leaves. -/
theorem z_apply (c : Dev nD)
    (h0 : (dat0 (F := Ideal) (V0 m ρ) c).arrAt 2 cfg0.N
      = fun i => Cert.Spec.M (m ((c : Thread nD τ).loc main_arg0)) (m ((c : Thread nD τ).loc main_arg1)) (i 0) (i 1))
    (d : Fin 8) (k : Fin 32) (b : Fin 1024) :
    zArr m ρ c (ix3 d k b) = Cert.Spec.M (xArr m c) (wArr m c) b (Cert.Spec.col k d) := by
  show (W2 m ρ c (Proc.devRef .tc main_v2) : S8x32x1024.Idx → EReal) (ix3 d k b) = _
  rw [W2_v2_apply, W1_v0, h0]
  rfl

/-- THE RESULT. Given what the two regions leave in their output arrays, the last boundary's result array is the
    specification of the two arguments. -/
theorem result_eq (c : Dev nD)
    (h0 : (dat0 (F := Ideal) (V0 m ρ) c).arrAt 2 cfg0.N
      = fun i => Cert.Spec.M (m ((c : Thread nD τ).loc main_arg0)) (m ((c : Thread nD τ).loc main_arg1)) (i 0) (i 1))
    (h1 : (dat1 (F := Ideal) (V2 m ρ) q1 c).arrAt 2 cfg1.N
      = fun i => ∑ b' : Fin 1024, Ideal.exp (-(∑ d : Fin 8,
          max (zArr m ρ c (ix3 d (i 0) (i 1)) - zArr m ρ c (ix3 d (i 0) b'))
            (-(zArr m ρ c (ix3 d (i 0) (i 1)) - zArr m ρ c (ix3 d (i 0) b')))))) :
    W4 m ρ c (Proc.devRef .tc main_v5) = Cert.Spec.G (xArr m c) (wArr m c) := by
  rw [W4_v5]
  refine Cert.Spec.G_of_feat _ _ _ ?_ _
  funext i
  obtain ⟨b, k, rfl⟩ : ∃ (b : Fin 1024) (k : Fin 32), i = ix2 b k := ⟨i 0, i 1, eq_ix2 i⟩
  rw [transpose_apply [1, 0] _ transposes_S32x1024_S1024x32_1_0 (ix2 b k) (ix2 k b) (fun a => by
    match a with
    | ⟨0, _⟩ => rfl
    | ⟨1, _⟩ => rfl)]
  rw [h1, Cert.Spec.featArr_apply]
  unfold Cert.Spec.feat Cert.Spec.dist
  show @Eq EReal _ _
  refine Finset.sum_congr rfl fun b' _ => ?_
  refine congrArg Ideal.exp (congrArg Neg.neg (Finset.sum_congr rfl fun d _ => ?_))
  show max (zArr m ρ c (ix3 d k b) - zArr m ρ c (ix3 d k b')) (-(zArr m ρ c (ix3 d k b) - zArr m ρ c (ix3 d k b'))) = _
  rw [z_apply m ρ c h0 d k b, z_apply m ρ c h0 d k b']

end Cert.KernelIdeal.Result

end
-- ==== Proof.RefValue.lean ====
/-
  The reference computes the specification.

  The reference forms the product `x · w`, reads it as `[1024, 32, 8]` (entry `(b, k, d)` is column `8 k + d` of row
  `b`: the row-major position `(32 b + k) 8 + d` has quotient `b` and remainder `8 k + d` by 256), spreads one copy
  along a new last axis and a transposed copy along a new first axis to `[1024, 32, 8, 1024]`, so that entry
  `(b, k, d, b')` of the difference is `M b (8 k + d) − M b' (8 k + d)`, takes absolute values, adds over `d` from
  zero, negates, exponentiates, adds over `b'` from zero, and lays the result beside `x`. Read index by index this
  is the specification's `feat` up to the two leading zeros, which `0 + a = a` removes.
-/
import proofs.«161723_j52879637348745_2_alg».proof.Proof.Gen.ReferenceIdeal.Read
import proofs.«161723_j52879637348745_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- The product at an index is the specification's `M` at its two coordinates. -/
theorem product_apply (x : (⟨S1024x2048, .f32⟩ : BufTy).Contents (Elt Ideal)) (w : (⟨S2048x256, .f32⟩ : BufTy).Contents (Elt Ideal))
    (j : S1024x256.Idx) :
    val_main_v0 (F := Ideal) x w j = Cert.Spec.M x w (j 0) (j 1) := by
  rw [val_main_v0_apply]
  unfold Cert.Spec.M
  refine Finset.sum_congr rfl fun q _ => ?_
  have el : lidx_main_v0 j q = ix2 (j 0) q := funext fun a => by
    match a with
    | ⟨0, _⟩ => rfl
    | ⟨1, _⟩ => rfl
  have er : ridx_main_v0 j q = ix2 q (j 1) := funext fun a => by
    match a with
    | ⟨0, _⟩ => rfl
    | ⟨1, _⟩ => rfl
  exact congrArg₂ (· * ·) (congrArg x el) (congrArg w er)

/-- The product read as `[1024, 32, 8]`: entry `(b, k, d)` is column `8 k + d` of row `b`. -/
theorem features_apply (x : (⟨S1024x2048, .f32⟩ : BufTy).Contents (Elt Ideal)) (w : (⟨S2048x256, .f32⟩ : BufTy).Contents (Elt Ideal))
    (b : Fin 1024) (k : Fin 32) (d : Fin 8) :
    val_main_v1 (F := Ideal) x w (ix3 b k d) = Cert.Spec.M x w b (Cert.Spec.col k d) := by
  rw [val_main_v1_apply, product_apply]
  have hb := b.isLt
  have hk := k.isLt
  have hd := d.isLt
  have e0 : idx_main_v1 (ix3 b k d) 0 = b := Fin.ext (by
    show ((b.val * 32 + k.val) * 8 + d.val) / 256 = b.val
    omega)
  have e1 : idx_main_v1 (ix3 b k d) 1 = Cert.Spec.col k d := Fin.ext (by
    show ((b.val * 32 + k.val) * 8 + d.val) % 256 = 8 * k.val + d.val
    omega)
  rw [e0, e1]

/-- The absolute difference at `(b, k, d, b')`. -/
theorem absdiff_apply (x : (⟨S1024x2048, .f32⟩ : BufTy).Contents (Elt Ideal)) (w : (⟨S2048x256, .f32⟩ : BufTy).Contents (Elt Ideal))
    (b : Fin 1024) (k : Fin 32) (d : Fin 8) (b' : Fin 1024) :
    val_main_v8 (F := Ideal) x w (ix4 b k d b')
      = max (Cert.Spec.M x w b (Cert.Spec.col k d) - Cert.Spec.M x w b' (Cert.Spec.col k d))
          (-(Cert.Spec.M x w b (Cert.Spec.col k d) - Cert.Spec.M x w b' (Cert.Spec.col k d))) := by
  rw [val_main_v8_apply, val_main_v7_apply, val_main_v5_apply, val_main_v2_apply, val_main_v6_apply, val_main_v4_apply,
    val_main_v3_apply]
  have eq : idx_main_v2 (idx_main_v5 (ix4 b k d b')) = ix3 b k d := funext fun a => by
    match a with
    | ⟨0, _⟩ => rfl
    | ⟨1, _⟩ => rfl
    | ⟨2, _⟩ => rfl
  have ek : idx_main_v3 (idx_main_v4 (idx_main_v6 (ix4 b k d b'))) = ix3 b' k d := funext fun a => by
    match a with
    | ⟨0, _⟩ => rfl
    | ⟨1, _⟩ => rfl
    | ⟨2, _⟩ => rfl
  rw [eq, ek, features_apply, features_apply]
  rfl

/-- The reference's feature array is the specification's. -/
theorem features_eq (x : (⟨S1024x2048, .f32⟩ : BufTy).Contents (Elt Ideal)) (w : (⟨S2048x256, .f32⟩ : BufTy).Contents (Elt Ideal)) :
    val_main_v12 (F := Ideal) x w = Cert.Spec.featArr x w := by
  funext i
  obtain ⟨b, k, rfl⟩ : ∃ (b : Fin 1024) (k : Fin 32), i = ix2 b k := ⟨i 0, i 1, eq_ix2 i⟩
  rw [val_main_v12_apply, val_main_cst_0_apply, Ideal.ofBits_def, Ideal.ofBits_zero_f32, zero_add, Cert.Spec.featArr_apply]
  unfold Cert.Spec.feat
  refine Finset.sum_congr rfl fun b' _ => ?_
  rw [val_main_v11_apply, val_main_v10_apply, val_main_v9_apply, val_main_cst_apply, Ideal.ofBits_def, Ideal.ofBits_zero_f32,
    zero_add, Ideal.hostUnary_exp_def, Ideal.hostNegf_def, Ideal.negf_def]
  unfold Cert.Spec.dist
  refine congrArg Ideal.exp (congrArg Neg.neg (Finset.sum_congr rfl fun d _ => ?_))
  have e : idx_main_v9 (idx_main_v12 (ix2 b k) b') d = ix4 b k d b' := funext fun a => by
    match a with
    | ⟨0, _⟩ => rfl
    | ⟨1, _⟩ => rfl
    | ⟨2, _⟩ => rfl
    | ⟨3, _⟩ => rfl
  rw [e, absdiff_apply]

/-- THE REFERENCE IS THE SPECIFICATION: the last stage of the reference, over the two arguments, is `G`. -/
theorem ref_eq (x : (⟨S1024x2048, .f32⟩ : BufTy).Contents (Elt Ideal)) (w : (⟨S2048x256, .f32⟩ : BufTy).Contents (Elt Ideal)) :
    val_main_v13 (F := Ideal) x w = Cert.Spec.G x w := by
  unfold val_main_v13
  rw [features_eq]
  rfl

/-- The reference's run, with its result stated as the specification of the two arguments: on every device every
    weakly fair execution terminates with the result array at `G` of the arguments' launch contents and the
    arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v13_eq (F := Ideal) _ _).trans (ref_eq _ _)), (h c).2⟩)
    (Cert.ReferenceIdeal.Value.run (F := Ideal) m ρ)

end Cert.ReferenceIdeal.RefValue

end
-- ==== Proof.LibSumBlocks.lean ====
/-
  A finite sum whose index runs over `m` consecutive blocks of `n` entries each, regrouped block by block.

  Over any commutative additive monoid
      ∑ k : Fin (m * n), f k  =  ∑ x : Fin m, ∑ y : Fin n, f (entry y of block x),
  the entry `y` of block `x` sitting at position `x * n + y`. Addition of extended reals is commutative and
  associative at the infinities too, so at the extended reals the law needs no finiteness of the summands.

  This is the law that joins a contraction whose axis is a concatenation of `m` pieces of length `n` (one long
  dot product over `Fin (m * n)`) to the sum of the `m` pieces' own contractions (`m` short dot products, added):
  `sum_concat` states it for a summand given piecewise, `sum_four_blocks` spells the case of four pieces as a
  sum of four sums.
-/
import Mathlib.Algebra.BigOperators.Fin
import Mathlib.Data.Fintype.BigOperators
import Mathlib.Logic.Equiv.Fin.Basic
import Mathlib.Data.EReal.Basic

namespace Cert.LibSumBlocks

open scoped BigOperators

variable {M : Type*} [AddCommMonoid M] {m n : ℕ}

/-- Entry `y` of block `x`, as a position of the concatenated axis. -/
def pos (x : Fin m) (y : Fin n) : Fin (m * n) := finProdFinEquiv (x, y)

/-- It sits at `x * n + y`. -/
theorem pos_val (x : Fin m) (y : Fin n) : (pos x y).val = x.val * n + y.val := by
  show y.val + n * x.val = x.val * n + y.val
  rw [Nat.mul_comm, Nat.add_comm]

/-- Its block is `x` and its place inside the block is `y`. -/
theorem pos_divNat (x : Fin m) (y : Fin n) : (pos x y).divNat = x :=
  congrArg Prod.fst (finProdFinEquiv.symm_apply_apply (x, y))

theorem pos_modNat (x : Fin m) (y : Fin n) : (pos x y).modNat = y :=
  congrArg Prod.snd (finProdFinEquiv.symm_apply_apply (x, y))

/-- Every position is an entry of a block: the one of its quotient and remainder by the block length. -/
theorem pos_div_mod (k : Fin (m * n)) : pos k.divNat k.modNat = k :=
  finProdFinEquiv.apply_symm_apply k

/-- A sum over the concatenated axis is the sum over the blocks of the sums over each block. -/
theorem sum_blocks (f : Fin (m * n) → M) :
    ∑ k : Fin (m * n), f k = ∑ x : Fin m, ∑ y : Fin n, f (pos x y) := by
  rw [← Equiv.sum_comp finProdFinEquiv f, Fintype.sum_prod_type]
  rfl

/-- The same for a summand given piece by piece: position `k` carries piece `k / n`'s entry `k % n`. -/
theorem sum_concat (g : Fin m → Fin n → M) :
    ∑ k : Fin (m * n), g k.divNat k.modNat = ∑ x : Fin m, ∑ y : Fin n, g x y := by
  rw [sum_blocks]
  refine Finset.sum_congr rfl fun x _ => Finset.sum_congr rfl fun y _ => ?_
  rw [pos_divNat, pos_modNat]

/-- Four pieces: one sum over `Fin (4 * n)` is the four pieces' sums added in order. -/
theorem sum_four_blocks (f : Fin (4 * n) → M) :
    ∑ k : Fin (4 * n), f k
      = (∑ y : Fin n, f (pos 0 y)) + (∑ y : Fin n, f (pos 1 y)) + (∑ y : Fin n, f (pos 2 y)) + ∑ y : Fin n, f (pos 3 y) := by
  rw [sum_blocks, Fin.sum_univ_four]

/-- A product summed over the concatenated axis, both factors given piece by piece: the long dot product is the
    sum of the pieces' dot products. Only the additive structure is used, so it holds where multiplication does not
    distribute over addition, as on the extended reals. -/
theorem dot_concat {R : Type*} [AddCommMonoid R] [Mul R] (a b : Fin m → Fin n → R) :
    ∑ k : Fin (m * n), a k.divNat k.modNat * b k.divNat k.modNat = ∑ x : Fin m, ∑ y : Fin n, a x y * b x y :=
  sum_concat (fun x y => a x y * b x y)

/-- At the extended reals, with no finiteness hypothesis. -/
theorem dot_concat_ereal (a b : Fin m → Fin n → EReal) :
    ∑ k : Fin (m * n), a k.divNat k.modNat * b k.divNat k.modNat = ∑ x : Fin m, ∑ y : Fin n, a x y * b x y :=
  dot_concat a b

end Cert.LibSumBlocks
-- ==== Proof.SpecAlg.lean ====
/-
  Two regroupings of the specification's sums, by consecutive blocks.

  The contraction axis of the product (2048 entries) is 4 blocks of 512, and the batch axis the features are summed
  over (1024 rows) is 8 blocks of 128. A sum over such an axis is the sum over the blocks of each block's own sum, and
  since a sum over 4 (or 8) blocks is the blocks' sums added in order from zero, it is also what an accumulator holds
  that starts at zero and takes one block's sum at a time. Only the commutativity and associativity of `+` are used,
  so on the extended reals no entry needs to be finite.
-/
import proofs.«161723_j52879637348745_2_alg».proof.Proof.LibSumBlocks
import proofs.«161723_j52879637348745_2_alg».proof.Proof.Spec

noncomputable section

namespace Cert.SpecAlg

open Cert.LibSumBlocks Cert.Spec Idealize.ShloMosaic
open scoped BigOperators

variable {A : Type*} [AddCommMonoid A]

/-- Entry `kk` of block `kb` of an axis of 2048 = 4 · 512 entries. -/
def at512 (kb : Fin 4) (kk : Fin 512) : Fin 2048 :=
  ⟨512 * kb.val + kk.val, by have := kb.isLt; have := kk.isLt; omega⟩

@[simp] theorem at512_val (kb : Fin 4) (kk : Fin 512) : (at512 kb kk).val = 512 * kb.val + kk.val := rfl

/-- Entry `a` of block `j` of an axis of 1024 = 8 · 128 entries. -/
def at128 (j : Fin 8) (a : Fin 128) : Fin 1024 :=
  ⟨128 * j.val + a.val, by have := j.isLt; have := a.isLt; omega⟩

@[simp] theorem at128_val (j : Fin 8) (a : Fin 128) : (at128 j a).val = 128 * j.val + a.val := rfl

/-- A sum over 2048 entries, block by block: 4 blocks of 512. -/
theorem sum_2048 (f : Fin 2048 → A) :
    ∑ k : Fin 2048, f k = ∑ kb : Fin 4, ∑ kk : Fin 512, f (at512 kb kk) := by
  refine (sum_blocks (m := 4) (n := 512) f).trans ?_
  refine Finset.sum_congr rfl fun kb _ => Finset.sum_congr rfl fun kk _ => congrArg f (Fin.ext ?_)
  show (pos kb kk).val = 512 * kb.val + kk.val
  rw [pos_val]
  omega

/-- A sum over 1024 entries, block by block: 8 blocks of 128. -/
theorem sum_1024 (f : Fin 1024 → A) :
    ∑ b : Fin 1024, f b = ∑ j : Fin 8, ∑ a : Fin 128, f (at128 j a) := by
  refine (sum_blocks (m := 8) (n := 128) f).trans ?_
  refine Finset.sum_congr rfl fun j _ => Finset.sum_congr rfl fun a _ => congrArg f (Fin.ext ?_)
  show (pos j a).val = 128 * j.val + a.val
  rw [pos_val]
  omega

/-! ## The product, by blocks of the contraction axis -/

/-- Block `kb`'s share of the product at row `b`, column `n`: the 512 products of that block, added. -/
def partM (x : SX.Idx → EReal) (w : SW.Idx → EReal) (b : Fin 1024) (n : Fin 256) (kb : Fin 4) : EReal :=
  ∑ kk : Fin 512, x (ValueIdx.ix2 b (at512 kb kk)) * w (ValueIdx.ix2 (at512 kb kk) n)

/-- The product is the four blocks' shares, added. -/
theorem M_blocks (x : SX.Idx → EReal) (w : SW.Idx → EReal) (b : Fin 1024) (n : Fin 256) :
    M x w b n = ∑ kb : Fin 4, partM x w b n kb :=
  sum_2048 fun k => x (ValueIdx.ix2 b k) * w (ValueIdx.ix2 k n)

/-- The product is what an accumulator holds that starts at zero and takes the four blocks' shares in order. -/
theorem M_acc (x : SX.Idx → EReal) (w : SW.Idx → EReal) (b : Fin 1024) (n : Fin 256) :
    M x w b n = 0 + partM x w b n 0 + partM x w b n 1 + partM x w b n 2 + partM x w b n 3 := by
  rw [M_blocks, Fin.sum_univ_four, zero_add]

/-! ## A feature value, by blocks of the batch axis -/

/-- Block `j`'s share of feature `k` of row `b`: the closeness of row `b` to the 128 rows of that block, added. -/
def partFeat (x : SX.Idx → EReal) (w : SW.Idx → EReal) (b : Fin 1024) (k : Fin 32) (j : Fin 8) : EReal :=
  ∑ a : Fin 128, Ideal.exp (-(dist x w b (at128 j a) k))

/-- A feature value is the eight blocks' shares, added. -/
theorem feat_blocks (x : SX.Idx → EReal) (w : SW.Idx → EReal) (b : Fin 1024) (k : Fin 32) :
    feat x w b k = ∑ j : Fin 8, partFeat x w b k j :=
  sum_1024 fun b' => Ideal.exp (-(dist x w b b' k))

/-- A feature value is what an accumulator holds that starts at zero and takes the eight blocks' shares in order. -/
theorem feat_acc (x : SX.Idx → EReal) (w : SW.Idx → EReal) (b : Fin 1024) (k : Fin 32) :
    feat x w b k = 0 + partFeat x w b k 0 + partFeat x w b k 1 + partFeat x w b k 2 + partFeat x w b k 3
      + partFeat x w b k 4 + partFeat x w b k 5 + partFeat x w b k 6 + partFeat x w b k 7 := by
  rw [feat_blocks, Fin.sum_univ_eight, zero_add]

/-! ## An accumulator over the first `t` blocks

The value after `t` steps of an accumulator that starts at zero and adds block `s`'s share at step `s`: the sum of
the shares of the blocks below `t`. After all `n` steps it is the whole sum. -/

/-- The shares of the blocks below `t`, added. -/
def prefixSum {n : ℕ} (p : Fin n → A) (t : ℕ) : A := ∑ s : Fin n, if s.val < t then p s else 0

theorem prefixSum_zero {n : ℕ} (p : Fin n → A) : prefixSum p 0 = 0 := by
  unfold prefixSum
  exact Finset.sum_eq_zero fun s _ => if_neg (Nat.not_lt_zero _)

/-- One more step adds that step's share. -/
theorem prefixSum_succ {n : ℕ} (p : Fin n → A) (t : Fin n) :
    prefixSum p (t.val + 1) = prefixSum p t.val + p t := by
  unfold prefixSum
  have h : ∀ s : Fin n, (if s.val < t.val + 1 then p s else 0)
      = (if s.val < t.val then p s else 0) + (if s = t then p s else 0) := by
    intro s
    by_cases h1 : s.val < t.val
    · have h2 : s ≠ t := fun e => by rw [e] at h1; exact Nat.lt_irrefl _ h1
      rw [if_pos h1, if_pos (Nat.lt_succ_of_lt h1), if_neg h2, add_zero]
    · by_cases h2 : s = t
      · rw [if_neg h1, if_pos h2, if_pos (by rw [h2]; exact Nat.lt_succ_self _), zero_add]
      · have h3 : ¬ s.val < t.val + 1 := fun h => h2 (Fin.ext (by omega))
        rw [if_neg h1, if_neg h2, if_neg h3, add_zero]
  rw [Finset.sum_congr rfl fun s _ => h s, Finset.sum_add_distrib, Finset.sum_ite_eq' Finset.univ t p, if_pos (Finset.mem_univ _)]

/-- After every step the accumulator holds the whole sum. -/
theorem prefixSum_all {n : ℕ} (p : Fin n → A) : prefixSum p n = ∑ s : Fin n, p s := by
  unfold prefixSum
  exact Finset.sum_congr rfl fun s _ => if_pos s.isLt

end Cert.SpecAlg

end
-- ==== Proof.Blocks.lean ====
/-
  Where the windows' blocks sit in their arrays. Region 0's point t = 4·i + k reads rows 256·i … of x at columns
  512·k …, rows 512·k … of W, and (at k = 3) writes rows 256·i … of the product. Region 1's point t = 8·i + j reads
  the columns 128·i … (query window) and 128·j … (key window) of the ONE [8,32,1024] array, and (at j = 7) writes
  the columns 128·i … of the [32,1024] result.
-/
import proofs.«161723_j52879637348745_2_alg».proof.Proof.R0Runs
import proofs.«161723_j52879637348745_2_alg».proof.Proof.R1Runs
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.R0 Cert.KernelIdeal.R1 Idealize.ShloMosaic.ValueIdx

variable (V : (c : Dev nD) → (b : Ref sig .tc) → Buf (Elt F) ((c : Thread nD τ).loc b))

/-! ## The index maps over the grids, decided once -/

theorem idx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx0_1 : ∀ t : Fin cfg0.N, win0_1.index t 0 = t.val % 4 ∧ win0_1.index t 1 = 0 :=
  (by decide +kernel : ∀ t : Fin grid0.N, win0_1.index t 0 = t.val % 4 ∧ win0_1.index t 1 = 0)
theorem idx0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx1_0 : ∀ t : Fin cfg1.N, win1_0.index t 0 = 0 ∧ win1_0.index t 1 = 0 ∧ win1_0.index t 2 = t.val / 8 :=
  (by decide +kernel : ∀ t : Fin grid1.N, win1_0.index t 0 = 0 ∧ win1_0.index t 1 = 0 ∧ win1_0.index t 2 = t.val / 8)
theorem idx1_1 : ∀ t : Fin cfg1.N, win1_1.index t 0 = 0 ∧ win1_1.index t 1 = 0 ∧ win1_1.index t 2 = t.val % 8 :=
  (by decide +kernel : ∀ t : Fin grid1.N, win1_1.index t 0 = 0 ∧ win1_1.index t 1 = 0 ∧ win1_1.index t 2 = t.val % 8)
theorem idx1_2 : ∀ t : Fin cfg1.N, win1_2.index t 0 = 0 ∧ win1_2.index t 1 = t.val / 8 :=
  (by decide +kernel : ∀ t : Fin grid1.N, win1_2.index t 0 = 0 ∧ win1_2.index t 1 = t.val / 8)

/-! ## Region 0's input blocks -/

/-- The x block at point t: entry (r, kk) is x at (256·(t/4) + r, 512·(t%4) + kk). -/
theorem iblk0_0_apply (c : Dev nD) (t : Fin cfg0.N) (r : Fin 256) (kk : Fin 512)
    (hr : 256 * (t.val / 4) + r.val < 1024) (hk : 512 * (t.val % 4) + kk.val < 2048) :
    (iblk0 V c 0 t : Vec F S256x512 .f32) (ix2 r kk) = V c main_arg0 (ix2 ⟨256 * (t.val / 4) + r.val, hr⟩ ⟨512 * (t.val % 4) + kk.val, hk⟩) := by
  unfold iblk0
  rw [View.read_apply]
  show V c main_arg0 _ = V c main_arg0 _
  congr 1
  funext a
  apply Fin.ext
  match a with
  | ⟨0, _⟩ => show win0_0.index t 0 * 256 + 1 * r.val = 256 * (t.val / 4) + r.val; rw [(idx0_0 t).1]; omega
  | ⟨1, _⟩ => show win0_0.index t 1 * 512 + 1 * kk.val = 512 * (t.val % 4) + kk.val; rw [(idx0_0 t).2]; omega

/-- The W block at point t: entry (kk, n) is W at (512·(t%4) + kk, n). -/
theorem iblk0_1_apply (c : Dev nD) (t : Fin cfg0.N) (kk : Fin 512) (n : Fin 256)
    (hk : 512 * (t.val % 4) + kk.val < 2048) :
    (iblk0 V c 1 t : Vec F S512x256 .f32) (ix2 kk n) = V c main_arg1 (ix2 ⟨512 * (t.val % 4) + kk.val, hk⟩ n) := by
  unfold iblk0
  rw [View.read_apply]
  show V c main_arg1 _ = V c main_arg1 _
  congr 1
  funext a
  apply Fin.ext
  match a with
  | ⟨0, _⟩ => show win0_1.index t 0 * 512 + 1 * kk.val = 512 * (t.val % 4) + kk.val; rw [(idx0_1 t).1]; omega
  | ⟨1, _⟩ => show win0_1.index t 1 * 256 + 1 * n.val = n.val; rw [(idx0_1 t).2]; omega

/-! ## Region 1's input blocks: two windows on one array -/

/-- The query block at point t: entry (d, k, a) is the array at (d, k, 128·(t/8) + a). -/
theorem iblk1_0_apply (c : Dev nD) (t : Fin cfg1.N) (d : Fin 8) (k : Fin 32) (a : Fin 128)
    (ha : 128 * (t.val / 8) + a.val < 1024) :
    (iblk1 V c 0 t : Vec F S8x32x128 .f32) (ix3 d k a) = V c main_v2 (ix3 d k ⟨128 * (t.val / 8) + a.val, ha⟩) := by
  unfold iblk1
  rw [View.read_apply]
  show V c main_v2 _ = V c main_v2 _
  congr 1
  funext x
  apply Fin.ext
  match x with
  | ⟨0, _⟩ => show win1_0.index t 0 * 8 + 1 * d.val = d.val; rw [(idx1_0 t).1]; omega
  | ⟨1, _⟩ => show win1_0.index t 1 * 32 + 1 * k.val = k.val; rw [(idx1_0 t).2.1]; omega
  | ⟨2, _⟩ => show win1_0.index t 2 * 128 + 1 * a.val = 128 * (t.val / 8) + a.val; rw [(idx1_0 t).2.2]; omega

/-- The key block at point t: entry (d, k, a) is the array at (d, k, 128·(t%8) + a). -/
theorem iblk1_1_apply (c : Dev nD) (t : Fin cfg1.N) (d : Fin 8) (k : Fin 32) (a : Fin 128)
    (ha : 128 * (t.val % 8) + a.val < 1024) :
    (iblk1 V c 1 t : Vec F S8x32x128 .f32) (ix3 d k a) = V c main_v2 (ix3 d k ⟨128 * (t.val % 8) + a.val, ha⟩) := by
  unfold iblk1
  rw [View.read_apply]
  show V c main_v2 _ = V c main_v2 _
  congr 1
  funext x
  apply Fin.ext
  match x with
  | ⟨0, _⟩ => show win1_1.index t 0 * 8 + 1 * d.val = d.val; rw [(idx1_1 t).1]; omega
  | ⟨1, _⟩ => show win1_1.index t 1 * 32 + 1 * k.val = k.val; rw [(idx1_1 t).2.1]; omega
  | ⟨2, _⟩ => show win1_1.index t 2 * 128 + 1 * a.val = 128 * (t.val % 8) + a.val; rw [(idx1_1 t).2.2]; omega

end Cert.KernelIdeal.Blocks

end
-- ==== Proof.LibDotForms.lean ====
/-
  A product with ONE contracted axis, read at an output index, as a sum over that axis's coordinate — for ANY
  arrangement of the operands' axes.

  The contraction's index type is a shape of rank one; re-indexing it by the coordinate `k : Fin K` turns the
  contraction sum into `∑ k, lhs (L k) * rhs (R k)`, where `L k` and `R k` are the two operand indices the product
  pairs at `k`. Which indices those are depends on the arrangement (rows times columns, rows times rows of a
  transposed right factor, columns of a transposed left factor times columns): the caller states them, each
  coordinate by computation.
-/
import Idealize.ShloMosaic.PureOps.Ideal.Laws
import Idealize.ShloMosaic.Lib.ValueIdx

noncomputable section

namespace Idealize.ShloMosaic.DotForms

open Idealize.ShloMosaic Idealize.ShloMosaic.ValueIdx

variable {sl sr so : Shape} {φ₁ φ₂ : FTy}

/-- The contraction sum at output index `j`, re-indexed by the one contracted coordinate: the operand entries at the
    indices `L k`, `R k` the product pairs there. -/
theorem contr_sum (d : DotDims sl sr so) (K : Nat) (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    (∑ q : d.contr.Idx, lhs (d.lhsIdx j q) * rhs (d.rhsIdx j q)) = ∑ k : Fin K, lhs (L k) * rhs (R k) := by
  rw [← Equiv.sum_comp (contrEquiv1 d K hr hs).symm]
  refine Finset.sum_congr rfl fun k _ => ?_
  have hk := contrEquiv1_symm_val d K hr hs k
  rw [hL _ k hk, hR _ k hk]

/-- A matrix-unit product into the zero accumulator, at an output index, is that sum. -/
theorem matmul_zero_apply (d : DotDims sl sr so) (prec : Option ContractPrecision) (K : Nat)
    (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    FloatOps.matmul d prec lhs rhs (constant (F := Ideal) so .f32 0x00000000#32) j = ∑ k : Fin K, lhs (L k) * rhs (R k) :=
  (Ideal.matmul_constant_zero_apply d prec lhs rhs j).trans (contr_sum d K hr hs j L R hL hR lhs rhs)

/-- The host's product at an output index is the same sum. -/
theorem dotGeneral_apply (d : DotDims sl sr so) (prec : Option ContractPrecision) (sched : HostSchedule) (K : Nat)
    (hr : d.contr.rank = 1) (hs : d.contr.size ⟨0, by omega⟩ = K)
    (j : so.Idx) (L : Fin K → sl.Idx) (R : Fin K → sr.Idx)
    (hL : ∀ (q : d.contr.Idx) (k : Fin K), (q ⟨0, by omega⟩).val = k.val → d.lhsIdx j q = L k)
    (hR : ∀ (q : d.contr.Idx) (k : Fin K), (q ⟨0, by omega⟩).val = k.val → d.rhsIdx j q = R k)
    (lhs : FVec Ideal sl φ₁) (rhs : FVec Ideal sr φ₂) :
    FloatOps.dotGeneral d prec sched lhs rhs j = ∑ k : Fin K, lhs (L k) * rhs (R k) :=
  (Ideal.dotGeneral_apply d prec sched lhs rhs j).trans (contr_sum d K hr hs j L R hL hR lhs rhs)

end Idealize.ShloMosaic.DotForms

end
-- ==== Proof.R0Value.lean ====
/- The value of region 0: the blocked matrix product.

   The grid is 4 x 4: point t = 4 i + k works on rows 256 i ... of the batch and on block k of the contraction axis
   (columns 512 k ... of the batch, rows 512 k ... of the weight). The body keeps a [256, 256] accumulator between
   points: at k = 0 it is zeroed; at every point the product of the two input blocks is added to it; at k = 3 it is
   copied to the output block, which the pipeline then writes to rows 256 i ... of the result. So after point t the
   accumulator's entry (r, n) is the sum, over the contraction blocks 0 ... k, of that block's 512 products for row
   256 i + r and column n; at k = 3 this is the whole product, a sum over 2048 = 4 * 512 regrouped by blocks. Only
   the commutativity and associativity of + are used: no entry needs to be finite. -/
import proofs.«161723_j52879637348745_2_alg».proof.Proof.R0Frame
import proofs.«161723_j52879637348745_2_alg».proof.Proof.Spec
import proofs.«161723_j52879637348745_2_alg».proof.Proof.SpecAlg
import proofs.«161723_j52879637348745_2_alg».proof.Proof.Blocks
import proofs.«161723_j52879637348745_2_alg».proof.Proof.LibDotForms
import Idealize.ShloMosaic.Lib.Pipeline.Value
import Idealize.ShloMosaic.Lib.ValueIdx

set_option maxRecDepth 16384

noncomputable section

namespace Cert.KernelIdeal.R0V

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.R0
open Idealize.ShloMosaic.ValueIdx
open Cert.KernelIdeal.Blocks Cert.Spec Cert.SpecAlg
open scoped BigOperators

/-! ## What the runs' pieces are, for any float values -/

section Pieces
variable {F : FTy → Type} [FloatOps F]

theorem hz : (![0, 0] : Fin 2 → Nat) = fun _ => 0 := funext fun a => by fin_cases a <;> rfl

/-- CASE A (contraction block 0): the accumulator is zeroed, read back, and left at the zero block plus the product of
    the two input blocks. -/
theorem sout_A (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : cond0_0 i) (hc1 : ¬cond0_1 i)
    (x0 : Vec F S256x512 .f32) (x1 : Vec F S512x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x256) hz, View.readCov_unit_zero (S := S256x256) _ hz]
  simp only [View.readAt_eq_ld, harg2.read_unread, harg3.read_unread, View.ld_unit_zero (S := S256x512) hz, View.ld_unit_zero (S := S512x256) hz]

/-- CASE B (contraction blocks 1, 2): the accumulator, holding `xs0`, is left at `xs0` plus the product of the two
    input blocks. -/
theorem sout_B (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : ¬cond0_1 i)
    (x0 : Vec F S256x512 .f32) (x1 : Vec F S512x256 .f32) (xs0 : Vec F S256x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S256x512) hz, View.ld_unit_zero (S := S512x256) hz, View.ld_unit_zero (S := S256x256) hz]

/-- CASE C (contraction block 3): the same for the accumulator, -/
theorem sout_C (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S256x512) hz, View.ld_unit_zero (S := S512x256) hz, View.ld_unit_zero (S := S256x256) hz]

/-- and the output block is left at what the accumulator then holds. -/
theorem out_C (c : Dev nD) (i : grid0.Coords) (arg2 : Memref sig .tc .vmem S256x512 .f32) (harg2 : arg2.IsWhole) (arg3 : Memref sig .tc .vmem S512x256 .f32) (harg3 : arg3.IsWhole) (arg4 : Memref sig .tc .vmem S256x256 .f32) (harg4 : arg4.IsWhole) (arg5 : Memref sig .tc .vmem S256x256 .f32) (harg5 : arg5.IsWhole) (hc0 : ¬cond0_0 i) (hc1 : cond0_1 i)
    (x0 : Vec F S256x512 .f32) (x1 : Vec F S512x256 .f32) (xs0 : Vec F S256x256 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S256x256) _ hz]
  simp only [View.readAt_eq_ld, harg2.read_unread, harg3.read_unread, harg5.read_unread, View.ld_unit_zero (S := S256x512) hz, View.ld_unit_zero (S := S512x256) hz, View.ld_unit_zero (S := S256x256) hz]

end Pieces

/-! ## The body's arithmetic at an entry, over the extended reals -/

theorem lhs_0 (j : S256x256.Idx) (q : dot_S256x512_S512x256_S256x256_1_0_0_1_n_n.contr.Idx) : (dot_S256x512_S512x256_S256x256_1_0_0_1_n_n.lhsIdx j q 0).val = (j 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs_1 (j : S256x256.Idx) (q : dot_S256x512_S512x256_S256x256_1_0_0_1_n_n.contr.Idx) : (dot_S256x512_S512x256_S256x256_1_0_0_1_n_n.lhsIdx j q 1).val = (q ⟨0, by decide⟩).val :=
  dot_S256x512_S512x256_S256x256_1_0_0_1_n_n.lhsIdx_val_of_single rfl j q
theorem rhs_0 (j : S256x256.Idx) (q : dot_S256x512_S512x256_S256x256_1_0_0_1_n_n.contr.Idx) : (dot_S256x512_S512x256_S256x256_1_0_0_1_n_n.rhsIdx j q 0).val = (q ⟨0, by decide⟩).val :=
  dot_S256x512_S512x256_S256x256_1_0_0_1_n_n.rhsIdx_val_of_single rfl j q
theorem rhs_1 (j : S256x256.Idx) (q : dot_S256x512_S512x256_S256x256_1_0_0_1_n_n.contr.Idx) : (dot_S256x512_S512x256_S256x256_1_0_0_1_n_n.rhsIdx j q 1).val = (j 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- The zero block reads zero. -/
theorem pay1_apply (j : S256x256.Idx) : k0_pay1 (F := Ideal) j = 0 := by
  show Ideal.ofBits .f32 0x00000000#32 = 0
  exact Ideal.ofBits_zero_f32

/-- The accumulation step at entry (r, n): the accumulator's entry plus the 512 products of row r of the first block
    with column n of the second (the change of float format before the product is the identity on extended reals, and
    the product unit starts from zero). -/
theorem pay2_apply (x0 : Vec Ideal S256x512 .f32) (x1 : Vec Ideal S512x256 .f32) (xs : Vec Ideal S256x256 .f32) (r n : Fin 256) :
    k0_pay2 x0 x1 xs (ix2 r n) = xs (ix2 r n) + ∑ kk : Fin 512, x0 (ix2 r kk) * x1 (ix2 kk n) := by
  unfold k0_pay2
  refine (congrFun (shapeCast_self _ _) (ix2 r n)).trans ?_
  show xs (ix2 r n) + FloatOps.matmul dot_S256x512_S512x256_S256x256_1_0_0_1_n_n none (truncf .bf16 x0 bitsLt_bf16_f32) (truncf .bf16 x1 bitsLt_bf16_f32) (constant (F := Ideal) S256x256 .f32 0x00000000#32) (ix2 r n) = _
  refine congrArg (xs (ix2 r n) + ·) ?_
  refine (Idealize.ShloMosaic.DotForms.matmul_zero_apply dot_S256x512_S512x256_S256x256_1_0_0_1_n_n none 512 rfl rfl (ix2 r n) (fun kk => ix2 r kk) (fun kk => ix2 kk n) ?_ ?_ _ _).trans ?_
  · intro q k hk
    funext a
    apply Fin.ext
    match a with
    | ⟨0, _⟩ => exact lhs_0 _ _
    | ⟨1, _⟩ => exact (lhs_1 _ _).trans hk
  · intro q k hk
    funext a
    apply Fin.ext
    match a with
    | ⟨0, _⟩ => exact (rhs_0 _ _).trans hk
    | ⟨1, _⟩ => exact rhs_1 _ _
  · rfl

/-! ## The accumulator point by point, over the extended reals -/

section Points
variable (V : (c : Dev nD) → (b : Ref sig .tc) → Buf (Elt Ideal) ((c : Thread nD τ).loc b))

/-- The row of the batch that row `r` of the blocks at position `n` is: 256 (n / 4) + r. -/
def rowAt (n : ℕ) (h : n < cfg0.N) (r : Fin 256) : Fin 1024 :=
  ⟨256 * (n / 4) + r.val, by have hN : cfg0.N = 16 := N_0; have := r.isLt; omega⟩

/-- The contraction block position `n` works on: n % 4. -/
def kbAt (n : ℕ) : Fin 4 := ⟨n % 4, Nat.mod_lt _ (by decide)⟩

/-- The 512 products of the two input blocks at point `t`, for row `r` and column `n`, are contraction block t % 4's
    share of the product at row 256 (t / 4) + r. -/
theorem share_eq (c : Dev nD) (t : Fin cfg0.N) (r n : Fin 256) (x0 : Vec Ideal S256x512 .f32) (x1 : Vec Ideal S512x256 .f32)
    (e0 : x0 = iblk0 V c 0 t) (e1 : x1 = iblk0 V c 1 t) :
    (∑ kk : Fin 512, x0 (ix2 r kk) * x1 (ix2 kk n)) = partM (V c main_arg0) (V c main_arg1) (rowAt t.val t.isLt r) n (kbAt t.val) := by
  unfold partM
  refine Finset.sum_congr rfl fun kk _ => ?_
  have hN : cfg0.N = 16 := N_0
  have ht := t.isLt
  have hr : 256 * (t.val / 4) + r.val < 1024 := by have := r.isLt; omega
  have hk : 512 * (t.val % 4) + kk.val < 2048 := by have := kk.isLt; omega
  have a : x0 (ix2 r kk) = V c main_arg0 (ix2 (rowAt t.val t.isLt r) (at512 (kbAt t.val) kk)) := by
    subst e0; exact iblk0_0_apply V c t r kk hr hk
  have b : x1 (ix2 kk n) = V c main_arg1 (ix2 (at512 (kbAt t.val) kk) n) := by
    subst e1; exact iblk0_1_apply V c t kk n hk
  rw [a, b]

/-- The accumulation step at point `t`, at an entry. -/
theorem step (c : Dev nD) (t : Fin cfg0.N) (xs : Vec Ideal S256x256 .f32) (r col : Fin 256) :
    k0_pay2 (iblk0 V c 0 t) (iblk0 V c 1 t) xs (ix2 r col)
      = xs (ix2 r col) + partM (V c main_arg0) (V c main_arg1) (rowAt t.val t.isLt r) col (kbAt t.val) :=
  (pay2_apply (iblk0 V c 0 t) (iblk0 V c 1 t) xs r col).trans (congrArg (xs (ix2 r col) + ·) (share_eq V c t r col _ _ rfl rfl))

/-- At a point of contraction block 0 the accumulator ends at zero plus that block's share. -/
theorem scratch_A (c : Dev nD) (t : Fin cfg0.N) (h0 : t.val % 4 = 0) (h1 : ¬t.val % 4 = 3) (r col : Fin 256) :
    (outsAt0 V c t.val t.isLt).2 (ix2 r col) = 0 + partM (V c main_arg0) (V c main_arg1) (rowAt t.val t.isLt r) col (kbAt t.val) := by
  refine (congrFun (congrArg Prod.snd (outsAt0_A V c t h0 h1)) (ix2 r col)).trans ?_
  refine (congrFun (sout_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) (ix2 r col)).trans ?_
  refine (step V c t (k0_pay1 (F := Ideal)) r col).trans ?_
  rw [pay1_apply]

/-- At a point of contraction block 1 or 2 it ends at what the point before left plus the block's share. -/
theorem scratch_B (c : Dev nD) (t : Fin cfg0.N) (h0 : ¬t.val % 4 = 0) (h1 : ¬t.val % 4 = 3) (r col : Fin 256) :
    (outsAt0 V c t.val t.isLt).2 (ix2 r col)
      = (outsAt0 V c (t.val - 1) (Nat.lt_of_le_of_lt (Nat.sub_le _ _) t.isLt)).2 (ix2 r col) + partM (V c main_arg0) (V c main_arg1) (rowAt t.val t.isLt r) col (kbAt t.val) := by
  refine (congrFun (congrArg Prod.snd (outsAt0_B V c t h0 h1)) (ix2 r col)).trans ?_
  refine (congrFun (sout_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) (ix2 r col)).trans ?_
  exact step V c t _ r col

/-- The same at a point of contraction block 3, -/
theorem scratch_C (c : Dev nD) (t : Fin cfg0.N) (h0 : ¬t.val % 4 = 0) (h1 : t.val % 4 = 3) (r col : Fin 256) :
    (outsAt0 V c t.val t.isLt).2 (ix2 r col)
      = (outsAt0 V c (t.val - 1) (Nat.lt_of_le_of_lt (Nat.sub_le _ _) t.isLt)).2 (ix2 r col) + partM (V c main_arg0) (V c main_arg1) (rowAt t.val t.isLt r) col (kbAt t.val) := by
  refine (congrFun (congrArg Prod.snd (outsAt0_C V c t h0 h1)) (ix2 r col)).trans ?_
  refine (congrFun (sout_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 r col)).trans ?_
  exact step V c t _ r col

/-- where the output block is left at the same. -/
theorem out_C_val (c : Dev nD) (t : Fin cfg0.N) (h0 : ¬t.val % 4 = 0) (h1 : t.val % 4 = 3) (r col : Fin 256) :
    (outsAt0 V c t.val t.isLt).1 (ix2 r col)
      = (outsAt0 V c (t.val - 1) (Nat.lt_of_le_of_lt (Nat.sub_le _ _) t.isLt)).2 (ix2 r col) + partM (V c main_arg0) (V c main_arg1) (rowAt t.val t.isLt r) col (kbAt t.val) := by
  refine (congrFun (congrArg Prod.fst (outsAt0_C V c t h0 h1)) (ix2 r col)).trans ?_
  refine (congrFun (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 r col)).trans ?_
  exact step V c t _ r col

/-- Starting a row of the grid: zero plus block 0's share is the sum of the shares of the blocks below 1. -/
theorem acc_first (p : Fin 4 → EReal) (n : ℕ) (h0 : n % 4 = 0) : 0 + p (kbAt n) = prefixSum p (n % 4 + 1) := by
  have e := prefixSum_succ p (kbAt n)
  have e0 : (kbAt n).val = 0 := h0
  rw [e0, prefixSum_zero] at e
  rw [h0]
  exact e.symm

/-- Going on inside a row of the grid: one more block's share. -/
theorem acc_next (p : Fin 4 → EReal) (n : ℕ) (h0 : ¬(n + 1) % 4 = 0) :
    prefixSum p (n % 4 + 1) + p (kbAt (n + 1)) = prefixSum p ((n + 1) % 4 + 1) := by
  have e := prefixSum_succ p (kbAt (n + 1))
  have e1 : (kbAt (n + 1)).val = n % 4 + 1 := by show (n + 1) % 4 = n % 4 + 1; omega
  have e2 : (n + 1) % 4 + 1 = (kbAt (n + 1)).val + 1 := rfl
  rw [e2, e, e1]

/-- THE ACCUMULATOR after the point at position `n`: entry (r, col) is the sum of the shares of the contraction blocks
    0 ... n % 4 of the product at row 256 (n / 4) + r, column col — by induction on the position. -/
theorem scratch_eq (c : Dev nD) : ∀ (n : ℕ) (h : n < cfg0.N) (r col : Fin 256),
    (outsAt0 V c n h).2 (ix2 r col) = prefixSum (partM (V c main_arg0) (V c main_arg1) (rowAt n h r) col) (n % 4 + 1)
  | 0, h, r, col => (scratch_A V c ⟨0, h⟩ rfl (by show ¬(0 : ℕ) % 4 = 3; decide) r col).trans (acc_first _ 0 rfl)
  | n + 1, h, r, col => by
    by_cases h0 : (n + 1) % 4 = 0
    · exact (scratch_A V c ⟨n + 1, h⟩ h0 (fun h3 => by have h3' : (n + 1) % 4 = 3 := h3; omega) r col).trans (acc_first _ (n + 1) h0)
    · have ih := scratch_eq c n (Nat.lt_of_succ_lt h) r col
      have hrow : rowAt (n + 1) h r = rowAt n (Nat.lt_of_succ_lt h) r :=
        Fin.ext (by show 256 * ((n + 1) / 4) + r.val = 256 * (n / 4) + r.val; omega)
      by_cases h1 : (n + 1) % 4 = 3
      · refine (scratch_C V c ⟨n + 1, h⟩ h0 h1 r col).trans ?_
        show (outsAt0 V c n _).2 (ix2 r col) + partM (V c main_arg0) (V c main_arg1) (rowAt (n + 1) h r) col (kbAt (n + 1)) = _
        rw [ih, hrow]
        exact acc_next _ n h0
      · refine (scratch_B V c ⟨n + 1, h⟩ h0 h1 r col).trans ?_
        show (outsAt0 V c n _).2 (ix2 r col) + partM (V c main_arg0) (V c main_arg1) (rowAt (n + 1) h r) col (kbAt (n + 1)) = _
        rw [ih, hrow]
        exact acc_next _ n h0

/-- At a point of contraction block 3 the output block holds the whole product for its rows. -/
theorem out_eq (c : Dev nD) (t : Fin cfg0.N) (h3 : t.val % 4 = 3) (r col : Fin 256) :
    (outsAt0 V c t.val t.isLt).1 (ix2 r col) = M (V c main_arg0) (V c main_arg1) (rowAt t.val t.isLt r) col := by
  have h0 : ¬t.val % 4 = 0 := by omega
  refine ((out_C_val V c t h0 h3 r col).trans (scratch_C V c t h0 h3 r col).symm).trans ?_
  rw [scratch_eq V c t.val t.isLt r col, h3, M_blocks]
  exact prefixSum_all _

/-! ## From the blocks to the array -/

/-- What a point that writes back (contraction block 3) writes is its block of the product. -/
theorem flushed_eq (c : Dev nD) (t : Fin cfg0.N) (hf : (cfg0.win 2).flush t = true) :
    (dat0 V c).flushed 2 t = ((cfg0.win 2).blk t).view.read (Elt Ideal) (fun i => M (V c main_arg0) (V c main_arg1) (i 0) (i 1)) := by
  have h3 : t.val % 4 = 3 := (flush0_2 t).mp hf
  show (cfg0.win 2).cut (grid0.coords t) ((dat0 V c).after 2 t) = _
  rw [after0_2]
  refine funext fun (j : S256x256.Idx) => ?_
  obtain ⟨r, col, rfl⟩ : ∃ (r : Fin 256) (col : Fin 256), j = ix2 r col := ⟨j 0, j 1, eq_ix2 j⟩
  rw [View.read_apply]
  show (outsAt0 V c t.val t.isLt).1 (ix2 r col) = M (V c main_arg0) (V c main_arg1) ((((cfg0.win 2).blk t).view.emb (ix2 r col)) 0) ((((cfg0.win 2).blk t).view.emb (ix2 r col)) 1)
  rw [out_eq V c t h3 r col]
  have e0 : (((cfg0.win 2).blk t).view.emb (ix2 r col)) 0 = rowAt t.val t.isLt r := Fin.ext (by
    show win0_2.index t 0 * 256 + 1 * r.val = 256 * (t.val / 4) + r.val
    rw [(idx0_2 t).1]; omega)
  have e1 : (((cfg0.win 2).blk t).view.emb (ix2 r col)) 1 = col := Fin.ext (by
    show win0_2.index t 1 * 256 + 1 * col.val = col.val
    rw [(idx0_2 t).2]; omega)
  rw [e0, e1]

/-- An index of the result is in point `t`'s block iff each coordinate is in the block's range on its axis. -/
theorem mem_blk (t : Fin cfg0.N) (i : S1024x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- THE RESULT OF REGION 0: after the run its array holds the product of the two argument arrays as the region found
    them, entry by entry: row b is written by the point 4 (b / 256) + 3. -/
theorem final0 (c : Dev nD) : (dat0 (F := Ideal) V c).arrAt 2 cfg0.N = fun i => M (V c main_arg0) (V c main_arg1) (i 0) (i 1) :=
  (dat0 V c).arrAt_eq_of_cover 2 (fun i => M (V c main_arg0) (V c main_arg1) (i 0) (i 1)) (flushed_eq V c) fun i => by
    have hN : cfg0.N = 16 := N_0
    have hi0 : (i 0).val < 1024 := (i 0).isLt
    have hi1 : (i 1).val < 256 := (i 1).isLt
    let t : Fin cfg0.N := ⟨4 * ((i 0).val / 256) + 3, by omega⟩
    have ht : t.val = 4 * ((i 0).val / 256) + 3 := rfl
    refine ⟨t, (flush0_2 t).mpr (by rw [ht]; omega), ?_⟩
    rw [mem_blk]
    intro a
    match a with
    | ⟨0, _⟩ =>
      show win0_2.index t 0 * 256 ≤ (i 0).val ∧ (i 0).val < win0_2.index t 0 * 256 + 256
      rw [(idx0_2 t).1, ht]; omega
    | ⟨1, _⟩ =>
      show win0_2.index t 1 * 256 ≤ (i 1).val ∧ (i 1).val < win0_2.index t 1 * 256 + 256
      rw [(idx0_2 t).2]; omega

end Points

end Cert.KernelIdeal.R0V

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibLaneSums.lean ====
/-
  A lane reduction of a matrix, read at an entry, as the plain sum along the reduced axis; and a one-row matrix
  re-laid as a one-column matrix, read at an entry.

  Reducing a matrix over its second axis leaves, at row p, the sum of that row's entries; over its first axis, at
  column c, the sum of that column's entries: the reduced index with the summed coordinate put back is the entry's
  index, coordinate by coordinate. A [1, b] row cast to a [b, 1] column keeps its entries in order.
-/
import Idealize.ShloMosaic.PureOps.Ideal.Laws
import Idealize.ShloMosaic.Lib.Pipeline.Value
import Idealize.ShloMosaic.Lib.ValueIdx

noncomputable section

namespace Cert.LaneSums

open Idealize.ShloMosaic Idealize.ShloMosaic.ValueIdx

/-- Row p with the column k put back on the dropped second axis is the index (p, k). -/
theorem lift_row {R C : ℕ} (h : (⟨2, ![R, C]⟩ : Shape).Reduces [1] ⟨1, ![R]⟩) (p : Fin R) (k : Fin C) :
    h.lift (ix1 p) k = ix2 p k := by
  funext a
  apply Fin.ext
  match a with
  | ⟨0, _⟩ => rfl
  | ⟨1, _⟩ => rfl

/-- Column c with the row k put back on the dropped first axis is the index (k, c). -/
theorem lift_col {R C : ℕ} (h : (⟨2, ![R, C]⟩ : Shape).Reduces [0] ⟨1, ![C]⟩) (c : Fin C) (k : Fin R) :
    h.lift (ix1 c) k = ix2 k c := by
  funext a
  apply Fin.ext
  match a with
  | ⟨0, _⟩ => rfl
  | ⟨1, _⟩ => rfl

/-- The f32 lane sum along the second axis into the zero word, at row p: the sum of the row's entries. (The
    accumulator's neutrality is taken as the equation of words a printed body carries.) -/
theorem sum_along_row {R C : ℕ} (x : FVec Ideal ⟨2, ![R, C]⟩ .f32)
    (h : (⟨2, ![R, C]⟩ : Shape).Reduces [1] ⟨1, ![R]⟩) (hφ : FKind.Formats .f32)
    (hacc : (0x00000000#32 : BitVec 32) = 0x00000000#32) (p : Fin R) :
    multiReduction .add [1] ⟨1, ![R]⟩ x 0x00000000#32 h hφ hacc (ix1 p) = ∑ k : Fin C, x (ix2 p k) :=
  (Ideal.multiReduction_add_single x 0x00000000#32 h hφ hacc (ix1 p)).trans
    (Finset.sum_congr rfl fun k _ => congrArg x (lift_row h p k))

/-- The f32 lane sum along the first axis into the zero word, at column c: the sum of the column's entries. -/
theorem sum_along_col {R C : ℕ} (x : FVec Ideal ⟨2, ![R, C]⟩ .f32)
    (h : (⟨2, ![R, C]⟩ : Shape).Reduces [0] ⟨1, ![C]⟩) (hφ : FKind.Formats .f32)
    (hacc : (0x00000000#32 : BitVec 32) = 0x00000000#32) (c : Fin C) :
    multiReduction .add [0] ⟨1, ![C]⟩ x 0x00000000#32 h hφ hacc (ix1 c) = ∑ k : Fin R, x (ix2 k c) :=
  (Ideal.multiReduction_add_single x 0x00000000#32 h hφ hacc (ix1 c)).trans
    (Finset.sum_congr rfl fun k _ => congrArg x (lift_col h c k))

/-- A one-row matrix [1, b] cast to a one-column matrix [b, 1] reads, at (i, u), the row's entry i. -/
theorem row_as_column_apply {α : Type} {b : ℕ} (x : (⟨2, ![1, b]⟩ : Shape).Idx → α)
    (h : (⟨2, ![1, b]⟩ : Shape).ShapeCasts ⟨2, ![b, 1]⟩) (i : Fin b) (u : Fin 1) :
    shapeCast ⟨2, ![b, 1]⟩ x h (ix2 i u) = x (ix2 (0 : Fin 1) i) :=
  shapeCast_apply x h _ _ (by
    have hu : u.val = 0 := by omega
    rw [Shape.rowMajor_val_two, Shape.rowMajor_val_two]
    show 0 * b + i.val = i.val * 1 + u.val
    rw [hu, Nat.zero_mul, Nat.zero_add, Nat.mul_one, Nat.add_zero])

end Cert.LaneSums

end
-- ==== Proof.DiscOps.lean ====
/-
  The discrimination body's vector operations, read at an entry over the extended reals.

  For one feature and one component the body takes a row of 128 entries of the query block and a row of 128 entries
  of the key block, lays the first down the rows of a 128 × 128 matrix and the second along its columns, and adds the
  absolute difference to an accumulator: entry (a, a') gains | q a − k a' |. After the eight components it negates the
  accumulator, exponentiates, sums each row over the columns and adds the sum to the row's running value.

  Every operation here reads ONE entry of its result from one entry of each operand (or, for the row sum, from the
  128 entries of a row): a cast keeps the row-major position, a broadcast repeats the operand along the axis where
  its extent is one, a change of float format is the identity on extended reals, a zero word is the extended real 0,
  and 0 − a = − a.
-/
import proofs.«161723_j52879637348745_2_alg».proof.KernelIdeal
import Idealize.ShloMosaic.Lib.Pipeline.Value
import Idealize.ShloMosaic.Lib.ValueIdx
import Idealize.ShloMosaic.Lib.ValueLayout
import Idealize.ShloMosaic.PureOps.Ideal.Laws
import proofs.«161723_j52879637348745_2_alg».proof.Proof.LibColumn
import proofs.«161723_j52879637348745_2_alg».proof.Proof.LibLaneSums

noncomputable section

namespace Cert.DiscOps

open Cert.KernelIdeal Idealize.ShloMosaic Idealize.ShloMosaic.ValueIdx
open scoped BigOperators

/-! ## A row read out of a block

A load of a `[1, 1, 128]` row at offsets `(d, k, l)` of an `[8, 32, 128]` block reads, at `(·, ·, a)`, the block at
`(d, k, l + a)`; a load of a `[1, 128]` row at offsets `(k, l)` of a `[32, 128]` block reads, at `(·, a)`, the block at
`(k, l + a)`. -/

section Loads
variable {Val : EltTy → Type} {e : EltTy}

theorem row3_lt0 {d k l : ℕ} (h : ∀ a, (![d, k, l] : Fin 3 → ℕ) a + S1x1x128.size a ≤ S8x32x128.size a) : d < 8 := by
  have h0 := h 0
  change d + 1 ≤ 8 at h0
  omega

theorem row3_lt1 {d k l : ℕ} (h : ∀ a, (![d, k, l] : Fin 3 → ℕ) a + S1x1x128.size a ≤ S8x32x128.size a) : k < 32 := by
  have h1 := h 1
  change k + 1 ≤ 32 at h1
  omega

theorem row3_lt2 {d k l : ℕ} (h : ∀ a, (![d, k, l] : Fin 3 → ℕ) a + S1x1x128.size a ≤ S8x32x128.size a) (a : Fin 128) :
    l + a.val < 128 := by
  have h2 := h 2
  change l + 128 ≤ 128 at h2
  have := a.isLt
  omega

/-- A `[1, 1, 128]` row loaded at offsets `(d, k, l)` of an `[8, 32, 128]` block, at its entry `a`. -/
theorem ld_row3_apply (x : S8x32x128.Idx → Val e) (d k l : ℕ)
    (h : ∀ a, (![d, k, l] : Fin 3 → ℕ) a + S1x1x128.size a ≤ S8x32x128.size a) (u v : Fin 1) (a : Fin 128) :
    View.ld x (Rect.unit (s := S8x32x128) ![d, k, l] S1x1x128.size h) (ix3 u v a)
      = x (ix3 (⟨d, row3_lt0 h⟩ : Fin 8) (⟨k, row3_lt1 h⟩ : Fin 32) (⟨l + a.val, row3_lt2 h a⟩ : Fin 128)) := by
  show x ((Rect.unit (s := S8x32x128) ![d, k, l] S1x1x128.size h).idx (ix3 u v a)) = _
  refine congrArg x (funext fun ax => Fin.ext ?_)
  have hu := u.isLt
  have hv := v.isLt
  match ax with
  | ⟨0, _⟩ => show d + 1 * u.val = d; omega
  | ⟨1, _⟩ => show k + 1 * v.val = k; omega
  | ⟨2, _⟩ => show l + 1 * a.val = l + a.val; omega

theorem row2_lt0 {k l : ℕ} (h : ∀ a, (![k, l] : Fin 2 → ℕ) a + S1x128.size a ≤ S32x128.size a) : k < 32 := by
  have h0 := h 0
  change k + 1 ≤ 32 at h0
  omega

theorem row2_lt1 {k l : ℕ} (h : ∀ a, (![k, l] : Fin 2 → ℕ) a + S1x128.size a ≤ S32x128.size a) (a : Fin 128) :
    l + a.val < 128 := by
  have h1 := h 1
  change l + 128 ≤ 128 at h1
  have := a.isLt
  omega

/-- A `[1, 128]` row loaded at offsets `(k, l)` of a `[32, 128]` block, at its entry `a`. -/
theorem ld_row2_apply (x : S32x128.Idx → Val e) (k l : ℕ)
    (h : ∀ a, (![k, l] : Fin 2 → ℕ) a + S1x128.size a ≤ S32x128.size a) (u : Fin 1) (a : Fin 128) :
    View.ld x (Rect.unit (s := S32x128) ![k, l] S1x128.size h) (ix2 u a)
      = x (ix2 (⟨k, row2_lt0 h⟩ : Fin 32) (⟨l + a.val, row2_lt1 h a⟩ : Fin 128)) := by
  show x ((Rect.unit (s := S32x128) ![k, l] S1x128.size h).idx (ix2 u a)) = _
  refine congrArg x (funext fun ax => Fin.ext ?_)
  have hu := u.isLt
  match ax with
  | ⟨0, _⟩ => show k + 1 * u.val = k; omega
  | ⟨1, _⟩ => show l + 1 * a.val = l + a.val; omega

end Loads

/-! ## The casts and the two broadcasts -/

section Layout
variable {α : Type}

/-- A `[1, 1, 128]` row cast to a vector `[128]`: entry `a` is the row's entry `(0, 0, a)`. -/
theorem cast_row3_vec_apply (q : S1x1x128.Idx → α) (h : S1x1x128.ShapeCasts S128) (a : Fin 128) :
    shapeCast S128 q h (ix1 a) = q (ix3 (0 : Fin 1) (0 : Fin 1) a) :=
  shapeCast_apply q h _ _ (by
    rw [Shape.rowMajor_val_three, Shape.rowMajor_val_one]
    show (0 * 1 + 0) * 128 + a.val = a.val
    omega)

/-- A `[1, 128]` row cast to a vector `[128]`: entry `a` is the row's entry `(0, a)`. -/
theorem cast_row2_vec_apply (p : S1x128.Idx → α) (h : S1x128.ShapeCasts S128) (a : Fin 128) :
    shapeCast S128 p h (ix1 a) = p (ix2 (0 : Fin 1) a) :=
  shapeCast_1a_a_apply p h a

/-- A vector `[128]` cast to a column `[128, 1]`: entry `(a, ·)` is the vector's entry `a`. -/
theorem cast_vec_col_apply (v : S128.Idx → α) (h : S128.ShapeCasts S128x1) (a : Fin 128) (u : Fin 1) :
    shapeCast S128x1 v h (ix2 a u) = v (ix1 a) :=
  Cert.Column.shapeCast_a_a1_apply v h a u

/-- A vector `[128]` cast to a row `[1, 128]`: entry `(·, a)` is the vector's entry `a`. -/
theorem cast_vec_row_apply (v : S128.Idx → α) (h : S128.ShapeCasts S1x128) (u : Fin 1) (a : Fin 128) :
    shapeCast S1x128 v h (ix2 u a) = v (ix1 a) :=
  shapeCast_a_1a_apply v h u a

/-- A column `[128, 1]` broadcast to `[128, 128]`: entry `(a, a')` is the column's entry `(a, 0)`. -/
theorem bcast_col_apply (c : S128x1.Idx → α) (h : S128x1.Broadcasts S128x128) (a a' : Fin 128) :
    broadcastTo S128x128 c h (ix2 a a') = c (ix2 a (0 : Fin 1)) :=
  Cert.Column.broadcastTo_a1_ab_apply c h a a'

/-- A row `[1, 128]` broadcast to `[128, 128]`: entry `(a, a')` is the row's entry `(0, a')`. -/
theorem bcast_row_apply (r : S1x128.Idx → α) (h : S1x128.Broadcasts S128x128) (a a' : Fin 128) :
    broadcastTo S128x128 r h (ix2 a a') = r (ix2 (0 : Fin 1) a') :=
  broadcastTo_1b_ab_apply r h a a'

end Layout

/-! ## The arithmetic at an entry -/

section Arith
variable {s : Shape} {φ : FTy}

/-- The absolute value at an entry: `max a (− a)`. -/
theorem absf_apply (v : FVec Ideal s φ) (i : s.Idx) : absf v i = max (v i) (-(v i)) := rfl

/-- The exponential at an entry. -/
theorem exp_apply (v : FVec Ideal s φ) (i : s.Idx) : exp v i = Ideal.exp (v i) := rfl

/-- The bf16 zero word is the extended real `0`. -/
theorem ofBits_zero_bf16 : Ideal.ofBits .bf16 0x0000#16 = 0 := by simp [Ideal.ofBits, Ideal.ieee]

/-- A splat of the bf16 zero word reads `0` everywhere. -/
theorem splat_zero_bf16_apply (i : s.Idx) :
    (broadcast s (Scalar.ofBits (F := Ideal) .bf16 0x0000#16) : FVec Ideal s .bf16) i = 0 :=
  ofBits_zero_bf16

/-- A splat of the f32 zero word reads `0` everywhere. -/
theorem splat_zero_f32_apply (i : s.Idx) :
    (broadcast s (Scalar.ofBits (F := Ideal) .f32 0x00000000#32) : FVec Ideal s .f32) i = 0 :=
  Ideal.ofBits_zero_f32

/-- Zero minus a vector, at an entry: the negation. -/
theorem zero_subf_apply (v : FVec Ideal s .f32) (i : s.Idx) :
    subf (broadcast s (Scalar.ofBits (F := Ideal) .f32 0x00000000#32) : FVec Ideal s .f32) v i = -(v i) := by
  show Ideal.ofBits .f32 0x00000000#32 - v i = -(v i)
  rw [Ideal.ofBits_zero_f32, zero_sub]

/-- The f32 sum of a `[128, 128]` matrix along its columns, at row `a`: the row's 128 entries, added. (The
    accumulator's neutrality is taken as the equation of words the body carries, over the format's own word type, and
    the reduced axis as an axis of a rank-2 shape.) -/
theorem lanesum_apply (x : FVec Ideal S128x128 .f32) (h : S128x128.Reduces ([1] : List (Fin 2)) S128) (hφ : FKind.Formats .f32)
    (hacc : @Eq (BitVec (FTy.bits .f32)) 0x00000000#32 0x00000000#32) (a : Fin 128) :
    multiReduction .add ([1] : List (Fin 2)) S128 x 0x00000000#32 h hφ hacc (ix1 a) = ∑ a' : Fin 128, x (ix2 a a') :=
  Cert.LaneSums.sum_along_row x h hφ hacc a

end Arith

/-! ## One component's step, and a row's finish -/

/-- ONE COMPONENT'S STEP at entry `(a, a')`: the accumulator gains `| q a − k a' |`, `q` and `k` the two loaded rows. -/
theorem step_apply (acc : FVec Ideal S128x128 .bf16) (q kk : Vec Ideal S1x1x128 .f32)
    (hc : S1x1x128.ShapeCasts S128) (hb : FTy.bits .bf16 < FTy.bits .f32)
    (hcol : S128.ShapeCasts S128x1) (hrow : S128.ShapeCasts S1x128)
    (hbc : S128x1.Broadcasts S128x128) (hbr : S1x128.Broadcasts S128x128) (a a' : Fin 128) :
    addf acc (absf (subf
        (broadcastTo S128x128 (shapeCast S128x1 (truncf .bf16 (shapeCast S128 q hc : FVec Ideal S128 .f32) hb : FVec Ideal S128 .bf16) hcol : FVec Ideal S128x1 .bf16) hbc : FVec Ideal S128x128 .bf16)
        (broadcastTo S128x128 (shapeCast S1x128 (truncf .bf16 (shapeCast S128 kk hc : FVec Ideal S128 .f32) hb : FVec Ideal S128 .bf16) hrow : FVec Ideal S1x128 .bf16) hbr : FVec Ideal S128x128 .bf16)))
      (ix2 a a')
      = acc (ix2 a a') + max (q (ix3 (0 : Fin 1) (0 : Fin 1) a) - kk (ix3 (0 : Fin 1) (0 : Fin 1) a'))
          (-(q (ix3 (0 : Fin 1) (0 : Fin 1) a) - kk (ix3 (0 : Fin 1) (0 : Fin 1) a'))) := by
  rw [addf_apply, absf_apply, subf_apply, bcast_col_apply, bcast_row_apply, cast_vec_col_apply, cast_vec_row_apply,
    truncf_apply, truncf_apply, cast_row3_vec_apply, cast_row3_vec_apply]

/-- A ROW'S FINISH at entry `(·, a)`: the row's running value gains the sum over the columns `a'` of
    `exp (− acc (a, a'))`. -/
theorem finish_apply (prev : Vec Ideal S1x128 .f32) (acc : FVec Ideal S128x128 .bf16)
    (h1 : S1x128.ShapeCasts S128) (hb : FTy.bits .bf16 < FTy.bits .f32) (hred : S128x128.Reduces ([1] : List (Fin 2)) S128)
    (hφ : FKind.Formats .f32) (hacc : @Eq (BitVec (FTy.bits .f32)) 0x00000000#32 0x00000000#32)
    (h2 : S128.ShapeCasts S1x128) (u : Fin 1) (a : Fin 128) :
    shapeCast S1x128
        (addf (shapeCast S128 prev h1 : FVec Ideal S128 .f32)
          (multiReduction .add ([1] : List (Fin 2)) S128
            (exp (subf (broadcast S128x128 (Scalar.ofBits (F := Ideal) .f32 0x00000000#32) : FVec Ideal S128x128 .f32)
              (extf .f32 acc hb : FVec Ideal S128x128 .f32)))
            0x00000000#32 hred hφ hacc) : FVec Ideal S128 .f32)
        h2 (ix2 u a)
      = prev (ix2 (0 : Fin 1) a) + ∑ a' : Fin 128, Ideal.exp (-(acc (ix2 a a'))) := by
  rw [cast_vec_row_apply, addf_apply, cast_row2_vec_apply, lanesum_apply]
  refine congrArg (_ + ·) (Finset.sum_congr rfl fun a' _ => ?_)
  rw [exp_apply, zero_subf_apply, extf_apply]

/-- Every entry-wise reading above as one rewriting set: reads a chain of the body's operations at an entry written
    `ix1 a` / `ix2 a a'`, down to the entries of the loaded rows and of the vectors the chain starts from, and removes
    the zeros it meets (`0 + a = a`, `0 − a = − a`). -/
macro "disc_entry" : tactic =>
  `(tactic| simp only [Cert.DiscOps.absf_apply, Cert.DiscOps.exp_apply, Cert.DiscOps.zero_subf_apply,
    Cert.DiscOps.splat_zero_bf16_apply, Cert.DiscOps.splat_zero_f32_apply, Cert.DiscOps.lanesum_apply,
    Cert.DiscOps.cast_row3_vec_apply, Cert.DiscOps.cast_row2_vec_apply, Cert.DiscOps.cast_vec_col_apply,
    Cert.DiscOps.cast_vec_row_apply, Cert.DiscOps.bcast_col_apply, Cert.DiscOps.bcast_row_apply,
    Idealize.ShloMosaic.ValueIdx.addf_apply, Idealize.ShloMosaic.ValueIdx.subf_apply,
    Idealize.ShloMosaic.ValueIdx.truncf_apply, Idealize.ShloMosaic.ValueIdx.extf_apply, zero_add, zero_sub])

end Cert.DiscOps

end
-- ==== Proof.R1Value.lean ====
/- The value half of the second region, entry by entry, over the extended reals.

   At a grid point the kernel adds to entry (k, a) of its output block the GAIN
       ∑ a' < 128, exp (− ∑ d < 8, | q (d, k, a) − key (d, k, a') |)
   of the query block q against the key block: at a point with j = 0 the block is zeroed first, so the entry ends at the
   gain; at a point with j ≠ 0 it ends at what it held plus the gain. The block is stored one row at a time, so what
   the stores leave is read row by row: the list of the rows 0 … m − 1 already stored holds, at an entry of one of
   these rows, that row's value (and, over the zeroed block, 0 at the rows not yet stored). One statement per m, each
   from the one before: the newest row's payload is opened to the eight component steps and the row's finish. -/
import proofs.«161723_j52879637348745_2_alg».proof.Proof.R1Frame
import proofs.«161723_j52879637348745_2_alg».proof.Proof.DiscOps
import Idealize.ShloMosaic.Lib.Pipeline.Value
import Idealize.ShloMosaic.Lib.ValueIdx

set_option maxRecDepth 16384

noncomputable section

namespace Cert.KernelIdeal.R1V

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.R1 Cert.DiscOps
open scoped BigOperators

/-- One entry's gain at a point: over the key block's 128 columns, the sum of exp (− ∑_d |q − key|). -/
def rowG (x0 x1 : Vec Ideal S8x32x128 .f32) (k : Fin 32) (a : Fin 128) : EReal :=
  ∑ a' : Fin 128, Ideal.exp (-(∑ d : Fin 8, max (x0 (ix3 d k a) - x1 (ix3 d k a')) (-(x0 (ix3 d k a) - x1 (ix3 d k a')))))

/-! ## Rows of the block as rectangles -/

/-- Row n of the output block, as a rectangle: its entry a is the block's entry (k, a) when k = n. -/
theorem row_emb (n : ℕ) (inb : ∀ a, (![n, 0] : Fin 2 → ℕ) a + S1x128.size a ≤ S32x128.size a) (k : Fin 32) (hk : k.val = n) (a : Fin 128) :
    (Rect.unit (s := S32x128) ![n, 0] S1x128.size inb).emb (ix2 (0 : Fin 1) a) = ix2 k a := by
  funext ax
  apply Fin.ext
  match ax with
  | ⟨0, _⟩ => show n + 1 * 0 = k.val; omega
  | ⟨1, _⟩ => show 0 + 1 * a.val = a.val; omega

/-- The same entry, as a load through the row reads it. -/
theorem row_idx (n : ℕ) (inb : ∀ a, (![n, 0] : Fin 2 → ℕ) a + S1x128.size a ≤ S32x128.size a) (k : Fin 32) (hk : k.val = n) (a : Fin 128) :
    (Rect.unit (s := S32x128) ![n, 0] S1x128.size inb).toLoadRect.idx (ix2 (0 : Fin 1) a) = ix2 k a :=
  row_emb n inb k hk a

/-- The whole block as a rectangle: every entry is its own. -/
theorem whole_emb (inb : ∀ a, (![0, 0] : Fin 2 → ℕ) a + S32x128.size a ≤ S32x128.size a) (k : Fin 32) (a : Fin 128) :
    (Rect.unit (s := S32x128) ![0, 0] S32x128.size inb).emb (ix2 k a) = ix2 k a := by
  funext ax
  apply Fin.ext
  match ax with
  | ⟨0, _⟩ => show 0 + 1 * k.val = k.val; omega
  | ⟨1, _⟩ => show 0 + 1 * a.val = a.val; omega

/-- An entry of another row is not in row n. -/
theorem row_not_mem (n : ℕ) (inb : ∀ a, (![n, 0] : Fin 2 → ℕ) a + S1x128.size a ≤ S32x128.size a) (k : Fin 32) (hk : k.val ≠ n) (a : Fin 128) :
    (ix2 k a : S32x128.Idx) ∉ (Rect.unit (s := S32x128) ![n, 0] S1x128.size inb).set := by
  rw [Rect.mem_set_unit]
  intro h
  have h0 := h 0
  have e : ((ix2 k a : S32x128.Idx) 0).val = k.val := rfl
  have s0 : S1x128.size 0 = 1 := rfl
  have o0 : (![n, 0] : Fin 2 → ℕ) 0 = n := rfl
  rw [e, s0, o0] at h0
  omega

/-- Under a newest store of row n, the block's entry (k, a) with k = n is that store's payload at a; -/
theorem canon_row_hit (n : ℕ) (inb : ∀ a, (![n, 0] : Fin 2 → ℕ) a + S1x128.size a ≤ S32x128.size a)
    (w : (Rect.unit (s := S32x128) ![n, 0] S1x128.size inb).shape.Idx → Elt Ideal .f32) (L : List (View.Piece (Elt Ideal) S32x128 .f32))
    (k : Fin 32) (hk : k.val = n) (a : Fin 128) :
    View.canon (⟨Rect.unit (s := S32x128) ![n, 0] S1x128.size inb, w⟩ :: L) (ix2 k a) = w (ix2 (0 : Fin 1) a) := by
  rw [← row_emb n inb k hk a]
  exact View.canon_cons_emb _ w L _

/-- with k ≠ n, what the earlier stores left. -/
theorem canon_row_miss (n : ℕ) (inb : ∀ a, (![n, 0] : Fin 2 → ℕ) a + S1x128.size a ≤ S32x128.size a)
    (w : (Rect.unit (s := S32x128) ![n, 0] S1x128.size inb).shape.Idx → Elt Ideal .f32) (L : List (View.Piece (Elt Ideal) S32x128 .f32))
    (k : Fin 32) (hk : k.val ≠ n) (a : Fin 128) :
    View.canon (⟨Rect.unit (s := S32x128) ![n, 0] S1x128.size inb, w⟩ :: L) (ix2 k a) = View.canon L (ix2 k a) :=
  View.canon_cons_of_not_mem _ _ (row_not_mem n inb k hk a)

/-- Under one store of the whole block, every entry is that store's payload there. -/
theorem canon_whole (inb : ∀ a, (![0, 0] : Fin 2 → ℕ) a + S32x128.size a ≤ S32x128.size a)
    (w : (Rect.unit (s := S32x128) ![0, 0] S32x128.size inb).shape.Idx → Elt Ideal .f32) (k : Fin 32) (a : Fin 128) :
    View.canon [⟨Rect.unit (s := S32x128) ![0, 0] S32x128.size inb, w⟩] (ix2 k a) = w (ix2 k a) := by
  have e := View.canon_cons_emb (Rect.unit (s := S32x128) ![0, 0] S32x128.size inb) w [] (ix2 k a)
  rw [whole_emb inb k a] at e
  exact e

/-! ## A row's value

A row's payload, opened, is the row's finish over eight component steps from the zero accumulator. What follows reads
it at entry a: the finish gives (the accumulator row at a) + ∑ a', exp (− acc (a, a')); each step adds one |q − key|; the
loads read the blocks at (d, k, a) and (d, k, a'). -/

set_option hygiene false in
/-- The part common to both cases: down to the accumulator row's entry and the eight-term sum. -/
macro "disc_row_open" : tactic => `(tactic| (
  first | refine (finish_apply _ _ _ _ _ _ _ _ (0 : Fin 1) a).trans ?_ | fail "the row's finish does not apply"
  first | simp only [step_apply] | fail "the component steps do not fire"
  first | simp only [splat_zero_bf16_apply, zero_add] | fail "the zero accumulator does not reduce"
  first | simp only [View.readAt_eq_ld, harg2.read_unread, harg3.read_unread] | fail "the loads do not reduce"
  unfold rowG))

set_option hygiene false in
/-- The eight-term sum is the sum over the components. -/
macro "disc_row_sum" : tactic => `(tactic| (
  rw [Fin.sum_univ_eight]
  repeat rw [ld_row3_apply]
  (simp only [Nat.zero_add, Fin.eta]) <;> rfl))

set_option hygiene false in
/-- At a point with j ≠ 0: the accumulator row is the block's row as the point found it. -/
macro "disc_row_value_B" : tactic => `(tactic| (
  disc_row_open
  refine congrArg₂ (· + ·) ?_ (Finset.sum_congr rfl fun a' _ => congrArg (fun s => Ideal.exp (-s)) ?_)
  · rw [harg4.read_unread, ld_row2_apply]
    (simp only [Nat.zero_add, Fin.eta]) <;> rfl
  · disc_row_sum))

set_option hygiene false in
/-- At a point with j = 0: the accumulator row is read off the earlier stores, which hold 0 at the rows not yet stored. -/
macro "disc_row_value_A " r:num : tactic => `(tactic| (
  disc_row_open
  refine (congrArg₂ (· + ·) ?_ (Finset.sum_congr rfl fun a' _ => congrArg (fun s => Ideal.exp (-s)) ?_)).trans (zero_add _)
  · show Z ((Rect.unit (s := S32x128) ![$r, 0] S1x128.size _).toLoadRect.idx (ix2 (0 : Fin 1) a)) = 0
    rw [row_idx $r _ (⟨$r, by decide⟩ : Fin 32) rfl a]
    exact hz _ a (Nat.le_refl _)
  · disc_row_sum))

/-! ## A point with j ≠ 0: the rows stored so far hold what the block held plus the gain -/

/-- The rows 0 … 0. -/
theorem chainB_1 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 1) :
    View.canon (kernelRun1_B.sl.H2_1 (F := Ideal) c arg2 harg2 arg3 harg3 arg4 harg4 x0 x1 xo2) (ix2 k a) = xo2 (ix2 k a) + rowG x0 x1 k a := by
  unfold kernelRun1_B.sl.H2_1
  have hk0 : k = (⟨0, by decide⟩ : Fin 32) := Fin.ext (by show k.val = 0; omega)
  subst hk0
  rw [canon_row_hit 0 _ _ _ _ rfl a]
  unfold kernelRun1_B.sl.r_5 kernelRun1_B.sl.r_4 kernelRun1_B.sl.r_3 kernelRun1_B.sl.r_2 kernelRun1_B.sl.r_1 kernelRun1_B.sl.r
  unfold k1_pay3 k1_pay4 k1_pay5 k1_pay6 k1_pay7 k1_pay8 k1_pay9
  dsimp only
  disc_row_value_B

/-- The rows 0 … 1. -/
theorem chainB_2 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 2) :
    View.canon (kernelRun1_B.sl.H2_2 (F := Ideal) c arg2 harg2 arg3 harg3 arg4 harg4 x0 x1 xo2) (ix2 k a) = xo2 (ix2 k a) + rowG x0 x1 k a := by
  unfold kernelRun1_B.sl.H2_2
  by_cases hkr : k.val = 1
  · have hk0 : k = (⟨1, by decide⟩ : Fin 32) := Fin.ext hkr
    subst hk0
    rw [canon_row_hit 1 _ _ _ _ rfl a]
    unfold kernelRun1_B.sl.r_8 kernelRun1_B.sl.r_7 kernelRun1_B.sl.r_6
    unfold kernelRun1_B.sl.v229
    unfold k1_pay10 k1_pay11 k1_pay12
    dsimp only
    disc_row_value_B
  · rw [canon_row_miss 1 _ _ _ k hkr a]
    exact chainB_1 c arg2 harg2 arg3 harg3 arg4 harg4 x0 x1 xo2 k a (by omega)

/-- The rows 0 … 2. -/
theorem chainB_3 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 3) :
    View.canon (kernelRun1_B.sl.H2_3 (F := Ideal) c arg2 harg2 arg3 harg3 arg4 harg4 x0 x1 xo2) (ix2 k a) = xo2 (ix2 k a) + rowG x0 x1 k a := by
  unfold kernelRun1_B.sl.H2_3
  by_cases hkr : k.val = 2
  · have hk0 : k = (⟨2, by decide⟩ : Fin 32) := Fin.ext hkr
    subst hk0
    rw [canon_row_hit 2 _ _ _ _ rfl a]
    unfold kernelRun1_B.sl.r_14 kernelRun1_B.sl.r_13 kernelRun1_B.sl.r_12 kernelRun1_B.sl.r_11 kernelRun1_B.sl.r_10 kernelRun1_B.sl.r_9
    unfold kernelRun1_B.sl.v345
    unfold k1_pay13 k1_pay14 k1_pay15 k1_pay16 k1_pay17 k1_pay18 k1_pay19 k1_pay20
    dsimp only
    disc_row_value_B
  · rw [canon_row_miss 2 _ _ _ k hkr a]
    exact chainB_2 c arg2 harg2 arg3 harg3 arg4 harg4 x0 x1 xo2 k a (by omega)

/-- The rows 0 … 3. -/
theorem chainB_4 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 4) :
    View.canon (kernelRun1_B.sl.H2_4 (F := Ideal) c arg2 harg2 arg3 harg3 arg4 harg4 x0 x1 xo2) (ix2 k a) = xo2 (ix2 k a) + rowG x0 x1 k a := by
  unfold kernelRun1_B.sl.H2_4
  by_cases hkr : k.val = 3
  · have hk0 : k = (⟨3, by decide⟩ : Fin 32) := Fin.ext hkr
    subst hk0
    rw [canon_row_hit 3 _ _ _ _ rfl a]
    unfold kernelRun1_B.sl.r_19 kernelRun1_B.sl.r_18 kernelRun1_B.sl.r_17 kernelRun1_B.sl.r_16 kernelRun1_B.sl.r_15
    unfold kernelRun1_B.sl.v461
    unfold k1_pay21 k1_pay22 k1_pay23 k1_pay24 k1_pay25 k1_pay26 k1_pay27
    dsimp only
    disc_row_value_B
  · rw [canon_row_miss 3 _ _ _ k hkr a]
    exact chainB_3 c arg2 harg2 arg3 harg3 arg4 harg4 x0 x1 xo2 k a (by omega)

/-- The rows 0 … 4. -/
theorem chainB_5 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 5) :
    View.canon (kernelRun1_B.sl.H2_5 (F := Ideal) c arg2 harg2 arg3 harg3 arg4 harg4 x0 x1 xo2) (ix2 k a) = xo2 (ix2 k a) + rowG x0 x1 k a := by
  unfold kernelRun1_B.sl.H2_5
  by_cases hkr : k.val = 4
  · have hk0 : k = (⟨4, by decide⟩ : Fin 32) := Fin.ext hkr
    subst hk0
    rw [canon_row_hit 4 _ _ _ _ rfl a]
    unfold kernelRun1_B.sl.r_24 kernelRun1_B.sl.r_23 kernelRun1_B.sl.r_22 kernelRun1_B.sl.r_21 kernelRun1_B.sl.r_20
    unfold kernelRun1_B.sl.v577
    unfold k1_pay28 k1_pay29 k1_pay30 k1_pay31 k1_pay32 k1_pay33
    dsimp only
    disc_row_value_B
  · rw [canon_row_miss 4 _ _ _ k hkr a]
    exact chainB_4 c arg2 harg2 arg3 harg3 arg4 harg4 x0 x1 xo2 k a (by omega)

/-- The rows 0 … 5. -/
theorem chainB_6 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 6) :
    View.canon (kernelRun1_B.sl.H2_6 (F := Ideal) c arg2 harg2 arg3 harg3 arg4 harg4 x0 x1 xo2) (ix2 k a) = xo2 (ix2 k a) + rowG x0 x1 k a := by
  unfold kernelRun1_B.sl.H2_6
  by_cases hkr : k.val = 5
  · have hk0 : k = (⟨5, by decide⟩ : Fin 32) := Fin.ext hkr
    subst hk0
    rw [canon_row_hit 5 _ _ _ _ rfl a]
    unfold kernelRun1_B.sl.r_32 kernelRun1_B.sl.r_31 kernelRun1_B.sl.r_30 kernelRun1_B.sl.r_29 kernelRun1_B.sl.r_28 kernelRun1_B.sl.r_27 kernelRun1_B.sl.r_26 kernelRun1_B.sl.r_25
    unfold kernelRun1_B.sl.v693
    unfold k1_pay34 k1_pay35 k1_pay36 k1_pay37 k1_pay38 k1_pay39 k1_pay40 k1_pay41 k1_pay42
    dsimp only
    disc_row_value_B
  · rw [canon_row_miss 5 _ _ _ k hkr a]
    exact chainB_5 c arg2 harg2 arg3 harg3 arg4 harg4 x0 x1 xo2 k a (by omega)

/-- The rows 0 … 6. -/
theorem chainB_7 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 7) :
    View.canon (kernelRun1_B.sl.H2_7 (F := Ideal) c arg2 harg2 arg3 harg3 arg4 harg4 x0 x1 xo2) (ix2 k a) = xo2 (ix2 k a) + rowG x0 x1 k a := by
  unfold kernelRun1_B.sl.H2_7
  by_cases hkr : k.val = 6
  · have hk0 : k = (⟨6, by decide⟩ : Fin 32) := Fin.ext hkr
    subst hk0
    rw [canon_row_hit 6 _ _ _ _ rfl a]
    unfold kernelRun1_B.sl.r_35 kernelRun1_B.sl.r_34 kernelRun1_B.sl.r_33
    unfold kernelRun1_B.sl.v809
    unfold k1_pay43 k1_pay44 k1_pay45 k1_pay46
    dsimp only
    disc_row_value_B
  · rw [canon_row_miss 6 _ _ _ k hkr a]
    exact chainB_6 c arg2 harg2 arg3 harg3 arg4 harg4 x0 x1 xo2 k a (by omega)

/-- The rows 0 … 7. -/
theorem chainB_8 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 8) :
    View.canon (kernelRun1_B.sl.H2_8 (F := Ideal) c arg2 harg2 arg3 harg3 arg4 harg4 x0 x1 xo2) (ix2 k a) = xo2 (ix2 k a) + rowG x0 x1 k a := by
  unfold kernelRun1_B.sl.H2_8
  by_cases hkr : k.val = 7
  · have hk0 : k = (⟨7, by decide⟩ : Fin 32) := Fin.ext hkr
    subst hk0
    rw [canon_row_hit 7 _ _ _ _ rfl a]
    unfold kernelRun1_B.sl.r_41 kernelRun1_B.sl.r_40 kernelRun1_B.sl.r_39 kernelRun1_B.sl.r_38 kernelRun1_B.sl.r_37 kernelRun1_B.sl.r_36
    unfold kernelRun1_B.sl.v925
    unfold k1_pay47 k1_pay48 k1_pay49 k1_pay50 k1_pay51 k1_pay52 k1_pay53
    dsimp only
    disc_row_value_B
  · rw [canon_row_miss 7 _ _ _ k hkr a]
    exact chainB_7 c arg2 harg2 arg3 harg3 arg4 harg4 x0 x1 xo2 k a (by omega)

/-- The rows 0 … 8. -/
theorem chainB_9 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 9) :
    View.canon (kernelRun1_B.sl.H2_9 (F := Ideal) c arg2 harg2 arg3 harg3 arg4 harg4 x0 x1 xo2) (ix2 k a) = xo2 (ix2 k a) + rowG x0 x1 k a := by
  unfold kernelRun1_B.sl.H2_9
  by_cases hkr : k.val = 8
  · have hk0 : k = (⟨8, by decide⟩ : Fin 32) := Fin.ext hkr
    subst hk0
    rw [canon_row_hit 8 _ _ _ _ rfl a]
    unfold kernelRun1_B.sl.r_45 kernelRun1_B.sl.r_44 kernelRun1_B.sl.r_43 kernelRun1_B.sl.r_42
    unfold kernelRun1_B.sl.v1041
    unfold k1_pay54 k1_pay55 k1_pay56 k1_pay57 k1_pay58
    dsimp only
    disc_row_value_B
  · rw [canon_row_miss 8 _ _ _ k hkr a]
    exact chainB_8 c arg2 harg2 arg3 harg3 arg4 harg4 x0 x1 xo2 k a (by omega)

/-- The rows 0 … 9. -/
theorem chainB_10 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 10) :
    View.canon (kernelRun1_B.sl.H2_10 (F := Ideal) c arg2 harg2 arg3 harg3 arg4 harg4 x0 x1 xo2) (ix2 k a) = xo2 (ix2 k a) + rowG x0 x1 k a := by
  unfold kernelRun1_B.sl.H2_10
  by_cases hkr : k.val = 9
  · have hk0 : k = (⟨9, by decide⟩ : Fin 32) := Fin.ext hkr
    subst hk0
    rw [canon_row_hit 9 _ _ _ _ rfl a]
    unfold kernelRun1_B.sl.r_49 kernelRun1_B.sl.r_48 kernelRun1_B.sl.r_47 kernelRun1_B.sl.r_46
    unfold kernelRun1_B.sl.v1157
    unfold k1_pay59 k1_pay60 k1_pay61 k1_pay62 k1_pay63 k1_pay64
    dsimp only
    disc_row_value_B
  · rw [canon_row_miss 9 _ _ _ k hkr a]
    exact chainB_9 c arg2 harg2 arg3 harg3 arg4 harg4 x0 x1 xo2 k a (by omega)

/-- The rows 0 … 10. -/
theorem chainB_11 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 11) :
    View.canon (kernelRun1_B.sl.H2_11 (F := Ideal) c arg2 harg2 arg3 harg3 arg4 harg4 x0 x1 xo2) (ix2 k a) = xo2 (ix2 k a) + rowG x0 x1 k a := by
  unfold kernelRun1_B.sl.H2_11
  by_cases hkr : k.val = 10
  · have hk0 : k = (⟨10, by decide⟩ : Fin 32) := Fin.ext hkr
    subst hk0
    rw [canon_row_hit 10 _ _ _ _ rfl a]
    unfold kernelRun1_B.sl.r_57 kernelRun1_B.sl.r_56 kernelRun1_B.sl.r_55 kernelRun1_B.sl.r_54 kernelRun1_B.sl.r_53 kernelRun1_B.sl.r_52 kernelRun1_B.sl.r_51 kernelRun1_B.sl.r_50
    unfold kernelRun1_B.sl.v1273
    unfold k1_pay65 k1_pay66 k1_pay67 k1_pay68 k1_pay69 k1_pay70 k1_pay71 k1_pay72 k1_pay73
    dsimp only
    disc_row_value_B
  · rw [canon_row_miss 10 _ _ _ k hkr a]
    exact chainB_10 c arg2 harg2 arg3 harg3 arg4 harg4 x0 x1 xo2 k a (by omega)

/-- The rows 0 … 11. -/
theorem chainB_12 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 12) :
    View.canon (kernelRun1_B.sl.H2_12 (F := Ideal) c arg2 harg2 arg3 harg3 arg4 harg4 x0 x1 xo2) (ix2 k a) = xo2 (ix2 k a) + rowG x0 x1 k a := by
  unfold kernelRun1_B.sl.H2_12
  by_cases hkr : k.val = 11
  · have hk0 : k = (⟨11, by decide⟩ : Fin 32) := Fin.ext hkr
    subst hk0
    rw [canon_row_hit 11 _ _ _ _ rfl a]
    unfold kernelRun1_B.sl.r_61 kernelRun1_B.sl.r_60 kernelRun1_B.sl.r_59 kernelRun1_B.sl.r_58
    unfold kernelRun1_B.sl.v1389
    unfold k1_pay74 k1_pay75 k1_pay76 k1_pay77 k1_pay78 k1_pay79
    dsimp only
    disc_row_value_B
  · rw [canon_row_miss 11 _ _ _ k hkr a]
    exact chainB_11 c arg2 harg2 arg3 harg3 arg4 harg4 x0 x1 xo2 k a (by omega)

/-- The rows 0 … 12. -/
theorem chainB_13 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 13) :
    View.canon (kernelRun1_B.sl.H2_13 (F := Ideal) c arg2 harg2 arg3 harg3 arg4 harg4 x0 x1 xo2) (ix2 k a) = xo2 (ix2 k a) + rowG x0 x1 k a := by
  unfold kernelRun1_B.sl.H2_13
  by_cases hkr : k.val = 12
  · have hk0 : k = (⟨12, by decide⟩ : Fin 32) := Fin.ext hkr
    subst hk0
    rw [canon_row_hit 12 _ _ _ _ rfl a]
    unfold kernelRun1_B.sl.r_69 kernelRun1_B.sl.r_68 kernelRun1_B.sl.r_67 kernelRun1_B.sl.r_66 kernelRun1_B.sl.r_65 kernelRun1_B.sl.r_64 kernelRun1_B.sl.r_63 kernelRun1_B.sl.r_62
    unfold kernelRun1_B.sl.v1505
    unfold k1_pay80 k1_pay81 k1_pay82 k1_pay83 k1_pay84 k1_pay85 k1_pay86 k1_pay87
    dsimp only
    disc_row_value_B
  · rw [canon_row_miss 12 _ _ _ k hkr a]
    exact chainB_12 c arg2 harg2 arg3 harg3 arg4 harg4 x0 x1 xo2 k a (by omega)

/-- The rows 0 … 13. -/
theorem chainB_14 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 14) :
    View.canon (kernelRun1_B.sl.H2_14 (F := Ideal) c arg2 harg2 arg3 harg3 arg4 harg4 x0 x1 xo2) (ix2 k a) = xo2 (ix2 k a) + rowG x0 x1 k a := by
  unfold kernelRun1_B.sl.H2_14
  by_cases hkr : k.val = 13
  · have hk0 : k = (⟨13, by decide⟩ : Fin 32) := Fin.ext hkr
    subst hk0
    rw [canon_row_hit 13 _ _ _ _ rfl a]
    unfold kernelRun1_B.sl.r_75 kernelRun1_B.sl.r_74 kernelRun1_B.sl.r_73 kernelRun1_B.sl.r_72 kernelRun1_B.sl.r_71 kernelRun1_B.sl.r_70 kernelRun1_B.sl.cst_750
    unfold kernelRun1_B.sl.v1621
    unfold k1_pay88 k1_pay89 k1_pay90 k1_pay91 k1_pay92 k1_pay93 k1_pay94
    dsimp only
    disc_row_value_B
  · rw [canon_row_miss 13 _ _ _ k hkr a]
    exact chainB_13 c arg2 harg2 arg3 harg3 arg4 harg4 x0 x1 xo2 k a (by omega)

/-- The rows 0 … 14. -/
theorem chainB_15 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 15) :
    View.canon (kernelRun1_B.sl.H2_15 (F := Ideal) c arg2 harg2 arg3 harg3 arg4 harg4 x0 x1 xo2) (ix2 k a) = xo2 (ix2 k a) + rowG x0 x1 k a := by
  unfold kernelRun1_B.sl.H2_15
  by_cases hkr : k.val = 14
  · have hk0 : k = (⟨14, by decide⟩ : Fin 32) := Fin.ext hkr
    subst hk0
    rw [canon_row_hit 14 _ _ _ _ rfl a]
    unfold kernelRun1_B.sl.r_80 kernelRun1_B.sl.r_79 kernelRun1_B.sl.r_78 kernelRun1_B.sl.r_77 kernelRun1_B.sl.r_76
    unfold kernelRun1_B.sl.v1737
    unfold k1_pay95 k1_pay96 k1_pay97 k1_pay98 k1_pay99
    dsimp only
    disc_row_value_B
  · rw [canon_row_miss 14 _ _ _ k hkr a]
    exact chainB_14 c arg2 harg2 arg3 harg3 arg4 harg4 x0 x1 xo2 k a (by omega)

/-- The rows 0 … 15. -/
theorem chainB_16 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 16) :
    View.canon (kernelRun1_B.sl.H2_16 (F := Ideal) c arg2 harg2 arg3 harg3 arg4 harg4 x0 x1 xo2) (ix2 k a) = xo2 (ix2 k a) + rowG x0 x1 k a := by
  unfold kernelRun1_B.sl.H2_16
  by_cases hkr : k.val = 15
  · have hk0 : k = (⟨15, by decide⟩ : Fin 32) := Fin.ext hkr
    subst hk0
    rw [canon_row_hit 15 _ _ _ _ rfl a]
    unfold kernelRun1_B.sl.r_86 kernelRun1_B.sl.r_85 kernelRun1_B.sl.r_84 kernelRun1_B.sl.r_83 kernelRun1_B.sl.r_82 kernelRun1_B.sl.r_81
    unfold kernelRun1_B.sl.v1853
    unfold k1_pay100 k1_pay101 k1_pay102 k1_pay103 k1_pay104 k1_pay105 k1_pay106
    dsimp only
    disc_row_value_B
  · rw [canon_row_miss 15 _ _ _ k hkr a]
    exact chainB_15 c arg2 harg2 arg3 harg3 arg4 harg4 x0 x1 xo2 k a (by omega)

/-- The rows 0 … 16. -/
theorem chainB_17 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 17) :
    View.canon (kernelRun1_B.sl.H2_17 (F := Ideal) c arg2 harg2 arg3 harg3 arg4 harg4 x0 x1 xo2) (ix2 k a) = xo2 (ix2 k a) + rowG x0 x1 k a := by
  unfold kernelRun1_B.sl.H2_17
  by_cases hkr : k.val = 16
  · have hk0 : k = (⟨16, by decide⟩ : Fin 32) := Fin.ext hkr
    subst hk0
    rw [canon_row_hit 16 _ _ _ _ rfl a]
    unfold kernelRun1_B.sl.r_89 kernelRun1_B.sl.r_88 kernelRun1_B.sl.r_87
    unfold kernelRun1_B.sl.v1969
    unfold k1_pay107 k1_pay108 k1_pay109
    dsimp only
    disc_row_value_B
  · rw [canon_row_miss 16 _ _ _ k hkr a]
    exact chainB_16 c arg2 harg2 arg3 harg3 arg4 harg4 x0 x1 xo2 k a (by omega)

/-- The rows 0 … 17. -/
theorem chainB_18 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 18) :
    View.canon (kernelRun1_B.sl.H2_18 (F := Ideal) c arg2 harg2 arg3 harg3 arg4 harg4 x0 x1 xo2) (ix2 k a) = xo2 (ix2 k a) + rowG x0 x1 k a := by
  unfold kernelRun1_B.sl.H2_18
  by_cases hkr : k.val = 17
  · have hk0 : k = (⟨17, by decide⟩ : Fin 32) := Fin.ext hkr
    subst hk0
    rw [canon_row_hit 17 _ _ _ _ rfl a]
    unfold kernelRun1_B.sl.r_95 kernelRun1_B.sl.r_94 kernelRun1_B.sl.r_93 kernelRun1_B.sl.r_92 kernelRun1_B.sl.r_91 kernelRun1_B.sl.r_90
    unfold kernelRun1_B.sl.v2085
    unfold k1_pay110 k1_pay111 k1_pay112 k1_pay113 k1_pay114 k1_pay115 k1_pay116 k1_pay117
    dsimp only
    disc_row_value_B
  · rw [canon_row_miss 17 _ _ _ k hkr a]
    exact chainB_17 c arg2 harg2 arg3 harg3 arg4 harg4 x0 x1 xo2 k a (by omega)

/-- The rows 0 … 18. -/
theorem chainB_19 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 19) :
    View.canon (kernelRun1_B.sl.H2_19 (F := Ideal) c arg2 harg2 arg3 harg3 arg4 harg4 x0 x1 xo2) (ix2 k a) = xo2 (ix2 k a) + rowG x0 x1 k a := by
  unfold kernelRun1_B.sl.H2_19
  by_cases hkr : k.val = 18
  · have hk0 : k = (⟨18, by decide⟩ : Fin 32) := Fin.ext hkr
    subst hk0
    rw [canon_row_hit 18 _ _ _ _ rfl a]
    unfold kernelRun1_B.sl.r_100 kernelRun1_B.sl.r_99 kernelRun1_B.sl.r_98 kernelRun1_B.sl.r_97 kernelRun1_B.sl.r_96
    unfold kernelRun1_B.sl.v2201
    unfold k1_pay118 k1_pay119 k1_pay120 k1_pay121 k1_pay122 k1_pay123 k1_pay124
    dsimp only
    disc_row_value_B
  · rw [canon_row_miss 18 _ _ _ k hkr a]
    exact chainB_18 c arg2 harg2 arg3 harg3 arg4 harg4 x0 x1 xo2 k a (by omega)

/-- The rows 0 … 19. -/
theorem chainB_20 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 20) :
    View.canon (kernelRun1_B.sl.H2_20 (F := Ideal) c arg2 harg2 arg3 harg3 arg4 harg4 x0 x1 xo2) (ix2 k a) = xo2 (ix2 k a) + rowG x0 x1 k a := by
  unfold kernelRun1_B.sl.H2_20
  by_cases hkr : k.val = 19
  · have hk0 : k = (⟨19, by decide⟩ : Fin 32) := Fin.ext hkr
    subst hk0
    rw [canon_row_hit 19 _ _ _ _ rfl a]
    unfold kernelRun1_B.sl.r_105 kernelRun1_B.sl.r_104 kernelRun1_B.sl.r_103 kernelRun1_B.sl.r_102 kernelRun1_B.sl.r_101
    unfold kernelRun1_B.sl.v2317
    unfold k1_pay125 k1_pay126 k1_pay127 k1_pay128 k1_pay129 k1_pay130
    dsimp only
    disc_row_value_B
  · rw [canon_row_miss 19 _ _ _ k hkr a]
    exact chainB_19 c arg2 harg2 arg3 harg3 arg4 harg4 x0 x1 xo2 k a (by omega)

/-- The rows 0 … 20. -/
theorem chainB_21 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 21) :
    View.canon (kernelRun1_B.sl.H2_21 (F := Ideal) c arg2 harg2 arg3 harg3 arg4 harg4 x0 x1 xo2) (ix2 k a) = xo2 (ix2 k a) + rowG x0 x1 k a := by
  unfold kernelRun1_B.sl.H2_21
  by_cases hkr : k.val = 20
  · have hk0 : k = (⟨20, by decide⟩ : Fin 32) := Fin.ext hkr
    subst hk0
    rw [canon_row_hit 20 _ _ _ _ rfl a]
    unfold kernelRun1_B.sl.r_113 kernelRun1_B.sl.r_112 kernelRun1_B.sl.r_111 kernelRun1_B.sl.r_110 kernelRun1_B.sl.r_109 kernelRun1_B.sl.r_108 kernelRun1_B.sl.r_107 kernelRun1_B.sl.r_106
    unfold kernelRun1_B.sl.v2433
    unfold k1_pay131 k1_pay132 k1_pay133 k1_pay134 k1_pay135 k1_pay136 k1_pay137 k1_pay138 k1_pay139
    dsimp only
    disc_row_value_B
  · rw [canon_row_miss 20 _ _ _ k hkr a]
    exact chainB_20 c arg2 harg2 arg3 harg3 arg4 harg4 x0 x1 xo2 k a (by omega)

/-- The rows 0 … 21. -/
theorem chainB_22 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 22) :
    View.canon (kernelRun1_B.sl.H2_22 (F := Ideal) c arg2 harg2 arg3 harg3 arg4 harg4 x0 x1 xo2) (ix2 k a) = xo2 (ix2 k a) + rowG x0 x1 k a := by
  unfold kernelRun1_B.sl.H2_22
  by_cases hkr : k.val = 21
  · have hk0 : k = (⟨21, by decide⟩ : Fin 32) := Fin.ext hkr
    subst hk0
    rw [canon_row_hit 21 _ _ _ _ rfl a]
    unfold kernelRun1_B.sl.r_116 kernelRun1_B.sl.r_115 kernelRun1_B.sl.r_114
    unfold kernelRun1_B.sl.v2549
    unfold k1_pay140 k1_pay141 k1_pay142 k1_pay143
    dsimp only
    disc_row_value_B
  · rw [canon_row_miss 21 _ _ _ k hkr a]
    exact chainB_21 c arg2 harg2 arg3 harg3 arg4 harg4 x0 x1 xo2 k a (by omega)

/-- The rows 0 … 22. -/
theorem chainB_23 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 23) :
    View.canon (kernelRun1_B.sl.H2_23 (F := Ideal) c arg2 harg2 arg3 harg3 arg4 harg4 x0 x1 xo2) (ix2 k a) = xo2 (ix2 k a) + rowG x0 x1 k a := by
  unfold kernelRun1_B.sl.H2_23
  by_cases hkr : k.val = 22
  · have hk0 : k = (⟨22, by decide⟩ : Fin 32) := Fin.ext hkr
    subst hk0
    rw [canon_row_hit 22 _ _ _ _ rfl a]
    unfold kernelRun1_B.sl.r_122 kernelRun1_B.sl.r_121 kernelRun1_B.sl.r_120 kernelRun1_B.sl.r_119 kernelRun1_B.sl.r_118 kernelRun1_B.sl.r_117
    unfold kernelRun1_B.sl.v2665
    unfold k1_pay144 k1_pay145 k1_pay146 k1_pay147 k1_pay148 k1_pay149 k1_pay150
    dsimp only
    disc_row_value_B
  · rw [canon_row_miss 22 _ _ _ k hkr a]
    exact chainB_22 c arg2 harg2 arg3 harg3 arg4 harg4 x0 x1 xo2 k a (by omega)

/-- The rows 0 … 23. -/
theorem chainB_24 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 24) :
    View.canon (kernelRun1_B.sl.H2_24 (F := Ideal) c arg2 harg2 arg3 harg3 arg4 harg4 x0 x1 xo2) (ix2 k a) = xo2 (ix2 k a) + rowG x0 x1 k a := by
  unfold kernelRun1_B.sl.H2_24
  by_cases hkr : k.val = 23
  · have hk0 : k = (⟨23, by decide⟩ : Fin 32) := Fin.ext hkr
    subst hk0
    rw [canon_row_hit 23 _ _ _ _ rfl a]
    unfold kernelRun1_B.sl.r_126 kernelRun1_B.sl.r_125 kernelRun1_B.sl.r_124 kernelRun1_B.sl.r_123
    unfold kernelRun1_B.sl.v2781
    unfold k1_pay151 k1_pay152 k1_pay153 k1_pay154 k1_pay155
    dsimp only
    disc_row_value_B
  · rw [canon_row_miss 23 _ _ _ k hkr a]
    exact chainB_23 c arg2 harg2 arg3 harg3 arg4 harg4 x0 x1 xo2 k a (by omega)

/-- The rows 0 … 24. -/
theorem chainB_25 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 25) :
    View.canon (kernelRun1_B.sl.H2_25 (F := Ideal) c arg2 harg2 arg3 harg3 arg4 harg4 x0 x1 xo2) (ix2 k a) = xo2 (ix2 k a) + rowG x0 x1 k a := by
  unfold kernelRun1_B.sl.H2_25
  by_cases hkr : k.val = 24
  · have hk0 : k = (⟨24, by decide⟩ : Fin 32) := Fin.ext hkr
    subst hk0
    rw [canon_row_hit 24 _ _ _ _ rfl a]
    unfold kernelRun1_B.sl.r_130 kernelRun1_B.sl.r_129 kernelRun1_B.sl.r_128 kernelRun1_B.sl.r_127
    unfold kernelRun1_B.sl.v2897
    unfold k1_pay156 k1_pay157 k1_pay158 k1_pay159 k1_pay160 k1_pay161
    dsimp only
    disc_row_value_B
  · rw [canon_row_miss 24 _ _ _ k hkr a]
    exact chainB_24 c arg2 harg2 arg3 harg3 arg4 harg4 x0 x1 xo2 k a (by omega)

/-- The rows 0 … 25. -/
theorem chainB_26 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 26) :
    View.canon (kernelRun1_B.sl.H2_26 (F := Ideal) c arg2 harg2 arg3 harg3 arg4 harg4 x0 x1 xo2) (ix2 k a) = xo2 (ix2 k a) + rowG x0 x1 k a := by
  unfold kernelRun1_B.sl.H2_26
  by_cases hkr : k.val = 25
  · have hk0 : k = (⟨25, by decide⟩ : Fin 32) := Fin.ext hkr
    subst hk0
    rw [canon_row_hit 25 _ _ _ _ rfl a]
    unfold kernelRun1_B.sl.r_138 kernelRun1_B.sl.r_137 kernelRun1_B.sl.r_136 kernelRun1_B.sl.r_135 kernelRun1_B.sl.r_134 kernelRun1_B.sl.r_133 kernelRun1_B.sl.r_132 kernelRun1_B.sl.r_131
    unfold kernelRun1_B.sl.v3013
    unfold k1_pay162 k1_pay163 k1_pay164 k1_pay165 k1_pay166 k1_pay167 k1_pay168 k1_pay169 k1_pay170
    dsimp only
    disc_row_value_B
  · rw [canon_row_miss 25 _ _ _ k hkr a]
    exact chainB_25 c arg2 harg2 arg3 harg3 arg4 harg4 x0 x1 xo2 k a (by omega)

/-- The rows 0 … 26. -/
theorem chainB_27 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 27) :
    View.canon (kernelRun1_B.sl.H2_27 (F := Ideal) c arg2 harg2 arg3 harg3 arg4 harg4 x0 x1 xo2) (ix2 k a) = xo2 (ix2 k a) + rowG x0 x1 k a := by
  unfold kernelRun1_B.sl.H2_27
  by_cases hkr : k.val = 26
  · have hk0 : k = (⟨26, by decide⟩ : Fin 32) := Fin.ext hkr
    subst hk0
    rw [canon_row_hit 26 _ _ _ _ rfl a]
    unfold kernelRun1_B.sl.r_142 kernelRun1_B.sl.r_141 kernelRun1_B.sl.r_140 kernelRun1_B.sl.r_139
    unfold kernelRun1_B.sl.v3129
    unfold k1_pay171 k1_pay172 k1_pay173 k1_pay174 k1_pay175 k1_pay176
    dsimp only
    disc_row_value_B
  · rw [canon_row_miss 26 _ _ _ k hkr a]
    exact chainB_26 c arg2 harg2 arg3 harg3 arg4 harg4 x0 x1 xo2 k a (by omega)

/-- The rows 0 … 27. -/
theorem chainB_28 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 28) :
    View.canon (kernelRun1_B.sl.H2_28 (F := Ideal) c arg2 harg2 arg3 harg3 arg4 harg4 x0 x1 xo2) (ix2 k a) = xo2 (ix2 k a) + rowG x0 x1 k a := by
  unfold kernelRun1_B.sl.H2_28
  by_cases hkr : k.val = 27
  · have hk0 : k = (⟨27, by decide⟩ : Fin 32) := Fin.ext hkr
    subst hk0
    rw [canon_row_hit 27 _ _ _ _ rfl a]
    unfold kernelRun1_B.sl.r_150 kernelRun1_B.sl.r_149 kernelRun1_B.sl.r_148 kernelRun1_B.sl.r_147 kernelRun1_B.sl.r_146 kernelRun1_B.sl.r_145 kernelRun1_B.sl.r_144 kernelRun1_B.sl.r_143
    unfold kernelRun1_B.sl.v3245
    unfold k1_pay177 k1_pay178 k1_pay179 k1_pay180 k1_pay181 k1_pay182 k1_pay183 k1_pay184
    dsimp only
    disc_row_value_B
  · rw [canon_row_miss 27 _ _ _ k hkr a]
    exact chainB_27 c arg2 harg2 arg3 harg3 arg4 harg4 x0 x1 xo2 k a (by omega)

/-- The rows 0 … 28. -/
theorem chainB_29 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 29) :
    View.canon (kernelRun1_B.sl.H2_29 (F := Ideal) c arg2 harg2 arg3 harg3 arg4 harg4 x0 x1 xo2) (ix2 k a) = xo2 (ix2 k a) + rowG x0 x1 k a := by
  unfold kernelRun1_B.sl.H2_29
  by_cases hkr : k.val = 28
  · have hk0 : k = (⟨28, by decide⟩ : Fin 32) := Fin.ext hkr
    subst hk0
    rw [canon_row_hit 28 _ _ _ _ rfl a]
    unfold kernelRun1_B.sl.r_156 kernelRun1_B.sl.r_155 kernelRun1_B.sl.r_154 kernelRun1_B.sl.r_153 kernelRun1_B.sl.r_152 kernelRun1_B.sl.r_151 kernelRun1_B.sl.cst_750
    unfold kernelRun1_B.sl.v3361
    unfold k1_pay185 k1_pay186 k1_pay187 k1_pay188 k1_pay189 k1_pay190 k1_pay191
    dsimp only
    disc_row_value_B
  · rw [canon_row_miss 28 _ _ _ k hkr a]
    exact chainB_28 c arg2 harg2 arg3 harg3 arg4 harg4 x0 x1 xo2 k a (by omega)

/-- The rows 0 … 29. -/
theorem chainB_30 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 30) :
    View.canon (kernelRun1_B.sl.H2_30 (F := Ideal) c arg2 harg2 arg3 harg3 arg4 harg4 x0 x1 xo2) (ix2 k a) = xo2 (ix2 k a) + rowG x0 x1 k a := by
  unfold kernelRun1_B.sl.H2_30
  by_cases hkr : k.val = 29
  · have hk0 : k = (⟨29, by decide⟩ : Fin 32) := Fin.ext hkr
    subst hk0
    rw [canon_row_hit 29 _ _ _ _ rfl a]
    unfold kernelRun1_B.sl.r_161 kernelRun1_B.sl.r_160 kernelRun1_B.sl.r_159 kernelRun1_B.sl.r_158 kernelRun1_B.sl.r_157
    unfold kernelRun1_B.sl.v3477
    unfold k1_pay192 k1_pay193 k1_pay194 k1_pay195 k1_pay196
    dsimp only
    disc_row_value_B
  · rw [canon_row_miss 29 _ _ _ k hkr a]
    exact chainB_29 c arg2 harg2 arg3 harg3 arg4 harg4 x0 x1 xo2 k a (by omega)

/-- The rows 0 … 30. -/
theorem chainB_31 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (xo2 : Vec Ideal S32x128 .f32) (k : Fin 32) (a : Fin 128) (hk : k.val < 31) :
    View.canon (kernelRun1_B.sl.H2_31 (F := Ideal) c arg2 harg2 arg3 harg3 arg4 harg4 x0 x1 xo2) (ix2 k a) = xo2 (ix2 k a) + rowG x0 x1 k a := by
  unfold kernelRun1_B.sl.H2_31
  by_cases hkr : k.val = 30
  · have hk0 : k = (⟨30, by decide⟩ : Fin 32) := Fin.ext hkr
    subst hk0
    rw [canon_row_hit 30 _ _ _ _ rfl a]
    unfold kernelRun1_B.sl.r_167 kernelRun1_B.sl.r_166 kernelRun1_B.sl.r_165 kernelRun1_B.sl.r_164 kernelRun1_B.sl.r_163 kernelRun1_B.sl.r_162
    unfold kernelRun1_B.sl.v3593
    unfold k1_pay197 k1_pay198 k1_pay199 k1_pay200 k1_pay201 k1_pay202 k1_pay203
    dsimp only
    disc_row_value_B
  · rw [canon_row_miss 30 _ _ _ k hkr a]
    exact chainB_30 c arg2 harg2 arg3 harg3 arg4 harg4 x0 x1 xo2 k a (by omega)

/-! ## A point with j = 0: over the zeroed block, the rows stored so far hold the gain and the others 0 -/

/-- The zeroed block. -/
theorem chainA_0 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 0 → View.canon (kernelRun1_A.sl.H2_1 (F := Ideal)) (ix2 k a) = rowG x0 x1 k a) ∧ (0 ≤ k.val → View.canon (kernelRun1_A.sl.H2_1 (F := Ideal)) (ix2 k a) = 0) := by
  refine ⟨fun h => absurd h (Nat.not_lt_zero _), fun _ => ?_⟩
  unfold kernelRun1_A.sl.H2_1
  rw [canon_whole]
  unfold k1_pay2
  exact splat_zero_f32_apply _

/-- The rows 0 … 0 over the zeroed block. -/
theorem chainA_1 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 1 → View.canon (kernelRun1_A.sl.H2_2 (F := Ideal) c arg2 harg2 arg3 harg3 arg4 x0 x1) (ix2 k a) = rowG x0 x1 k a) ∧ (1 ≤ k.val → View.canon (kernelRun1_A.sl.H2_2 (F := Ideal) c arg2 harg2 arg3 harg3 arg4 x0 x1) (ix2 k a) = 0) := by
  unfold kernelRun1_A.sl.H2_2
  by_cases hkr : k.val = 0
  · have hk0 : k = (⟨0, by decide⟩ : Fin 32) := Fin.ext hkr
    subst hk0
    refine ⟨fun _ => ?_, fun h => absurd h (Nat.not_succ_le_self 0)⟩
    rw [canon_row_hit 0 _ _ _ _ rfl a]
    unfold kernelRun1_A.sl.r_5 kernelRun1_A.sl.r_4 kernelRun1_A.sl.r_3 kernelRun1_A.sl.r_2 kernelRun1_A.sl.r_1 kernelRun1_A.sl.r
    unfold kernelRun1_A.sl.v113
    rw [View.readCov_eq_canon']
    have hz := fun (k : Fin 32) (a : Fin 128) => (chainA_0 c arg2 harg2 arg3 harg3 arg4 harg4 x0 x1 k a).2
    generalize View.canon (kernelRun1_A.sl.H2_1 (F := Ideal)) = Z at hz ⊢
    unfold k1_pay3 k1_pay4 k1_pay5 k1_pay6 k1_pay7 k1_pay8 k1_pay9
    dsimp only
    disc_row_value_A 0
  · rw [canon_row_miss 0 _ _ _ k hkr a]
    exact ⟨fun h => (chainA_0 c arg2 harg2 arg3 harg3 arg4 harg4 x0 x1 k a).1 (by omega), fun h => (chainA_0 c arg2 harg2 arg3 harg3 arg4 harg4 x0 x1 k a).2 (by omega)⟩

/-- The rows 0 … 1 over the zeroed block. -/
theorem chainA_2 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 2 → View.canon (kernelRun1_A.sl.H2_3 (F := Ideal) c arg2 harg2 arg3 harg3 arg4 x0 x1) (ix2 k a) = rowG x0 x1 k a) ∧ (2 ≤ k.val → View.canon (kernelRun1_A.sl.H2_3 (F := Ideal) c arg2 harg2 arg3 harg3 arg4 x0 x1) (ix2 k a) = 0) := by
  unfold kernelRun1_A.sl.H2_3
  by_cases hkr : k.val = 1
  · have hk0 : k = (⟨1, by decide⟩ : Fin 32) := Fin.ext hkr
    subst hk0
    refine ⟨fun _ => ?_, fun h => absurd h (Nat.not_succ_le_self 1)⟩
    rw [canon_row_hit 1 _ _ _ _ rfl a]
    unfold kernelRun1_A.sl.r_8 kernelRun1_A.sl.r_7 kernelRun1_A.sl.r_6
    unfold kernelRun1_A.sl.v229
    rw [View.readCov_eq_canon']
    have hz := fun (k : Fin 32) (a : Fin 128) => (chainA_1 c arg2 harg2 arg3 harg3 arg4 harg4 x0 x1 k a).2
    generalize View.canon (kernelRun1_A.sl.H2_2 (F := Ideal) c arg2 harg2 arg3 harg3 arg4 x0 x1) = Z at hz ⊢
    unfold k1_pay10 k1_pay11 k1_pay12
    dsimp only
    disc_row_value_A 1
  · rw [canon_row_miss 1 _ _ _ k hkr a]
    exact ⟨fun h => (chainA_1 c arg2 harg2 arg3 harg3 arg4 harg4 x0 x1 k a).1 (by omega), fun h => (chainA_1 c arg2 harg2 arg3 harg3 arg4 harg4 x0 x1 k a).2 (by omega)⟩

/-- The rows 0 … 2 over the zeroed block. -/
theorem chainA_3 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 3 → View.canon (kernelRun1_A.sl.H2_4 (F := Ideal) c arg2 harg2 arg3 harg3 arg4 x0 x1) (ix2 k a) = rowG x0 x1 k a) ∧ (3 ≤ k.val → View.canon (kernelRun1_A.sl.H2_4 (F := Ideal) c arg2 harg2 arg3 harg3 arg4 x0 x1) (ix2 k a) = 0) := by
  unfold kernelRun1_A.sl.H2_4
  by_cases hkr : k.val = 2
  · have hk0 : k = (⟨2, by decide⟩ : Fin 32) := Fin.ext hkr
    subst hk0
    refine ⟨fun _ => ?_, fun h => absurd h (Nat.not_succ_le_self 2)⟩
    rw [canon_row_hit 2 _ _ _ _ rfl a]
    unfold kernelRun1_A.sl.r_14 kernelRun1_A.sl.r_13 kernelRun1_A.sl.r_12 kernelRun1_A.sl.r_11 kernelRun1_A.sl.r_10 kernelRun1_A.sl.r_9
    unfold kernelRun1_A.sl.v345
    rw [View.readCov_eq_canon']
    have hz := fun (k : Fin 32) (a : Fin 128) => (chainA_2 c arg2 harg2 arg3 harg3 arg4 harg4 x0 x1 k a).2
    generalize View.canon (kernelRun1_A.sl.H2_3 (F := Ideal) c arg2 harg2 arg3 harg3 arg4 x0 x1) = Z at hz ⊢
    unfold k1_pay13 k1_pay14 k1_pay15 k1_pay16 k1_pay17 k1_pay18 k1_pay19 k1_pay20
    dsimp only
    disc_row_value_A 2
  · rw [canon_row_miss 2 _ _ _ k hkr a]
    exact ⟨fun h => (chainA_2 c arg2 harg2 arg3 harg3 arg4 harg4 x0 x1 k a).1 (by omega), fun h => (chainA_2 c arg2 harg2 arg3 harg3 arg4 harg4 x0 x1 k a).2 (by omega)⟩

/-- The rows 0 … 3 over the zeroed block. -/
theorem chainA_4 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 4 → View.canon (kernelRun1_A.sl.H2_5 (F := Ideal) c arg2 harg2 arg3 harg3 arg4 x0 x1) (ix2 k a) = rowG x0 x1 k a) ∧ (4 ≤ k.val → View.canon (kernelRun1_A.sl.H2_5 (F := Ideal) c arg2 harg2 arg3 harg3 arg4 x0 x1) (ix2 k a) = 0) := by
  unfold kernelRun1_A.sl.H2_5
  by_cases hkr : k.val = 3
  · have hk0 : k = (⟨3, by decide⟩ : Fin 32) := Fin.ext hkr
    subst hk0
    refine ⟨fun _ => ?_, fun h => absurd h (Nat.not_succ_le_self 3)⟩
    rw [canon_row_hit 3 _ _ _ _ rfl a]
    unfold kernelRun1_A.sl.r_19 kernelRun1_A.sl.r_18 kernelRun1_A.sl.r_17 kernelRun1_A.sl.r_16 kernelRun1_A.sl.r_15
    unfold kernelRun1_A.sl.v461
    rw [View.readCov_eq_canon']
    have hz := fun (k : Fin 32) (a : Fin 128) => (chainA_3 c arg2 harg2 arg3 harg3 arg4 harg4 x0 x1 k a).2
    generalize View.canon (kernelRun1_A.sl.H2_4 (F := Ideal) c arg2 harg2 arg3 harg3 arg4 x0 x1) = Z at hz ⊢
    unfold k1_pay21 k1_pay22 k1_pay23 k1_pay24 k1_pay25 k1_pay26 k1_pay27
    dsimp only
    disc_row_value_A 3
  · rw [canon_row_miss 3 _ _ _ k hkr a]
    exact ⟨fun h => (chainA_3 c arg2 harg2 arg3 harg3 arg4 harg4 x0 x1 k a).1 (by omega), fun h => (chainA_3 c arg2 harg2 arg3 harg3 arg4 harg4 x0 x1 k a).2 (by omega)⟩

/-- The rows 0 … 4 over the zeroed block. -/
theorem chainA_5 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 5 → View.canon (kernelRun1_A.sl.H2_6 (F := Ideal) c arg2 harg2 arg3 harg3 arg4 x0 x1) (ix2 k a) = rowG x0 x1 k a) ∧ (5 ≤ k.val → View.canon (kernelRun1_A.sl.H2_6 (F := Ideal) c arg2 harg2 arg3 harg3 arg4 x0 x1) (ix2 k a) = 0) := by
  unfold kernelRun1_A.sl.H2_6
  by_cases hkr : k.val = 4
  · have hk0 : k = (⟨4, by decide⟩ : Fin 32) := Fin.ext hkr
    subst hk0
    refine ⟨fun _ => ?_, fun h => absurd h (Nat.not_succ_le_self 4)⟩
    rw [canon_row_hit 4 _ _ _ _ rfl a]
    unfold kernelRun1_A.sl.r_24 kernelRun1_A.sl.r_23 kernelRun1_A.sl.r_22 kernelRun1_A.sl.r_21 kernelRun1_A.sl.r_20
    unfold kernelRun1_A.sl.v577
    rw [View.readCov_eq_canon']
    have hz := fun (k : Fin 32) (a : Fin 128) => (chainA_4 c arg2 harg2 arg3 harg3 arg4 harg4 x0 x1 k a).2
    generalize View.canon (kernelRun1_A.sl.H2_5 (F := Ideal) c arg2 harg2 arg3 harg3 arg4 x0 x1) = Z at hz ⊢
    unfold k1_pay28 k1_pay29 k1_pay30 k1_pay31 k1_pay32 k1_pay33
    dsimp only
    disc_row_value_A 4
  · rw [canon_row_miss 4 _ _ _ k hkr a]
    exact ⟨fun h => (chainA_4 c arg2 harg2 arg3 harg3 arg4 harg4 x0 x1 k a).1 (by omega), fun h => (chainA_4 c arg2 harg2 arg3 harg3 arg4 harg4 x0 x1 k a).2 (by omega)⟩

/-- The rows 0 … 5 over the zeroed block. -/
theorem chainA_6 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 6 → View.canon (kernelRun1_A.sl.H2_7 (F := Ideal) c arg2 harg2 arg3 harg3 arg4 x0 x1) (ix2 k a) = rowG x0 x1 k a) ∧ (6 ≤ k.val → View.canon (kernelRun1_A.sl.H2_7 (F := Ideal) c arg2 harg2 arg3 harg3 arg4 x0 x1) (ix2 k a) = 0) := by
  unfold kernelRun1_A.sl.H2_7
  by_cases hkr : k.val = 5
  · have hk0 : k = (⟨5, by decide⟩ : Fin 32) := Fin.ext hkr
    subst hk0
    refine ⟨fun _ => ?_, fun h => absurd h (Nat.not_succ_le_self 5)⟩
    rw [canon_row_hit 5 _ _ _ _ rfl a]
    unfold kernelRun1_A.sl.r_32 kernelRun1_A.sl.r_31 kernelRun1_A.sl.r_30 kernelRun1_A.sl.r_29 kernelRun1_A.sl.r_28 kernelRun1_A.sl.r_27 kernelRun1_A.sl.r_26 kernelRun1_A.sl.r_25
    unfold kernelRun1_A.sl.v693
    rw [View.readCov_eq_canon']
    have hz := fun (k : Fin 32) (a : Fin 128) => (chainA_5 c arg2 harg2 arg3 harg3 arg4 harg4 x0 x1 k a).2
    generalize View.canon (kernelRun1_A.sl.H2_6 (F := Ideal) c arg2 harg2 arg3 harg3 arg4 x0 x1) = Z at hz ⊢
    unfold k1_pay34 k1_pay35 k1_pay36 k1_pay37 k1_pay38 k1_pay39 k1_pay40 k1_pay41 k1_pay42
    dsimp only
    disc_row_value_A 5
  · rw [canon_row_miss 5 _ _ _ k hkr a]
    exact ⟨fun h => (chainA_5 c arg2 harg2 arg3 harg3 arg4 harg4 x0 x1 k a).1 (by omega), fun h => (chainA_5 c arg2 harg2 arg3 harg3 arg4 harg4 x0 x1 k a).2 (by omega)⟩

/-- The rows 0 … 6 over the zeroed block. -/
theorem chainA_7 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 7 → View.canon (kernelRun1_A.sl.H2_8 (F := Ideal) c arg2 harg2 arg3 harg3 arg4 x0 x1) (ix2 k a) = rowG x0 x1 k a) ∧ (7 ≤ k.val → View.canon (kernelRun1_A.sl.H2_8 (F := Ideal) c arg2 harg2 arg3 harg3 arg4 x0 x1) (ix2 k a) = 0) := by
  unfold kernelRun1_A.sl.H2_8
  by_cases hkr : k.val = 6
  · have hk0 : k = (⟨6, by decide⟩ : Fin 32) := Fin.ext hkr
    subst hk0
    refine ⟨fun _ => ?_, fun h => absurd h (Nat.not_succ_le_self 6)⟩
    rw [canon_row_hit 6 _ _ _ _ rfl a]
    unfold kernelRun1_A.sl.r_35 kernelRun1_A.sl.r_34 kernelRun1_A.sl.r_33
    unfold kernelRun1_A.sl.v809
    rw [View.readCov_eq_canon']
    have hz := fun (k : Fin 32) (a : Fin 128) => (chainA_6 c arg2 harg2 arg3 harg3 arg4 harg4 x0 x1 k a).2
    generalize View.canon (kernelRun1_A.sl.H2_7 (F := Ideal) c arg2 harg2 arg3 harg3 arg4 x0 x1) = Z at hz ⊢
    unfold k1_pay43 k1_pay44 k1_pay45 k1_pay46
    dsimp only
    disc_row_value_A 6
  · rw [canon_row_miss 6 _ _ _ k hkr a]
    exact ⟨fun h => (chainA_6 c arg2 harg2 arg3 harg3 arg4 harg4 x0 x1 k a).1 (by omega), fun h => (chainA_6 c arg2 harg2 arg3 harg3 arg4 harg4 x0 x1 k a).2 (by omega)⟩

/-- The rows 0 … 7 over the zeroed block. -/
theorem chainA_8 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 8 → View.canon (kernelRun1_A.sl.H2_9 (F := Ideal) c arg2 harg2 arg3 harg3 arg4 x0 x1) (ix2 k a) = rowG x0 x1 k a) ∧ (8 ≤ k.val → View.canon (kernelRun1_A.sl.H2_9 (F := Ideal) c arg2 harg2 arg3 harg3 arg4 x0 x1) (ix2 k a) = 0) := by
  unfold kernelRun1_A.sl.H2_9
  by_cases hkr : k.val = 7
  · have hk0 : k = (⟨7, by decide⟩ : Fin 32) := Fin.ext hkr
    subst hk0
    refine ⟨fun _ => ?_, fun h => absurd h (Nat.not_succ_le_self 7)⟩
    rw [canon_row_hit 7 _ _ _ _ rfl a]
    unfold kernelRun1_A.sl.r_41 kernelRun1_A.sl.r_40 kernelRun1_A.sl.r_39 kernelRun1_A.sl.r_38 kernelRun1_A.sl.r_37 kernelRun1_A.sl.r_36
    unfold kernelRun1_A.sl.v925
    rw [View.readCov_eq_canon']
    have hz := fun (k : Fin 32) (a : Fin 128) => (chainA_7 c arg2 harg2 arg3 harg3 arg4 harg4 x0 x1 k a).2
    generalize View.canon (kernelRun1_A.sl.H2_8 (F := Ideal) c arg2 harg2 arg3 harg3 arg4 x0 x1) = Z at hz ⊢
    unfold k1_pay47 k1_pay48 k1_pay49 k1_pay50 k1_pay51 k1_pay52 k1_pay53
    dsimp only
    disc_row_value_A 7
  · rw [canon_row_miss 7 _ _ _ k hkr a]
    exact ⟨fun h => (chainA_7 c arg2 harg2 arg3 harg3 arg4 harg4 x0 x1 k a).1 (by omega), fun h => (chainA_7 c arg2 harg2 arg3 harg3 arg4 harg4 x0 x1 k a).2 (by omega)⟩

/-- The rows 0 … 8 over the zeroed block. -/
theorem chainA_9 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 9 → View.canon (kernelRun1_A.sl.H2_10 (F := Ideal) c arg2 harg2 arg3 harg3 arg4 x0 x1) (ix2 k a) = rowG x0 x1 k a) ∧ (9 ≤ k.val → View.canon (kernelRun1_A.sl.H2_10 (F := Ideal) c arg2 harg2 arg3 harg3 arg4 x0 x1) (ix2 k a) = 0) := by
  unfold kernelRun1_A.sl.H2_10
  by_cases hkr : k.val = 8
  · have hk0 : k = (⟨8, by decide⟩ : Fin 32) := Fin.ext hkr
    subst hk0
    refine ⟨fun _ => ?_, fun h => absurd h (Nat.not_succ_le_self 8)⟩
    rw [canon_row_hit 8 _ _ _ _ rfl a]
    unfold kernelRun1_A.sl.r_45 kernelRun1_A.sl.r_44 kernelRun1_A.sl.r_43 kernelRun1_A.sl.r_42
    unfold kernelRun1_A.sl.v1041
    rw [View.readCov_eq_canon']
    have hz := fun (k : Fin 32) (a : Fin 128) => (chainA_8 c arg2 harg2 arg3 harg3 arg4 harg4 x0 x1 k a).2
    generalize View.canon (kernelRun1_A.sl.H2_9 (F := Ideal) c arg2 harg2 arg3 harg3 arg4 x0 x1) = Z at hz ⊢
    unfold k1_pay54 k1_pay55 k1_pay56 k1_pay57 k1_pay58
    dsimp only
    disc_row_value_A 8
  · rw [canon_row_miss 8 _ _ _ k hkr a]
    exact ⟨fun h => (chainA_8 c arg2 harg2 arg3 harg3 arg4 harg4 x0 x1 k a).1 (by omega), fun h => (chainA_8 c arg2 harg2 arg3 harg3 arg4 harg4 x0 x1 k a).2 (by omega)⟩

/-- The rows 0 … 9 over the zeroed block. -/
theorem chainA_10 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 10 → View.canon (kernelRun1_A.sl.H2_11 (F := Ideal) c arg2 harg2 arg3 harg3 arg4 x0 x1) (ix2 k a) = rowG x0 x1 k a) ∧ (10 ≤ k.val → View.canon (kernelRun1_A.sl.H2_11 (F := Ideal) c arg2 harg2 arg3 harg3 arg4 x0 x1) (ix2 k a) = 0) := by
  unfold kernelRun1_A.sl.H2_11
  by_cases hkr : k.val = 9
  · have hk0 : k = (⟨9, by decide⟩ : Fin 32) := Fin.ext hkr
    subst hk0
    refine ⟨fun _ => ?_, fun h => absurd h (Nat.not_succ_le_self 9)⟩
    rw [canon_row_hit 9 _ _ _ _ rfl a]
    unfold kernelRun1_A.sl.r_49 kernelRun1_A.sl.r_48 kernelRun1_A.sl.r_47 kernelRun1_A.sl.r_46
    unfold kernelRun1_A.sl.v1157
    rw [View.readCov_eq_canon']
    have hz := fun (k : Fin 32) (a : Fin 128) => (chainA_9 c arg2 harg2 arg3 harg3 arg4 harg4 x0 x1 k a).2
    generalize View.canon (kernelRun1_A.sl.H2_10 (F := Ideal) c arg2 harg2 arg3 harg3 arg4 x0 x1) = Z at hz ⊢
    unfold k1_pay59 k1_pay60 k1_pay61 k1_pay62 k1_pay63 k1_pay64
    dsimp only
    disc_row_value_A 9
  · rw [canon_row_miss 9 _ _ _ k hkr a]
    exact ⟨fun h => (chainA_9 c arg2 harg2 arg3 harg3 arg4 harg4 x0 x1 k a).1 (by omega), fun h => (chainA_9 c arg2 harg2 arg3 harg3 arg4 harg4 x0 x1 k a).2 (by omega)⟩

/-- The rows 0 … 10 over the zeroed block. -/
theorem chainA_11 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 11 → View.canon (kernelRun1_A.sl.H2_12 (F := Ideal) c arg2 harg2 arg3 harg3 arg4 x0 x1) (ix2 k a) = rowG x0 x1 k a) ∧ (11 ≤ k.val → View.canon (kernelRun1_A.sl.H2_12 (F := Ideal) c arg2 harg2 arg3 harg3 arg4 x0 x1) (ix2 k a) = 0) := by
  unfold kernelRun1_A.sl.H2_12
  by_cases hkr : k.val = 10
  · have hk0 : k = (⟨10, by decide⟩ : Fin 32) := Fin.ext hkr
    subst hk0
    refine ⟨fun _ => ?_, fun h => absurd h (Nat.not_succ_le_self 10)⟩
    rw [canon_row_hit 10 _ _ _ _ rfl a]
    unfold kernelRun1_A.sl.r_57 kernelRun1_A.sl.r_56 kernelRun1_A.sl.r_55 kernelRun1_A.sl.r_54 kernelRun1_A.sl.r_53 kernelRun1_A.sl.r_52 kernelRun1_A.sl.r_51 kernelRun1_A.sl.r_50
    unfold kernelRun1_A.sl.v1273
    rw [View.readCov_eq_canon']
    have hz := fun (k : Fin 32) (a : Fin 128) => (chainA_10 c arg2 harg2 arg3 harg3 arg4 harg4 x0 x1 k a).2
    generalize View.canon (kernelRun1_A.sl.H2_11 (F := Ideal) c arg2 harg2 arg3 harg3 arg4 x0 x1) = Z at hz ⊢
    unfold k1_pay65 k1_pay66 k1_pay67 k1_pay68 k1_pay69 k1_pay70 k1_pay71 k1_pay72 k1_pay73
    dsimp only
    disc_row_value_A 10
  · rw [canon_row_miss 10 _ _ _ k hkr a]
    exact ⟨fun h => (chainA_10 c arg2 harg2 arg3 harg3 arg4 harg4 x0 x1 k a).1 (by omega), fun h => (chainA_10 c arg2 harg2 arg3 harg3 arg4 harg4 x0 x1 k a).2 (by omega)⟩

/-- The rows 0 … 11 over the zeroed block. -/
theorem chainA_12 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 12 → View.canon (kernelRun1_A.sl.H2_13 (F := Ideal) c arg2 harg2 arg3 harg3 arg4 x0 x1) (ix2 k a) = rowG x0 x1 k a) ∧ (12 ≤ k.val → View.canon (kernelRun1_A.sl.H2_13 (F := Ideal) c arg2 harg2 arg3 harg3 arg4 x0 x1) (ix2 k a) = 0) := by
  unfold kernelRun1_A.sl.H2_13
  by_cases hkr : k.val = 11
  · have hk0 : k = (⟨11, by decide⟩ : Fin 32) := Fin.ext hkr
    subst hk0
    refine ⟨fun _ => ?_, fun h => absurd h (Nat.not_succ_le_self 11)⟩
    rw [canon_row_hit 11 _ _ _ _ rfl a]
    unfold kernelRun1_A.sl.r_61 kernelRun1_A.sl.r_60 kernelRun1_A.sl.r_59 kernelRun1_A.sl.r_58
    unfold kernelRun1_A.sl.v1389
    rw [View.readCov_eq_canon']
    have hz := fun (k : Fin 32) (a : Fin 128) => (chainA_11 c arg2 harg2 arg3 harg3 arg4 harg4 x0 x1 k a).2
    generalize View.canon (kernelRun1_A.sl.H2_12 (F := Ideal) c arg2 harg2 arg3 harg3 arg4 x0 x1) = Z at hz ⊢
    unfold k1_pay74 k1_pay75 k1_pay76 k1_pay77 k1_pay78 k1_pay79
    dsimp only
    disc_row_value_A 11
  · rw [canon_row_miss 11 _ _ _ k hkr a]
    exact ⟨fun h => (chainA_11 c arg2 harg2 arg3 harg3 arg4 harg4 x0 x1 k a).1 (by omega), fun h => (chainA_11 c arg2 harg2 arg3 harg3 arg4 harg4 x0 x1 k a).2 (by omega)⟩

/-- The rows 0 … 12 over the zeroed block. -/
theorem chainA_13 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 13 → View.canon (kernelRun1_A.sl.H2_14 (F := Ideal) c arg2 harg2 arg3 harg3 arg4 x0 x1) (ix2 k a) = rowG x0 x1 k a) ∧ (13 ≤ k.val → View.canon (kernelRun1_A.sl.H2_14 (F := Ideal) c arg2 harg2 arg3 harg3 arg4 x0 x1) (ix2 k a) = 0) := by
  unfold kernelRun1_A.sl.H2_14
  by_cases hkr : k.val = 12
  · have hk0 : k = (⟨12, by decide⟩ : Fin 32) := Fin.ext hkr
    subst hk0
    refine ⟨fun _ => ?_, fun h => absurd h (Nat.not_succ_le_self 12)⟩
    rw [canon_row_hit 12 _ _ _ _ rfl a]
    unfold kernelRun1_A.sl.r_69 kernelRun1_A.sl.r_68 kernelRun1_A.sl.r_67 kernelRun1_A.sl.r_66 kernelRun1_A.sl.r_65 kernelRun1_A.sl.r_64 kernelRun1_A.sl.r_63 kernelRun1_A.sl.r_62
    unfold kernelRun1_A.sl.v1505
    rw [View.readCov_eq_canon']
    have hz := fun (k : Fin 32) (a : Fin 128) => (chainA_12 c arg2 harg2 arg3 harg3 arg4 harg4 x0 x1 k a).2
    generalize View.canon (kernelRun1_A.sl.H2_13 (F := Ideal) c arg2 harg2 arg3 harg3 arg4 x0 x1) = Z at hz ⊢
    unfold k1_pay80 k1_pay81 k1_pay82 k1_pay83 k1_pay84 k1_pay85 k1_pay86 k1_pay87
    dsimp only
    disc_row_value_A 12
  · rw [canon_row_miss 12 _ _ _ k hkr a]
    exact ⟨fun h => (chainA_12 c arg2 harg2 arg3 harg3 arg4 harg4 x0 x1 k a).1 (by omega), fun h => (chainA_12 c arg2 harg2 arg3 harg3 arg4 harg4 x0 x1 k a).2 (by omega)⟩

/-- The rows 0 … 13 over the zeroed block. -/
theorem chainA_14 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 14 → View.canon (kernelRun1_A.sl.H2_15 (F := Ideal) c arg2 harg2 arg3 harg3 arg4 x0 x1) (ix2 k a) = rowG x0 x1 k a) ∧ (14 ≤ k.val → View.canon (kernelRun1_A.sl.H2_15 (F := Ideal) c arg2 harg2 arg3 harg3 arg4 x0 x1) (ix2 k a) = 0) := by
  unfold kernelRun1_A.sl.H2_15
  by_cases hkr : k.val = 13
  · have hk0 : k = (⟨13, by decide⟩ : Fin 32) := Fin.ext hkr
    subst hk0
    refine ⟨fun _ => ?_, fun h => absurd h (Nat.not_succ_le_self 13)⟩
    rw [canon_row_hit 13 _ _ _ _ rfl a]
    unfold kernelRun1_A.sl.r_75 kernelRun1_A.sl.r_74 kernelRun1_A.sl.r_73 kernelRun1_A.sl.r_72 kernelRun1_A.sl.r_71 kernelRun1_A.sl.r_70 kernelRun1_A.sl.cst_750
    unfold kernelRun1_A.sl.v1621
    rw [View.readCov_eq_canon']
    have hz := fun (k : Fin 32) (a : Fin 128) => (chainA_13 c arg2 harg2 arg3 harg3 arg4 harg4 x0 x1 k a).2
    generalize View.canon (kernelRun1_A.sl.H2_14 (F := Ideal) c arg2 harg2 arg3 harg3 arg4 x0 x1) = Z at hz ⊢
    unfold k1_pay88 k1_pay89 k1_pay90 k1_pay91 k1_pay92 k1_pay93 k1_pay94
    dsimp only
    disc_row_value_A 13
  · rw [canon_row_miss 13 _ _ _ k hkr a]
    exact ⟨fun h => (chainA_13 c arg2 harg2 arg3 harg3 arg4 harg4 x0 x1 k a).1 (by omega), fun h => (chainA_13 c arg2 harg2 arg3 harg3 arg4 harg4 x0 x1 k a).2 (by omega)⟩

/-- The rows 0 … 14 over the zeroed block. -/
theorem chainA_15 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 15 → View.canon (kernelRun1_A.sl.H2_16 (F := Ideal) c arg2 harg2 arg3 harg3 arg4 x0 x1) (ix2 k a) = rowG x0 x1 k a) ∧ (15 ≤ k.val → View.canon (kernelRun1_A.sl.H2_16 (F := Ideal) c arg2 harg2 arg3 harg3 arg4 x0 x1) (ix2 k a) = 0) := by
  unfold kernelRun1_A.sl.H2_16
  by_cases hkr : k.val = 14
  · have hk0 : k = (⟨14, by decide⟩ : Fin 32) := Fin.ext hkr
    subst hk0
    refine ⟨fun _ => ?_, fun h => absurd h (Nat.not_succ_le_self 14)⟩
    rw [canon_row_hit 14 _ _ _ _ rfl a]
    unfold kernelRun1_A.sl.r_80 kernelRun1_A.sl.r_79 kernelRun1_A.sl.r_78 kernelRun1_A.sl.r_77 kernelRun1_A.sl.r_76
    unfold kernelRun1_A.sl.v1737
    rw [View.readCov_eq_canon']
    have hz := fun (k : Fin 32) (a : Fin 128) => (chainA_14 c arg2 harg2 arg3 harg3 arg4 harg4 x0 x1 k a).2
    generalize View.canon (kernelRun1_A.sl.H2_15 (F := Ideal) c arg2 harg2 arg3 harg3 arg4 x0 x1) = Z at hz ⊢
    unfold k1_pay95 k1_pay96 k1_pay97 k1_pay98 k1_pay99
    dsimp only
    disc_row_value_A 14
  · rw [canon_row_miss 14 _ _ _ k hkr a]
    exact ⟨fun h => (chainA_14 c arg2 harg2 arg3 harg3 arg4 harg4 x0 x1 k a).1 (by omega), fun h => (chainA_14 c arg2 harg2 arg3 harg3 arg4 harg4 x0 x1 k a).2 (by omega)⟩

/-- The rows 0 … 15 over the zeroed block. -/
theorem chainA_16 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 16 → View.canon (kernelRun1_A.sl.H2_17 (F := Ideal) c arg2 harg2 arg3 harg3 arg4 x0 x1) (ix2 k a) = rowG x0 x1 k a) ∧ (16 ≤ k.val → View.canon (kernelRun1_A.sl.H2_17 (F := Ideal) c arg2 harg2 arg3 harg3 arg4 x0 x1) (ix2 k a) = 0) := by
  unfold kernelRun1_A.sl.H2_17
  by_cases hkr : k.val = 15
  · have hk0 : k = (⟨15, by decide⟩ : Fin 32) := Fin.ext hkr
    subst hk0
    refine ⟨fun _ => ?_, fun h => absurd h (Nat.not_succ_le_self 15)⟩
    rw [canon_row_hit 15 _ _ _ _ rfl a]
    unfold kernelRun1_A.sl.r_86 kernelRun1_A.sl.r_85 kernelRun1_A.sl.r_84 kernelRun1_A.sl.r_83 kernelRun1_A.sl.r_82 kernelRun1_A.sl.r_81
    unfold kernelRun1_A.sl.v1853
    rw [View.readCov_eq_canon']
    have hz := fun (k : Fin 32) (a : Fin 128) => (chainA_15 c arg2 harg2 arg3 harg3 arg4 harg4 x0 x1 k a).2
    generalize View.canon (kernelRun1_A.sl.H2_16 (F := Ideal) c arg2 harg2 arg3 harg3 arg4 x0 x1) = Z at hz ⊢
    unfold k1_pay100 k1_pay101 k1_pay102 k1_pay103 k1_pay104 k1_pay105 k1_pay106
    dsimp only
    disc_row_value_A 15
  · rw [canon_row_miss 15 _ _ _ k hkr a]
    exact ⟨fun h => (chainA_15 c arg2 harg2 arg3 harg3 arg4 harg4 x0 x1 k a).1 (by omega), fun h => (chainA_15 c arg2 harg2 arg3 harg3 arg4 harg4 x0 x1 k a).2 (by omega)⟩

/-- The rows 0 … 16 over the zeroed block. -/
theorem chainA_17 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 17 → View.canon (kernelRun1_A.sl.H2_18 (F := Ideal) c arg2 harg2 arg3 harg3 arg4 x0 x1) (ix2 k a) = rowG x0 x1 k a) ∧ (17 ≤ k.val → View.canon (kernelRun1_A.sl.H2_18 (F := Ideal) c arg2 harg2 arg3 harg3 arg4 x0 x1) (ix2 k a) = 0) := by
  unfold kernelRun1_A.sl.H2_18
  by_cases hkr : k.val = 16
  · have hk0 : k = (⟨16, by decide⟩ : Fin 32) := Fin.ext hkr
    subst hk0
    refine ⟨fun _ => ?_, fun h => absurd h (Nat.not_succ_le_self 16)⟩
    rw [canon_row_hit 16 _ _ _ _ rfl a]
    unfold kernelRun1_A.sl.r_89 kernelRun1_A.sl.r_88 kernelRun1_A.sl.r_87
    unfold kernelRun1_A.sl.v1969
    rw [View.readCov_eq_canon']
    have hz := fun (k : Fin 32) (a : Fin 128) => (chainA_16 c arg2 harg2 arg3 harg3 arg4 harg4 x0 x1 k a).2
    generalize View.canon (kernelRun1_A.sl.H2_17 (F := Ideal) c arg2 harg2 arg3 harg3 arg4 x0 x1) = Z at hz ⊢
    unfold k1_pay107 k1_pay108 k1_pay109
    dsimp only
    disc_row_value_A 16
  · rw [canon_row_miss 16 _ _ _ k hkr a]
    exact ⟨fun h => (chainA_16 c arg2 harg2 arg3 harg3 arg4 harg4 x0 x1 k a).1 (by omega), fun h => (chainA_16 c arg2 harg2 arg3 harg3 arg4 harg4 x0 x1 k a).2 (by omega)⟩

/-- The rows 0 … 17 over the zeroed block. -/
theorem chainA_18 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 18 → View.canon (kernelRun1_A.sl.H2_19 (F := Ideal) c arg2 harg2 arg3 harg3 arg4 x0 x1) (ix2 k a) = rowG x0 x1 k a) ∧ (18 ≤ k.val → View.canon (kernelRun1_A.sl.H2_19 (F := Ideal) c arg2 harg2 arg3 harg3 arg4 x0 x1) (ix2 k a) = 0) := by
  unfold kernelRun1_A.sl.H2_19
  by_cases hkr : k.val = 17
  · have hk0 : k = (⟨17, by decide⟩ : Fin 32) := Fin.ext hkr
    subst hk0
    refine ⟨fun _ => ?_, fun h => absurd h (Nat.not_succ_le_self 17)⟩
    rw [canon_row_hit 17 _ _ _ _ rfl a]
    unfold kernelRun1_A.sl.r_95 kernelRun1_A.sl.r_94 kernelRun1_A.sl.r_93 kernelRun1_A.sl.r_92 kernelRun1_A.sl.r_91 kernelRun1_A.sl.r_90
    unfold kernelRun1_A.sl.v2085
    rw [View.readCov_eq_canon']
    have hz := fun (k : Fin 32) (a : Fin 128) => (chainA_17 c arg2 harg2 arg3 harg3 arg4 harg4 x0 x1 k a).2
    generalize View.canon (kernelRun1_A.sl.H2_18 (F := Ideal) c arg2 harg2 arg3 harg3 arg4 x0 x1) = Z at hz ⊢
    unfold k1_pay110 k1_pay111 k1_pay112 k1_pay113 k1_pay114 k1_pay115 k1_pay116 k1_pay117
    dsimp only
    disc_row_value_A 17
  · rw [canon_row_miss 17 _ _ _ k hkr a]
    exact ⟨fun h => (chainA_17 c arg2 harg2 arg3 harg3 arg4 harg4 x0 x1 k a).1 (by omega), fun h => (chainA_17 c arg2 harg2 arg3 harg3 arg4 harg4 x0 x1 k a).2 (by omega)⟩

/-- The rows 0 … 18 over the zeroed block. -/
theorem chainA_19 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 19 → View.canon (kernelRun1_A.sl.H2_20 (F := Ideal) c arg2 harg2 arg3 harg3 arg4 x0 x1) (ix2 k a) = rowG x0 x1 k a) ∧ (19 ≤ k.val → View.canon (kernelRun1_A.sl.H2_20 (F := Ideal) c arg2 harg2 arg3 harg3 arg4 x0 x1) (ix2 k a) = 0) := by
  unfold kernelRun1_A.sl.H2_20
  by_cases hkr : k.val = 18
  · have hk0 : k = (⟨18, by decide⟩ : Fin 32) := Fin.ext hkr
    subst hk0
    refine ⟨fun _ => ?_, fun h => absurd h (Nat.not_succ_le_self 18)⟩
    rw [canon_row_hit 18 _ _ _ _ rfl a]
    unfold kernelRun1_A.sl.r_100 kernelRun1_A.sl.r_99 kernelRun1_A.sl.r_98 kernelRun1_A.sl.r_97 kernelRun1_A.sl.r_96
    unfold kernelRun1_A.sl.v2201
    rw [View.readCov_eq_canon']
    have hz := fun (k : Fin 32) (a : Fin 128) => (chainA_18 c arg2 harg2 arg3 harg3 arg4 harg4 x0 x1 k a).2
    generalize View.canon (kernelRun1_A.sl.H2_19 (F := Ideal) c arg2 harg2 arg3 harg3 arg4 x0 x1) = Z at hz ⊢
    unfold k1_pay118 k1_pay119 k1_pay120 k1_pay121 k1_pay122 k1_pay123 k1_pay124
    dsimp only
    disc_row_value_A 18
  · rw [canon_row_miss 18 _ _ _ k hkr a]
    exact ⟨fun h => (chainA_18 c arg2 harg2 arg3 harg3 arg4 harg4 x0 x1 k a).1 (by omega), fun h => (chainA_18 c arg2 harg2 arg3 harg3 arg4 harg4 x0 x1 k a).2 (by omega)⟩

/-- The rows 0 … 19 over the zeroed block. -/
theorem chainA_20 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 20 → View.canon (kernelRun1_A.sl.H2_21 (F := Ideal) c arg2 harg2 arg3 harg3 arg4 x0 x1) (ix2 k a) = rowG x0 x1 k a) ∧ (20 ≤ k.val → View.canon (kernelRun1_A.sl.H2_21 (F := Ideal) c arg2 harg2 arg3 harg3 arg4 x0 x1) (ix2 k a) = 0) := by
  unfold kernelRun1_A.sl.H2_21
  by_cases hkr : k.val = 19
  · have hk0 : k = (⟨19, by decide⟩ : Fin 32) := Fin.ext hkr
    subst hk0
    refine ⟨fun _ => ?_, fun h => absurd h (Nat.not_succ_le_self 19)⟩
    rw [canon_row_hit 19 _ _ _ _ rfl a]
    unfold kernelRun1_A.sl.r_105 kernelRun1_A.sl.r_104 kernelRun1_A.sl.r_103 kernelRun1_A.sl.r_102 kernelRun1_A.sl.r_101
    unfold kernelRun1_A.sl.v2317
    rw [View.readCov_eq_canon']
    have hz := fun (k : Fin 32) (a : Fin 128) => (chainA_19 c arg2 harg2 arg3 harg3 arg4 harg4 x0 x1 k a).2
    generalize View.canon (kernelRun1_A.sl.H2_20 (F := Ideal) c arg2 harg2 arg3 harg3 arg4 x0 x1) = Z at hz ⊢
    unfold k1_pay125 k1_pay126 k1_pay127 k1_pay128 k1_pay129 k1_pay130
    dsimp only
    disc_row_value_A 19
  · rw [canon_row_miss 19 _ _ _ k hkr a]
    exact ⟨fun h => (chainA_19 c arg2 harg2 arg3 harg3 arg4 harg4 x0 x1 k a).1 (by omega), fun h => (chainA_19 c arg2 harg2 arg3 harg3 arg4 harg4 x0 x1 k a).2 (by omega)⟩

/-- The rows 0 … 20 over the zeroed block. -/
theorem chainA_21 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 21 → View.canon (kernelRun1_A.sl.H2_22 (F := Ideal) c arg2 harg2 arg3 harg3 arg4 x0 x1) (ix2 k a) = rowG x0 x1 k a) ∧ (21 ≤ k.val → View.canon (kernelRun1_A.sl.H2_22 (F := Ideal) c arg2 harg2 arg3 harg3 arg4 x0 x1) (ix2 k a) = 0) := by
  unfold kernelRun1_A.sl.H2_22
  by_cases hkr : k.val = 20
  · have hk0 : k = (⟨20, by decide⟩ : Fin 32) := Fin.ext hkr
    subst hk0
    refine ⟨fun _ => ?_, fun h => absurd h (Nat.not_succ_le_self 20)⟩
    rw [canon_row_hit 20 _ _ _ _ rfl a]
    unfold kernelRun1_A.sl.r_113 kernelRun1_A.sl.r_112 kernelRun1_A.sl.r_111 kernelRun1_A.sl.r_110 kernelRun1_A.sl.r_109 kernelRun1_A.sl.r_108 kernelRun1_A.sl.r_107 kernelRun1_A.sl.r_106
    unfold kernelRun1_A.sl.v2433
    rw [View.readCov_eq_canon']
    have hz := fun (k : Fin 32) (a : Fin 128) => (chainA_20 c arg2 harg2 arg3 harg3 arg4 harg4 x0 x1 k a).2
    generalize View.canon (kernelRun1_A.sl.H2_21 (F := Ideal) c arg2 harg2 arg3 harg3 arg4 x0 x1) = Z at hz ⊢
    unfold k1_pay131 k1_pay132 k1_pay133 k1_pay134 k1_pay135 k1_pay136 k1_pay137 k1_pay138 k1_pay139
    dsimp only
    disc_row_value_A 20
  · rw [canon_row_miss 20 _ _ _ k hkr a]
    exact ⟨fun h => (chainA_20 c arg2 harg2 arg3 harg3 arg4 harg4 x0 x1 k a).1 (by omega), fun h => (chainA_20 c arg2 harg2 arg3 harg3 arg4 harg4 x0 x1 k a).2 (by omega)⟩

/-- The rows 0 … 21 over the zeroed block. -/
theorem chainA_22 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 22 → View.canon (kernelRun1_A.sl.H2_23 (F := Ideal) c arg2 harg2 arg3 harg3 arg4 x0 x1) (ix2 k a) = rowG x0 x1 k a) ∧ (22 ≤ k.val → View.canon (kernelRun1_A.sl.H2_23 (F := Ideal) c arg2 harg2 arg3 harg3 arg4 x0 x1) (ix2 k a) = 0) := by
  unfold kernelRun1_A.sl.H2_23
  by_cases hkr : k.val = 21
  · have hk0 : k = (⟨21, by decide⟩ : Fin 32) := Fin.ext hkr
    subst hk0
    refine ⟨fun _ => ?_, fun h => absurd h (Nat.not_succ_le_self 21)⟩
    rw [canon_row_hit 21 _ _ _ _ rfl a]
    unfold kernelRun1_A.sl.r_116 kernelRun1_A.sl.r_115 kernelRun1_A.sl.r_114
    unfold kernelRun1_A.sl.v2549
    rw [View.readCov_eq_canon']
    have hz := fun (k : Fin 32) (a : Fin 128) => (chainA_21 c arg2 harg2 arg3 harg3 arg4 harg4 x0 x1 k a).2
    generalize View.canon (kernelRun1_A.sl.H2_22 (F := Ideal) c arg2 harg2 arg3 harg3 arg4 x0 x1) = Z at hz ⊢
    unfold k1_pay140 k1_pay141 k1_pay142 k1_pay143
    dsimp only
    disc_row_value_A 21
  · rw [canon_row_miss 21 _ _ _ k hkr a]
    exact ⟨fun h => (chainA_21 c arg2 harg2 arg3 harg3 arg4 harg4 x0 x1 k a).1 (by omega), fun h => (chainA_21 c arg2 harg2 arg3 harg3 arg4 harg4 x0 x1 k a).2 (by omega)⟩

/-- The rows 0 … 22 over the zeroed block. -/
theorem chainA_23 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 23 → View.canon (kernelRun1_A.sl.H2_24 (F := Ideal) c arg2 harg2 arg3 harg3 arg4 x0 x1) (ix2 k a) = rowG x0 x1 k a) ∧ (23 ≤ k.val → View.canon (kernelRun1_A.sl.H2_24 (F := Ideal) c arg2 harg2 arg3 harg3 arg4 x0 x1) (ix2 k a) = 0) := by
  unfold kernelRun1_A.sl.H2_24
  by_cases hkr : k.val = 22
  · have hk0 : k = (⟨22, by decide⟩ : Fin 32) := Fin.ext hkr
    subst hk0
    refine ⟨fun _ => ?_, fun h => absurd h (Nat.not_succ_le_self 22)⟩
    rw [canon_row_hit 22 _ _ _ _ rfl a]
    unfold kernelRun1_A.sl.r_122 kernelRun1_A.sl.r_121 kernelRun1_A.sl.r_120 kernelRun1_A.sl.r_119 kernelRun1_A.sl.r_118 kernelRun1_A.sl.r_117
    unfold kernelRun1_A.sl.v2665
    rw [View.readCov_eq_canon']
    have hz := fun (k : Fin 32) (a : Fin 128) => (chainA_22 c arg2 harg2 arg3 harg3 arg4 harg4 x0 x1 k a).2
    generalize View.canon (kernelRun1_A.sl.H2_23 (F := Ideal) c arg2 harg2 arg3 harg3 arg4 x0 x1) = Z at hz ⊢
    unfold k1_pay144 k1_pay145 k1_pay146 k1_pay147 k1_pay148 k1_pay149 k1_pay150
    dsimp only
    disc_row_value_A 22
  · rw [canon_row_miss 22 _ _ _ k hkr a]
    exact ⟨fun h => (chainA_22 c arg2 harg2 arg3 harg3 arg4 harg4 x0 x1 k a).1 (by omega), fun h => (chainA_22 c arg2 harg2 arg3 harg3 arg4 harg4 x0 x1 k a).2 (by omega)⟩

/-- The rows 0 … 23 over the zeroed block. -/
theorem chainA_24 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 24 → View.canon (kernelRun1_A.sl.H2_25 (F := Ideal) c arg2 harg2 arg3 harg3 arg4 x0 x1) (ix2 k a) = rowG x0 x1 k a) ∧ (24 ≤ k.val → View.canon (kernelRun1_A.sl.H2_25 (F := Ideal) c arg2 harg2 arg3 harg3 arg4 x0 x1) (ix2 k a) = 0) := by
  unfold kernelRun1_A.sl.H2_25
  by_cases hkr : k.val = 23
  · have hk0 : k = (⟨23, by decide⟩ : Fin 32) := Fin.ext hkr
    subst hk0
    refine ⟨fun _ => ?_, fun h => absurd h (Nat.not_succ_le_self 23)⟩
    rw [canon_row_hit 23 _ _ _ _ rfl a]
    unfold kernelRun1_A.sl.r_126 kernelRun1_A.sl.r_125 kernelRun1_A.sl.r_124 kernelRun1_A.sl.r_123
    unfold kernelRun1_A.sl.v2781
    rw [View.readCov_eq_canon']
    have hz := fun (k : Fin 32) (a : Fin 128) => (chainA_23 c arg2 harg2 arg3 harg3 arg4 harg4 x0 x1 k a).2
    generalize View.canon (kernelRun1_A.sl.H2_24 (F := Ideal) c arg2 harg2 arg3 harg3 arg4 x0 x1) = Z at hz ⊢
    unfold k1_pay151 k1_pay152 k1_pay153 k1_pay154 k1_pay155
    dsimp only
    disc_row_value_A 23
  · rw [canon_row_miss 23 _ _ _ k hkr a]
    exact ⟨fun h => (chainA_23 c arg2 harg2 arg3 harg3 arg4 harg4 x0 x1 k a).1 (by omega), fun h => (chainA_23 c arg2 harg2 arg3 harg3 arg4 harg4 x0 x1 k a).2 (by omega)⟩

/-- The rows 0 … 24 over the zeroed block. -/
theorem chainA_25 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 25 → View.canon (kernelRun1_A.sl.H2_26 (F := Ideal) c arg2 harg2 arg3 harg3 arg4 x0 x1) (ix2 k a) = rowG x0 x1 k a) ∧ (25 ≤ k.val → View.canon (kernelRun1_A.sl.H2_26 (F := Ideal) c arg2 harg2 arg3 harg3 arg4 x0 x1) (ix2 k a) = 0) := by
  unfold kernelRun1_A.sl.H2_26
  by_cases hkr : k.val = 24
  · have hk0 : k = (⟨24, by decide⟩ : Fin 32) := Fin.ext hkr
    subst hk0
    refine ⟨fun _ => ?_, fun h => absurd h (Nat.not_succ_le_self 24)⟩
    rw [canon_row_hit 24 _ _ _ _ rfl a]
    unfold kernelRun1_A.sl.r_130 kernelRun1_A.sl.r_129 kernelRun1_A.sl.r_128 kernelRun1_A.sl.r_127
    unfold kernelRun1_A.sl.v2897
    rw [View.readCov_eq_canon']
    have hz := fun (k : Fin 32) (a : Fin 128) => (chainA_24 c arg2 harg2 arg3 harg3 arg4 harg4 x0 x1 k a).2
    generalize View.canon (kernelRun1_A.sl.H2_25 (F := Ideal) c arg2 harg2 arg3 harg3 arg4 x0 x1) = Z at hz ⊢
    unfold k1_pay156 k1_pay157 k1_pay158 k1_pay159 k1_pay160 k1_pay161
    dsimp only
    disc_row_value_A 24
  · rw [canon_row_miss 24 _ _ _ k hkr a]
    exact ⟨fun h => (chainA_24 c arg2 harg2 arg3 harg3 arg4 harg4 x0 x1 k a).1 (by omega), fun h => (chainA_24 c arg2 harg2 arg3 harg3 arg4 harg4 x0 x1 k a).2 (by omega)⟩

/-- The rows 0 … 25 over the zeroed block. -/
theorem chainA_26 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 26 → View.canon (kernelRun1_A.sl.H2_27 (F := Ideal) c arg2 harg2 arg3 harg3 arg4 x0 x1) (ix2 k a) = rowG x0 x1 k a) ∧ (26 ≤ k.val → View.canon (kernelRun1_A.sl.H2_27 (F := Ideal) c arg2 harg2 arg3 harg3 arg4 x0 x1) (ix2 k a) = 0) := by
  unfold kernelRun1_A.sl.H2_27
  by_cases hkr : k.val = 25
  · have hk0 : k = (⟨25, by decide⟩ : Fin 32) := Fin.ext hkr
    subst hk0
    refine ⟨fun _ => ?_, fun h => absurd h (Nat.not_succ_le_self 25)⟩
    rw [canon_row_hit 25 _ _ _ _ rfl a]
    unfold kernelRun1_A.sl.r_138 kernelRun1_A.sl.r_137 kernelRun1_A.sl.r_136 kernelRun1_A.sl.r_135 kernelRun1_A.sl.r_134 kernelRun1_A.sl.r_133 kernelRun1_A.sl.r_132 kernelRun1_A.sl.r_131
    unfold kernelRun1_A.sl.v3013
    rw [View.readCov_eq_canon']
    have hz := fun (k : Fin 32) (a : Fin 128) => (chainA_25 c arg2 harg2 arg3 harg3 arg4 harg4 x0 x1 k a).2
    generalize View.canon (kernelRun1_A.sl.H2_26 (F := Ideal) c arg2 harg2 arg3 harg3 arg4 x0 x1) = Z at hz ⊢
    unfold k1_pay162 k1_pay163 k1_pay164 k1_pay165 k1_pay166 k1_pay167 k1_pay168 k1_pay169 k1_pay170
    dsimp only
    disc_row_value_A 25
  · rw [canon_row_miss 25 _ _ _ k hkr a]
    exact ⟨fun h => (chainA_25 c arg2 harg2 arg3 harg3 arg4 harg4 x0 x1 k a).1 (by omega), fun h => (chainA_25 c arg2 harg2 arg3 harg3 arg4 harg4 x0 x1 k a).2 (by omega)⟩

/-- The rows 0 … 26 over the zeroed block. -/
theorem chainA_27 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 27 → View.canon (kernelRun1_A.sl.H2_28 (F := Ideal) c arg2 harg2 arg3 harg3 arg4 x0 x1) (ix2 k a) = rowG x0 x1 k a) ∧ (27 ≤ k.val → View.canon (kernelRun1_A.sl.H2_28 (F := Ideal) c arg2 harg2 arg3 harg3 arg4 x0 x1) (ix2 k a) = 0) := by
  unfold kernelRun1_A.sl.H2_28
  by_cases hkr : k.val = 26
  · have hk0 : k = (⟨26, by decide⟩ : Fin 32) := Fin.ext hkr
    subst hk0
    refine ⟨fun _ => ?_, fun h => absurd h (Nat.not_succ_le_self 26)⟩
    rw [canon_row_hit 26 _ _ _ _ rfl a]
    unfold kernelRun1_A.sl.r_142 kernelRun1_A.sl.r_141 kernelRun1_A.sl.r_140 kernelRun1_A.sl.r_139
    unfold kernelRun1_A.sl.v3129
    rw [View.readCov_eq_canon']
    have hz := fun (k : Fin 32) (a : Fin 128) => (chainA_26 c arg2 harg2 arg3 harg3 arg4 harg4 x0 x1 k a).2
    generalize View.canon (kernelRun1_A.sl.H2_27 (F := Ideal) c arg2 harg2 arg3 harg3 arg4 x0 x1) = Z at hz ⊢
    unfold k1_pay171 k1_pay172 k1_pay173 k1_pay174 k1_pay175 k1_pay176
    dsimp only
    disc_row_value_A 26
  · rw [canon_row_miss 26 _ _ _ k hkr a]
    exact ⟨fun h => (chainA_26 c arg2 harg2 arg3 harg3 arg4 harg4 x0 x1 k a).1 (by omega), fun h => (chainA_26 c arg2 harg2 arg3 harg3 arg4 harg4 x0 x1 k a).2 (by omega)⟩

/-- The rows 0 … 27 over the zeroed block. -/
theorem chainA_28 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 28 → View.canon (kernelRun1_A.sl.H2_29 (F := Ideal) c arg2 harg2 arg3 harg3 arg4 x0 x1) (ix2 k a) = rowG x0 x1 k a) ∧ (28 ≤ k.val → View.canon (kernelRun1_A.sl.H2_29 (F := Ideal) c arg2 harg2 arg3 harg3 arg4 x0 x1) (ix2 k a) = 0) := by
  unfold kernelRun1_A.sl.H2_29
  by_cases hkr : k.val = 27
  · have hk0 : k = (⟨27, by decide⟩ : Fin 32) := Fin.ext hkr
    subst hk0
    refine ⟨fun _ => ?_, fun h => absurd h (Nat.not_succ_le_self 27)⟩
    rw [canon_row_hit 27 _ _ _ _ rfl a]
    unfold kernelRun1_A.sl.r_150 kernelRun1_A.sl.r_149 kernelRun1_A.sl.r_148 kernelRun1_A.sl.r_147 kernelRun1_A.sl.r_146 kernelRun1_A.sl.r_145 kernelRun1_A.sl.r_144 kernelRun1_A.sl.r_143
    unfold kernelRun1_A.sl.v3245
    rw [View.readCov_eq_canon']
    have hz := fun (k : Fin 32) (a : Fin 128) => (chainA_27 c arg2 harg2 arg3 harg3 arg4 harg4 x0 x1 k a).2
    generalize View.canon (kernelRun1_A.sl.H2_28 (F := Ideal) c arg2 harg2 arg3 harg3 arg4 x0 x1) = Z at hz ⊢
    unfold k1_pay177 k1_pay178 k1_pay179 k1_pay180 k1_pay181 k1_pay182 k1_pay183 k1_pay184
    dsimp only
    disc_row_value_A 27
  · rw [canon_row_miss 27 _ _ _ k hkr a]
    exact ⟨fun h => (chainA_27 c arg2 harg2 arg3 harg3 arg4 harg4 x0 x1 k a).1 (by omega), fun h => (chainA_27 c arg2 harg2 arg3 harg3 arg4 harg4 x0 x1 k a).2 (by omega)⟩

/-- The rows 0 … 28 over the zeroed block. -/
theorem chainA_29 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 29 → View.canon (kernelRun1_A.sl.H2_30 (F := Ideal) c arg2 harg2 arg3 harg3 arg4 x0 x1) (ix2 k a) = rowG x0 x1 k a) ∧ (29 ≤ k.val → View.canon (kernelRun1_A.sl.H2_30 (F := Ideal) c arg2 harg2 arg3 harg3 arg4 x0 x1) (ix2 k a) = 0) := by
  unfold kernelRun1_A.sl.H2_30
  by_cases hkr : k.val = 28
  · have hk0 : k = (⟨28, by decide⟩ : Fin 32) := Fin.ext hkr
    subst hk0
    refine ⟨fun _ => ?_, fun h => absurd h (Nat.not_succ_le_self 28)⟩
    rw [canon_row_hit 28 _ _ _ _ rfl a]
    unfold kernelRun1_A.sl.r_156 kernelRun1_A.sl.r_155 kernelRun1_A.sl.r_154 kernelRun1_A.sl.r_153 kernelRun1_A.sl.r_152 kernelRun1_A.sl.r_151 kernelRun1_A.sl.cst_750
    unfold kernelRun1_A.sl.v3361
    rw [View.readCov_eq_canon']
    have hz := fun (k : Fin 32) (a : Fin 128) => (chainA_28 c arg2 harg2 arg3 harg3 arg4 harg4 x0 x1 k a).2
    generalize View.canon (kernelRun1_A.sl.H2_29 (F := Ideal) c arg2 harg2 arg3 harg3 arg4 x0 x1) = Z at hz ⊢
    unfold k1_pay185 k1_pay186 k1_pay187 k1_pay188 k1_pay189 k1_pay190 k1_pay191
    dsimp only
    disc_row_value_A 28
  · rw [canon_row_miss 28 _ _ _ k hkr a]
    exact ⟨fun h => (chainA_28 c arg2 harg2 arg3 harg3 arg4 harg4 x0 x1 k a).1 (by omega), fun h => (chainA_28 c arg2 harg2 arg3 harg3 arg4 harg4 x0 x1 k a).2 (by omega)⟩

/-- The rows 0 … 29 over the zeroed block. -/
theorem chainA_30 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 30 → View.canon (kernelRun1_A.sl.H2_31 (F := Ideal) c arg2 harg2 arg3 harg3 arg4 x0 x1) (ix2 k a) = rowG x0 x1 k a) ∧ (30 ≤ k.val → View.canon (kernelRun1_A.sl.H2_31 (F := Ideal) c arg2 harg2 arg3 harg3 arg4 x0 x1) (ix2 k a) = 0) := by
  unfold kernelRun1_A.sl.H2_31
  by_cases hkr : k.val = 29
  · have hk0 : k = (⟨29, by decide⟩ : Fin 32) := Fin.ext hkr
    subst hk0
    refine ⟨fun _ => ?_, fun h => absurd h (Nat.not_succ_le_self 29)⟩
    rw [canon_row_hit 29 _ _ _ _ rfl a]
    unfold kernelRun1_A.sl.r_161 kernelRun1_A.sl.r_160 kernelRun1_A.sl.r_159 kernelRun1_A.sl.r_158 kernelRun1_A.sl.r_157
    unfold kernelRun1_A.sl.v3477
    rw [View.readCov_eq_canon']
    have hz := fun (k : Fin 32) (a : Fin 128) => (chainA_29 c arg2 harg2 arg3 harg3 arg4 harg4 x0 x1 k a).2
    generalize View.canon (kernelRun1_A.sl.H2_30 (F := Ideal) c arg2 harg2 arg3 harg3 arg4 x0 x1) = Z at hz ⊢
    unfold k1_pay192 k1_pay193 k1_pay194 k1_pay195 k1_pay196
    dsimp only
    disc_row_value_A 29
  · rw [canon_row_miss 29 _ _ _ k hkr a]
    exact ⟨fun h => (chainA_29 c arg2 harg2 arg3 harg3 arg4 harg4 x0 x1 k a).1 (by omega), fun h => (chainA_29 c arg2 harg2 arg3 harg3 arg4 harg4 x0 x1 k a).2 (by omega)⟩

/-- The rows 0 … 30 over the zeroed block. -/
theorem chainA_31 (c : Dev nD) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (x0 x1 : Vec Ideal S8x32x128 .f32) (k : Fin 32) (a : Fin 128) :
    (k.val < 31 → View.canon (kernelRun1_A.sl.H2_32 (F := Ideal) c arg2 harg2 arg3 harg3 arg4 x0 x1) (ix2 k a) = rowG x0 x1 k a) ∧ (31 ≤ k.val → View.canon (kernelRun1_A.sl.H2_32 (F := Ideal) c arg2 harg2 arg3 harg3 arg4 x0 x1) (ix2 k a) = 0) := by
  unfold kernelRun1_A.sl.H2_32
  by_cases hkr : k.val = 30
  · have hk0 : k = (⟨30, by decide⟩ : Fin 32) := Fin.ext hkr
    subst hk0
    refine ⟨fun _ => ?_, fun h => absurd h (Nat.not_succ_le_self 30)⟩
    rw [canon_row_hit 30 _ _ _ _ rfl a]
    unfold kernelRun1_A.sl.r_167 kernelRun1_A.sl.r_166 kernelRun1_A.sl.r_165 kernelRun1_A.sl.r_164 kernelRun1_A.sl.r_163 kernelRun1_A.sl.r_162
    unfold kernelRun1_A.sl.v3593
    rw [View.readCov_eq_canon']
    have hz := fun (k : Fin 32) (a : Fin 128) => (chainA_30 c arg2 harg2 arg3 harg3 arg4 harg4 x0 x1 k a).2
    generalize View.canon (kernelRun1_A.sl.H2_31 (F := Ideal) c arg2 harg2 arg3 harg3 arg4 x0 x1) = Z at hz ⊢
    unfold k1_pay197 k1_pay198 k1_pay199 k1_pay200 k1_pay201 k1_pay202 k1_pay203
    dsimp only
    disc_row_value_A 30
  · rw [canon_row_miss 30 _ _ _ k hkr a]
    exact ⟨fun h => (chainA_30 c arg2 harg2 arg3 harg3 arg4 harg4 x0 x1 k a).1 (by omega), fun h => (chainA_30 c arg2 harg2 arg3 harg3 arg4 harg4 x0 x1 k a).2 (by omega)⟩

/-! ## What each case leaves in the output block, entry by entry -/

/-- At a point with j = 0 the block's entry (k, a) ends at the gain. -/
theorem out1_A_2_apply (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : cond1_0 i) (x0 x1 : Vec Ideal S8x32x128 .f32) (k : Fin 32) (a : Fin 128) :
    out1_A_2 (F := Ideal) c i arg2 harg2 arg3 harg3 arg4 harg4 hc0 x0 x1 (ix2 k a) = ∑ a' : Fin 128, Ideal.exp (-(∑ d : Fin 8, max (x0 (ix3 d k a) - x1 (ix3 d k a')) (-(x0 (ix3 d k a) - x1 (ix3 d k a'))))) := by
  show _ = rowG x0 x1 k a
  unfold out1_A_2
  rw [View.read_writes_junk_eq_canon]
  unfold kernelRun1_A
  dsimp only
  by_cases hkr : k.val = 31
  · have hk0 : k = (⟨31, by decide⟩ : Fin 32) := Fin.ext hkr
    subst hk0
    rw [canon_row_hit 31 _ _ _ _ rfl a]
    unfold kernelRun1_A.sl.r_173 kernelRun1_A.sl.r_172 kernelRun1_A.sl.r_171 kernelRun1_A.sl.r_170 kernelRun1_A.sl.r_169 kernelRun1_A.sl.r_168
    unfold kernelRun1_A.sl.v3709
    rw [View.readCov_eq_canon']
    have hz := fun (k : Fin 32) (a : Fin 128) => (chainA_31 c arg2 harg2 arg3 harg3 arg4 harg4 x0 x1 k a).2
    generalize View.canon (kernelRun1_A.sl.H2_32 (F := Ideal) c arg2 harg2 arg3 harg3 arg4 x0 x1) = Z at hz ⊢
    unfold k1_pay1 k1_pay204 k1_pay205 k1_pay206 k1_pay207 k1_pay208
    dsimp only
    disc_row_value_A 31
  · rw [canon_row_miss 31 _ _ _ k hkr a]
    exact (chainA_31 c arg2 harg2 arg3 harg3 arg4 harg4 x0 x1 k a).1 (by omega)

/-- At a point with j ≠ 0 the block's entry (k, a) ends at what it held plus the gain. -/
theorem out1_B_2_apply (c : Dev nD) (i : grid1.Coords) (arg2 : Memref sig .tc .vmem S8x32x128 .f32) (harg2 : arg2.IsWhole) (arg3 : Memref sig .tc .vmem S8x32x128 .f32) (harg3 : arg3.IsWhole)
    (arg4 : Memref sig .tc .vmem S32x128 .f32) (harg4 : arg4.IsWhole) (hc0 : ¬cond1_0 i) (x0 x1 : Vec Ideal S8x32x128 .f32) (xo2 : Vec Ideal S32x128 .f32) (k : Fin 32) (a : Fin 128) :
    out1_B_2 (F := Ideal) c i arg2 harg2 arg3 harg3 arg4 harg4 hc0 x0 x1 xo2 (ix2 k a) = xo2 (ix2 k a) + ∑ a' : Fin 128, Ideal.exp (-(∑ d : Fin 8, max (x0 (ix3 d k a) - x1 (ix3 d k a')) (-(x0 (ix3 d k a) - x1 (ix3 d k a'))))) := by
  show _ = xo2 (ix2 k a) + rowG x0 x1 k a
  unfold out1_B_2
  rw [View.read_writes_junk_eq_canon]
  unfold kernelRun1_B
  dsimp only
  by_cases hkr : k.val = 31
  · have hk0 : k = (⟨31, by decide⟩ : Fin 32) := Fin.ext hkr
    subst hk0
    rw [canon_row_hit 31 _ _ _ _ rfl a]
    unfold kernelRun1_B.sl.r_173 kernelRun1_B.sl.r_172 kernelRun1_B.sl.r_171 kernelRun1_B.sl.r_170 kernelRun1_B.sl.r_169 kernelRun1_B.sl.r_168
    unfold kernelRun1_B.sl.v3709
    unfold k1_pay1 k1_pay204 k1_pay205 k1_pay206 k1_pay207 k1_pay208
    dsimp only
    disc_row_value_B
  · rw [canon_row_miss 31 _ _ _ k hkr a]
    exact chainB_31 c arg2 harg2 arg3 harg3 arg4 harg4 x0 x1 xo2 k a (by omega)

end Cert.KernelIdeal.R1V

end
-- ==== Proof.R1Final.lean ====
/- The value of region 1: the pairwise closeness sums.

   The region reads one array z of shape [8, 32, 1024]: component d of feature k of batch row b sits at (d, k, b). The
   grid is 8 x 8: point t = 8 i + j compares the 128 rows 128 i ... (the query block) with the 128 rows 128 j ... (the
   key block). The output block (32 features by 128 query rows) is kept over j: at j = 0 it is set to, and at the
   other j it is increased by, for feature k and query row a, the sum over the key block's 128 rows a' of
   exp (- sum over d of |z (d, k, 128 i + a) - z (d, k, 128 j + a')|); after j = 7 it is written to columns 128 i ...
   of the result. So after point t the block's entry (k, a) is the sum over the key blocks 0 ... j of that block's
   share, and at j = 7 it is the sum over all 1024 rows, regrouped as 8 blocks of 128. Only the commutativity and
   associativity of + are used: no entry needs to be finite. -/
import proofs.«161723_j52879637348745_2_alg».proof.Proof.R1Frame
import proofs.«161723_j52879637348745_2_alg».proof.Proof.SpecAlg
import proofs.«161723_j52879637348745_2_alg».proof.Proof.Blocks
import Idealize.ShloMosaic.Lib.Pipeline.Value
import Idealize.ShloMosaic.Lib.ValueIdx

set_option maxRecDepth 16384

noncomputable section

namespace Cert.KernelIdeal.R1V

open Idealize.ShloMosaic Idealize.ShloMosaic.TcCoe Idealize.ShloMosaic.Tactic
open Idealize.SL Idealize.SL.RA Idealize.SL.Sem
open Idealize.ShloMosaic.Pipeline (Dat Cfg Window)
open Cert.KernelIdeal Cert.KernelIdeal.Gen Cert.KernelIdeal.R1 Cert.KernelIdeal.Blocks
open Idealize.ShloMosaic.ValueIdx Cert.SpecAlg
open scoped BigOperators

variable (V : (c : Dev nD) → (b : Ref sig .tc) → Buf (Elt Ideal) ((c : Thread nD τ).loc b))
variable (q : Fin cfg1.W → PosShare TreeShare)

/-- The array the region reads, as the region finds it: component d of feature k of row b at (d, k, b). -/
abbrev zArr (c : Dev nD) : S8x32x1024.Idx → EReal := V c main_v2

/-! ## The sums, by blocks of 128 rows -/

/-- Key block `j`'s share of the closeness sum of feature `k` at row `b`: the closeness of row `b` to the block's 128
    rows, added. -/
def partZ (z : S8x32x1024.Idx → EReal) (k : Fin 32) (b : Fin 1024) (j : Fin 8) : EReal :=
  ∑ a' : Fin 128, Ideal.exp (-(∑ d : Fin 8, max (z (ix3 d k b) - z (ix3 d k (at128 j a'))) (-(z (ix3 d k b) - z (ix3 d k (at128 j a'))))))

/-- The closeness sum of feature `k` at row `b`: over all 1024 rows. -/
def total (z : S8x32x1024.Idx → EReal) (k : Fin 32) (b : Fin 1024) : EReal :=
  ∑ b' : Fin 1024, Ideal.exp (-(∑ d : Fin 8, max (z (ix3 d k b) - z (ix3 d k b')) (-(z (ix3 d k b) - z (ix3 d k b')))))

/-- It is the eight key blocks' shares, added. -/
theorem total_blocks (z : S8x32x1024.Idx → EReal) (k : Fin 32) (b : Fin 1024) : total z k b = ∑ j : Fin 8, partZ z k b j :=
  sum_1024 fun b' => Ideal.exp (-(∑ d : Fin 8, max (z (ix3 d k b) - z (ix3 d k b')) (-(z (ix3 d k b) - z (ix3 d k b')))))

/-- The row of the batch that query row `a` of the blocks at position `n` is: 128 (n / 8) + a. -/
def colAt (n : ℕ) (h : n < cfg1.N) (a : Fin 128) : Fin 1024 :=
  ⟨128 * (n / 8) + a.val, by have hN : cfg1.N = 64 := N_1; have := a.isLt; omega⟩

/-- The key block position `n` works on: n % 8. -/
def jAt (n : ℕ) : Fin 8 := ⟨n % 8, Nat.mod_lt _ (by decide)⟩

/-- Starting a row of the grid: block 0's share is the sum of the shares of the blocks below 1. -/
theorem acc_first (p : Fin 8 → EReal) (n : ℕ) (h0 : n % 8 = 0) : p (jAt n) = prefixSum p (n % 8 + 1) := by
  have e := prefixSum_succ p (jAt n)
  have e0 : (jAt n).val = 0 := h0
  rw [e0, prefixSum_zero] at e
  rw [h0]
  exact (e.trans (zero_add _)).symm

/-- Going on inside a row of the grid: one more block's share. -/
theorem acc_next (p : Fin 8 → EReal) (n : ℕ) (h0 : ¬(n + 1) % 8 = 0) :
    prefixSum p (n % 8 + 1) + p (jAt (n + 1)) = prefixSum p ((n + 1) % 8 + 1) := by
  have e := prefixSum_succ p (jAt (n + 1))
  have e1 : (jAt (n + 1)).val = n % 8 + 1 := by show (n + 1) % 8 = n % 8 + 1; omega
  have e2 : (n + 1) % 8 + 1 = (jAt (n + 1)).val + 1 := rfl
  rw [e2, e, e1]

/-- The closeness of query row `a` of the query block at point `t` to the 128 rows of the key block there is key
    block t % 8's share at row 128 (t / 8) + a. -/
theorem share_eq (c : Dev nD) (t : Fin cfg1.N) (k : Fin 32) (a : Fin 128) (x0 x1 : Vec Ideal S8x32x128 .f32)
    (e0 : x0 = iblk1 V c 0 t) (e1 : x1 = iblk1 V c 1 t) :
    (∑ a' : Fin 128, Ideal.exp (-(∑ d : Fin 8, max (x0 (ix3 d k a) - x1 (ix3 d k a')) (-(x0 (ix3 d k a) - x1 (ix3 d k a'))))))
      = partZ (zArr V c) k (colAt t.val t.isLt a) (jAt t.val) := by
  unfold partZ
  refine Finset.sum_congr rfl fun a' _ => ?_
  have hN : cfg1.N = 64 := N_1
  have ht := t.isLt
  have ha : 128 * (t.val / 8) + a.val < 1024 := by have := a.isLt; omega
  have ha' : 128 * (t.val % 8) + a'.val < 1024 := by have := a'.isLt; omega
  have A : ∀ d : Fin 8, x0 (ix3 d k a) = zArr V c (ix3 d k (colAt t.val t.isLt a)) := fun d => by
    subst e0; exact iblk1_0_apply V c t d k a ha
  have B : ∀ d : Fin 8, x1 (ix3 d k a') = zArr V c (ix3 d k (at128 (jAt t.val) a')) := fun d => by
    subst e1; exact iblk1_1_apply V c t d k a' ha'
  simp only [A, B]

/-! ## The output block point by point

The two cases' values at an entry are taken as given here (`hA`: the block is set to the key block's closeness sums;
`hB`: it is increased by them). -/

section Points
variable (hA : ∀ (c : Dev nD) (i : grid1.Coords) (arg2 : Memref sig .tc .vmem S8x32x128 .f32) (harg2 : arg2.IsWhole) (arg3 : Memref sig .tc .vmem S8x32x128 .f32) (harg3 : arg3.IsWhole) (arg4 : Memref sig .tc .vmem S32x128 .f32) (harg4 : arg4.IsWhole) (hc0 : cond1_0 i)
    (x0 x1 : Vec Ideal S8x32x128 .f32) (k : Fin 32) (a : Fin 128),
    out1_A_2 (F := Ideal) c i arg2 harg2 arg3 harg3 arg4 harg4 hc0 x0 x1 (ix2 k a) = ∑ a' : Fin 128, Ideal.exp (-(∑ d : Fin 8, max (x0 (ix3 d k a) - x1 (ix3 d k a')) (-(x0 (ix3 d k a) - x1 (ix3 d k a'))))))
variable (hB : ∀ (c : Dev nD) (i : grid1.Coords) (arg2 : Memref sig .tc .vmem S8x32x128 .f32) (harg2 : arg2.IsWhole) (arg3 : Memref sig .tc .vmem S8x32x128 .f32) (harg3 : arg3.IsWhole) (arg4 : Memref sig .tc .vmem S32x128 .f32) (harg4 : arg4.IsWhole) (hc0 : ¬cond1_0 i)
    (x0 x1 : Vec Ideal S8x32x128 .f32) (xo2 : Vec Ideal S32x128 .f32) (k : Fin 32) (a : Fin 128),
    out1_B_2 (F := Ideal) c i arg2 harg2 arg3 harg3 arg4 harg4 hc0 x0 x1 xo2 (ix2 k a) = xo2 (ix2 k a) + ∑ a' : Fin 128, Ideal.exp (-(∑ d : Fin 8, max (x0 (ix3 d k a) - x1 (ix3 d k a')) (-(x0 (ix3 d k a) - x1 (ix3 d k a'))))))

include hA in
/-- At a point of key block 0 the output block ends at that block's share. -/
theorem out_A (c : Dev nD) (t : Fin cfg1.N) (h0 : t.val % 8 = 0) (k : Fin 32) (a : Fin 128) :
    outsAt1 V c t.val t.isLt (ix2 k a) = partZ (zArr V c) k (colAt t.val t.isLt a) (jAt t.val) := by
  refine (congrFun (outsAt1_A V c t h0) (ix2 k a)).trans ?_
  refine (hA c (grid1.coords t) (ms1_0 t) (hs1_0 t) (ms1_1 t) (hs1_1 t) (ms1_2 t) (hs1_2 t) ((hcond1_0 t).mpr h0) (iblk1 V c 0 t) (iblk1 V c 1 t) k a).trans ?_
  exact share_eq V c t k a _ _ rfl rfl

include hB in
/-- At a point of another key block it ends at what the point before left plus the block's share. -/
theorem out_B (c : Dev nD) (t : Fin cfg1.N) (h0 : ¬t.val % 8 = 0) (k : Fin 32) (a : Fin 128) :
    outsAt1 V c t.val t.isLt (ix2 k a)
      = (outsAt1 V c (t.val - 1) (Nat.lt_of_le_of_lt (Nat.sub_le _ _) t.isLt)) (ix2 k a) + partZ (zArr V c) k (colAt t.val t.isLt a) (jAt t.val) := by
  refine (congrFun (outsAt1_B V c t h0) (ix2 k a)).trans ?_
  refine (hB c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) k a).trans ?_
  exact congrArg ((outsAt1 V c (t.val - 1) (Nat.lt_of_le_of_lt (Nat.sub_le _ _) t.isLt)) (ix2 k a) + ·) (share_eq V c t k a _ _ rfl rfl)

include hA hB in
/-- THE OUTPUT BLOCK after the point at position `n`: entry (k, a) is the sum of the shares of the key blocks
    0 ... n % 8 at row 128 (n / 8) + a — by induction on the position. -/
theorem outs_eq (c : Dev nD) : ∀ (n : ℕ) (h : n < cfg1.N) (k : Fin 32) (a : Fin 128),
    outsAt1 V c n h (ix2 k a) = prefixSum (partZ (zArr V c) k (colAt n h a)) (n % 8 + 1)
  | 0, h, k, a => (out_A V hA c ⟨0, h⟩ rfl k a).trans (acc_first _ 0 rfl)
  | n + 1, h, k, a => by
    by_cases h0 : (n + 1) % 8 = 0
    · exact (out_A V hA c ⟨n + 1, h⟩ h0 k a).trans (acc_first _ (n + 1) h0)
    · have ih := outs_eq c n (Nat.lt_of_succ_lt h) k a
      have hcol : colAt (n + 1) h a = colAt n (Nat.lt_of_succ_lt h) a :=
        Fin.ext (by show 128 * ((n + 1) / 8) + a.val = 128 * (n / 8) + a.val; omega)
      refine (out_B V hB c ⟨n + 1, h⟩ h0 k a).trans ?_
      show outsAt1 V c n _ (ix2 k a) + partZ (zArr V c) k (colAt (n + 1) h a) (jAt (n + 1)) = _
      rw [ih, hcol]
      exact acc_next _ n h0

/-! ## From the blocks to the array -/

include hA hB in
/-- What a point that writes back (key block 7) writes is its block of the closeness sums. -/
theorem flushed_eq (c : Dev nD) (t : Fin cfg1.N) (hf : (cfg1.win 2).flush t = true) :
    (dat1 V q c).flushed 2 t = ((cfg1.win 2).blk t).view.read (Elt Ideal) (fun i => total (zArr V c) (i 0) (i 1)) := by
  have h7 : t.val % 8 = 7 := (flush1_2 t).mp hf
  show (cfg1.win 2).cut (grid1.coords t) ((dat1 V q c).after 2 t) = _
  rw [after1_2]
  refine funext fun (j : S32x128.Idx) => ?_
  obtain ⟨k, a, rfl⟩ : ∃ (k : Fin 32) (a : Fin 128), j = ix2 k a := ⟨j 0, j 1, eq_ix2 j⟩
  rw [View.read_apply]
  show outsAt1 V c t.val t.isLt (ix2 k a) = total (zArr V c) ((((cfg1.win 2).blk t).view.emb (ix2 k a)) 0) ((((cfg1.win 2).blk t).view.emb (ix2 k a)) 1)
  have e0 : (((cfg1.win 2).blk t).view.emb (ix2 k a)) 0 = k := Fin.ext (by
    show win1_2.index t 0 * 32 + 1 * k.val = k.val
    rw [(idx1_2 t).1]; omega)
  have e1 : (((cfg1.win 2).blk t).view.emb (ix2 k a)) 1 = colAt t.val t.isLt a := Fin.ext (by
    show win1_2.index t 1 * 128 + 1 * a.val = 128 * (t.val / 8) + a.val
    rw [(idx1_2 t).2]; omega)
  rw [e0, e1, outs_eq V hA hB c t.val t.isLt k a, h7, total_blocks]
  exact prefixSum_all _

/-- An index of the result is in point `t`'s block iff each coordinate is in the block's range on its axis. -/
theorem mem_blk (t : Fin cfg1.N) (i : S32x1024.Idx) :
    i ∈ ((cfg1.win 2).blk t).view.set ↔ ∀ a : Fin 2, win1_2.index t a * S32x128.size a ≤ (i a).val ∧ (i a).val < win1_2.index t a * S32x128.size a + S32x128.size a := by
  show i ∈ ((View.whole main_v3).slice (win1_2.rect t)).set ↔ _
  rw [View.set_slice_whole, Rect.mem_set_unit]
  exact Iff.rfl

include hA hB in
/-- THE RESULT OF REGION 1: after the run its array holds, at feature k and row b, the closeness of row b to every row
    of the batch in feature k, added: column b is written by the point 8 (b / 128) + 7. -/
theorem final1 (c : Dev nD) : (dat1 (F := Ideal) V q c).arrAt 2 cfg1.N = fun i => ∑ b' : Fin 1024, Ideal.exp (-(∑ d : Fin 8, max (zArr V c (ix3 d (i 0) (i 1)) - zArr V c (ix3 d (i 0) b')) (-(zArr V c (ix3 d (i 0) (i 1)) - zArr V c (ix3 d (i 0) b'))))) :=
  (dat1 V q c).arrAt_eq_of_cover 2 (fun i => total (zArr V c) (i 0) (i 1)) (flushed_eq V q hA hB c) fun i => by
    have hN : cfg1.N = 64 := N_1
    have hi0 : (i 0).val < 32 := (i 0).isLt
    have hi1 : (i 1).val < 1024 := (i 1).isLt
    let t : Fin cfg1.N := ⟨8 * ((i 1).val / 128) + 7, by omega⟩
    have ht : t.val = 8 * ((i 1).val / 128) + 7 := rfl
    refine ⟨t, (flush1_2 t).mpr (by rw [ht]; omega), ?_⟩
    rw [mem_blk]
    intro a
    match a with
    | ⟨0, _⟩ =>
      show win1_2.index t 0 * 32 ≤ (i 0).val ∧ (i 0).val < win1_2.index t 0 * 32 + 32
      rw [(idx1_2 t).1]; omega
    | ⟨1, _⟩ =>
      show win1_2.index t 1 * 128 ≤ (i 1).val ∧ (i 1).val < win1_2.index t 1 * 128 + 128
      rw [(idx1_2 t).2, ht]; omega

end Points

end Cert.KernelIdeal.R1V

end
-- ==== Proof.lean ====
/-
  A minibatch-discrimination layer. The kernel forms m = x · W block by block (a [256,256] accumulator carried over
  four K-blocks of 512), reads m as [1024,32,8], transposes it to z : [8,32,1024], and for every pair of a query block
  and a key block of 128 rows accumulates, row by row of the 32 kernels,
      o[k, b] += Σ_{b' in the key block} exp(−Σ_d |z[d,k,b] − z[d,k,b']|),
  so that after the eight key blocks o[k, b] = Σ_{b'} exp(−Σ_d |m[b,k,d] − m[b',k,d]|); the result is x beside the
  transpose of o. The reference computes the same feature with one matrix product, broadcasts and two sums. Over the
  extended reals the two agree entry by entry: the only laws used are that a sum over 2048 (or 1024) terms is the sum
  of its four (eight) blocks' sums, that 0 + a = a and 0 − a = −a, and that a change of float format is the identity;
  no finiteness of the inputs is needed.

  The frames: @main is run as four segments (region 0, two host operations, region 1, two host operations); each
  region's body is run once per control case (first / middle / last K-block; first / later key block), the
  accumulators' contents carried from point to point; region 1's two input windows read one array, held by halves.
-/
import proofs.«161723_j52879637348745_2_alg».proof.Defs
import proofs.«161723_j52879637348745_2_alg».proof.Proof.Gen.Kernel
import proofs.«161723_j52879637348745_2_alg».proof.Proof.Gen.KernelIdeal
import proofs.«161723_j52879637348745_2_alg».proof.Proof.Gen.ReferenceIdeal
import proofs.«161723_j52879637348745_2_alg».proof.Proof.Gen.Pre_finite_inputs
import proofs.«161723_j52879637348745_2_alg».proof.Proof.Gen.ReferenceIdeal.Run
import proofs.«161723_j52879637348745_2_alg».proof.Proof.Gen.ReferenceIdeal.Read
import proofs.«161723_j52879637348745_2_alg».proof.Proof.KGlue
import proofs.«161723_j52879637348745_2_alg».proof.Proof.Result
import proofs.«161723_j52879637348745_2_alg».proof.Proof.RefValue
import proofs.«161723_j52879637348745_2_alg».proof.Proof.R0Value
import proofs.«161723_j52879637348745_2_alg».proof.Proof.R1Value
import proofs.«161723_j52879637348745_2_alg».proof.Proof.R1Final
import Idealize.ShloMosaic.Adequacy
import Idealize.ShloMosaic.Init

noncomputable section

namespace Cert.Proof

open Idealize.ShloMosaic Idealize.ShloMosaic.TcCoe Idealize.SL.Sem

/-- The word-level program runs to the end and leaves its arguments as launched: its run read at the two arguments. -/
theorem frame_k : Cert.frame_Kernel := fun m ρ _ =>
  (θ_run Cert.Kernel.defs _ _).mono (fun _ h c =>
      ⟨(h c _ (Cert.Kernel.Run.mem_uc Cert.Kernel.main_arg0 (by decide))).trans (Cert.Kernel.Glue.W4_arg0 m ρ c),
        (h c _ (Cert.Kernel.Run.mem_uc Cert.Kernel.main_arg1 (by decide))).trans (Cert.Kernel.Glue.W4_arg1 m ρ c)⟩)
    (Cert.Kernel.Run.run_main (F := Bits) m ρ)

/-- The same for the idealized program, read at the extended reals. -/
theorem frame_ki : Cert.frame_KernelIdeal := fun m ρ _ =>
  (θ_run Cert.KernelIdeal.defs _ _).mono (fun _ h c =>
      ⟨(h c _ (Cert.KernelIdeal.Run.mem_uc Cert.KernelIdeal.main_arg0 (by decide))).trans (Cert.KernelIdeal.Glue.W4_arg0 m ρ c),
        (h c _ (Cert.KernelIdeal.Run.mem_uc Cert.KernelIdeal.main_arg1 (by decide))).trans (Cert.KernelIdeal.Glue.W4_arg1 m ρ c)⟩)
    (Cert.KernelIdeal.Run.run_main (F := Ideal) m ρ)

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the specification of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Run.mem_uc Cert.KernelIdeal.main_v5 (by decide))).trans
          (Cert.KernelIdeal.Result.result_eq m ρ c (Cert.KernelIdeal.R0V.final0 _ c) (Cert.KernelIdeal.R1V.final1 _ _ Cert.KernelIdeal.R1V.out1_A_2_apply Cert.KernelIdeal.R1V.out1_B_2_apply c)),
        (h c _ (Cert.KernelIdeal.Run.mem_uc Cert.KernelIdeal.main_arg0 (by decide))).trans (Cert.KernelIdeal.Glue.W4_arg0 m ρ c),
        (h c _ (Cert.KernelIdeal.Run.mem_uc Cert.KernelIdeal.main_arg1 (by decide))).trans (Cert.KernelIdeal.Glue.W4_arg1 m ρ c)⟩)
      (Cert.KernelIdeal.Run.run_main (F := Ideal) m ρ)
  · refine (θ_run Cert.ReferenceIdeal.defs _ _).mono (fun _ h c => ⟨?_, (h c).2⟩) (Cert.ReferenceIdeal.RefValue.ref_run m' ρ')
    rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
